-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x7 : Shape := ⟨2, ![262144, 7]⟩
abbrev S262144x16 : Shape := ⟨2, ![262144, 16]⟩
abbrev S7 : Shape := ⟨1, ![7]⟩
abbrev S17x32 : Shape := ⟨2, ![17, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S262144x7 : S_.BroadcastsInDim S262144x7 (![] : Fin 0 → Fin S262144x7.rank)
  reducesTo_S262144x7_S_d0_1 : S262144x7.ReducesTo [0, 1] S_
  h_S_ : 0 < S_.numel
  bcast_S_S262144x16 : S_.BroadcastsInDim S262144x16 (![] : Fin 0 → Fin S262144x16.rank)
  reducesTo_S262144x16_S_d0_1 : S262144x16.ReducesTo [0, 1] S_
  bcast_S_S7 : S_.BroadcastsInDim S7 (![] : Fin 0 → Fin S7.rank)
  reducesTo_S7_S_d0 : S7.ReducesTo [0] S_
  bcast_S_S17x32 : S_.BroadcastsInDim S17x32 (![] : Fin 0 → Fin S17x32.rank)
  reducesTo_S17x32_S_d0_1 : S17x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S16x1 .f32) (main_arg8 : FVec F S1 .f32) (main_v33 : IVec S_ 1) : IVec S_ 1 :=
  let main_v34 : FVec F S16x1 .f32 := Host.absf main_arg7
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S32 .f32) (main_arg5 : FVec F S32x16 .f32) (main_arg6 : FVec F S16 .f32) (main_arg7 : FVec F S16x1 .f32) (main_arg8 : FVec F S1 .f32) (main_v13 : IVec S_ 1) (main_v16 : IVec S17x32 1) : IVec S_ 1 :=
  let main_c_5 : IVec S_ 1 := constantI S_ 1 1#1
  let main_v17 : IVec S_ 1 := (fun x v => Host.reduce IntOp.andi x v reducesTo_S17x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg5
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_v33

def fn {F : FTy → Type} [FloatOps F] (main_arg0 : FVec F S262144x7 .f32) (main_arg1 : FVec F S262144x16 .f32) (main_arg2 : FVec F S7 .f32) (main_arg3 : FVec F S17x32 .f32) (main_arg4 : FVec F S32 .f32) (main_arg5 : FVec F S32x16 .f32) (main_arg6 : FVec F S16 .f32) (main_arg7 : FVec F S16x1 .f32) (main_arg8 : FVec F S1 .f32) : IVec S_ 1 :=
  let main_v0 : FVec F S262144x7 .f32 := Host.absf main_arg0
  let main_cst : FVec F S_ .f32 := constant S_ .f32 0x7F800000#32
  let main_v1 : FVec F S262144x7 .f32 := broadcastInDim S262144x7 ![] bcast_S_S262144x7 main_cst
  let main_v2 : IVec S262144x7 1 := cmpf .olt main_v0 main_v1
  let main_c : IVec S_ 1 := constantI S_ 1 1#1
  let main_v3 : IVec S_ 1 := (fun x v => Host.reduce IntOp.andi x v reducesTo_S262144x7_S_d0_1 h_S_) main_v2 main_c
  let main_v4 : FVec F S262144x16 .f32 := Host.absf main_arg1
  let main_cst_0 : FVec F S_ .f32 := constant S_ .f32 0x7F800000#32
  let main_v5 : FVec F S262144x16 .f32 := broadcastInDim S262144x16 ![] bcast_S_S262144x16 main_cst_0
  let main_v6 : IVec S262144x16 1 := cmpf .olt main_v4 main_v5
  let main_c_1 : IVec S_ 1 := constantI S_ 1 1#1
  let main_v7 : IVec S_ 1 := (fun x v => Host.reduce IntOp.andi x v reducesTo_S262144x16_S_d0_1 h_S_) main_v6 main_c_1
  let main_v8 : IVec S_ 1 := andi main_v3 main_v7
  let main_v9 : FVec F S7 .f32 := Host.absf main_arg2
  let main_cst_2 : FVec F S_ .f32 := constant S_ .f32 0x7F800000#32
  let main_v10 : FVec F S7 .f32 := broadcastInDim S7 ![] bcast_S_S7 main_cst_2
  let main_v11 : IVec S7 1 := cmpf .olt main_v9 main_v10
  let main_c_3 : IVec S_ 1 := constantI S_ 1 1#1
  let main_v12 : IVec S_ 1 := (fun x v => Host.reduce IntOp.andi x v reducesTo_S7_S_d0 h_S_) main_v11 main_c_3
  let main_v13 : IVec S_ 1 := andi main_v8 main_v12
  let main_v14 : FVec F S17x32 .f32 := Host.absf main_arg3
  let main_cst_4 : FVec F S_ .f32 := constant S_ .f32 0x7F800000#32
  let main_v15 : FVec F S17x32 .f32 := broadcastInDim S17x32 ![] bcast_S_S17x32 main_cst_4
  let main_v16 : IVec S17x32 1 := cmpf .olt main_v14 main_v15
  fn_part1 (F := F) main_arg4 main_arg5 main_arg6 main_arg7 main_arg8 main_v13 main_v16
-- ==== Kernel.lean ====
abbrev S262144x7 : Shape := ⟨2, ![262144, 7]⟩
abbrev S262144x16 : Shape := ⟨2, ![262144, 16]⟩
abbrev S7 : Shape := ⟨1, ![7]⟩
abbrev S17x32 : Shape := ⟨2, ![17, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x7 : Shape := ⟨2, ![1, 7]⟩
abbrev S1x32 : Shape := ⟨2, ![1, 32]⟩
abbrev S1x16 : Shape := ⟨2, ![1, 16]⟩
abbrev S1x1 : Shape := ⟨2, ![1, 1]⟩
abbrev S262144x1 : Shape := ⟨2, ![262144, 1]⟩
abbrev S8192x7 : Shape := ⟨2, ![8192, 7]⟩
abbrev S8192x16 : Shape := ⟨2, ![8192, 16]⟩
abbrev S8192x1 : Shape := ⟨2, ![8192, 1]⟩
abbrev S8192x6 : Shape := ⟨2, ![8192, 6]⟩
abbrev S1x6 : Shape := ⟨2, ![1, 6]⟩
abbrev S8192x17 : Shape := ⟨2, ![8192, 17]⟩
abbrev S8192x32 : Shape := ⟨2, ![8192, 32]⟩

abbrev nBuf : Space → Nat
  | .hbm => 14
  | .vmem => 13
  | .smem => 0
  | _ => 0

abbrev bufTy : (tb : Table) → Fin (tcTables nBuf tb) → BufTy
  | .hbm, ⟨0, _⟩ => ⟨S262144x7, .f32⟩
  | .hbm, ⟨1, _⟩ => ⟨S262144x16, .f32⟩
  | .hbm, ⟨2, _⟩ => ⟨S7, .f32⟩
  | .hbm, ⟨3, _⟩ => ⟨S17x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S16x1, .f32⟩
  | .hbm, ⟨8, _⟩ => ⟨S1, .f32⟩
  | .hbm, ⟨9, _⟩ => ⟨S1x7, .f32⟩
  | .hbm, ⟨10, _⟩ => ⟨S1x32, .f32⟩
  | .hbm, ⟨11, _⟩ => ⟨S1x16, .f32⟩
  | .hbm, ⟨12, _⟩ => ⟨S1x1, .f32⟩
  | .hbm, ⟨13, _⟩ => ⟨S262144x1, .f32⟩
  | .local _ .vmem, ⟨0, _⟩ => ⟨S8192x7, .f32⟩
  | .local _ .vmem, ⟨1, _⟩ => ⟨S8192x7, .f32⟩
  | .local _ .vmem, ⟨2, _⟩ => ⟨S8192x16, .f32⟩
  | .local _ .vmem, ⟨3, _⟩ => ⟨S8192x16, .f32⟩
  | .local _ .vmem, ⟨4, _⟩ => ⟨S1x7, .f32⟩
  | .local _ .vmem, ⟨5, _⟩ => ⟨S17x32, .f32⟩
  | .local _ .vmem, ⟨6, _⟩ => ⟨S1x32, .f32⟩
  | .local _ .vmem, ⟨7, _⟩ => ⟨S32x16, .f32⟩
  | .local _ .vmem, ⟨8, _⟩ => ⟨S1x16, .f32⟩
  | .local _ .vmem, ⟨9, _⟩ => ⟨S16x1, .f32⟩
  | .local _ .vmem, ⟨10, _⟩ => ⟨S1x1, .f32⟩
  | .local _ .vmem, ⟨11, _⟩ => ⟨S8192x1, .f32⟩
  | .local _ .vmem, ⟨12, _⟩ => ⟨S8192x1, .f32⟩
  | _, _ => ⟨S262144x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S17x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8192x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S7_S1x7 : S7.ShapeCasts S1x7
  shapeCasts_S32_S1x32 : S32.ShapeCasts S1x32
  shapeCasts_S16_S1x16 : S16.ShapeCasts S1x16
  shapeCasts_S1_S1x1 : S1.ShapeCasts S1x1
  inb_S8192x7_S8192x7_0_0 : ∀ a, (![0, 0] : Fin 2 → Nat) a + S8192x7.size a ≤ S8192x7.size a
  h_S8192x7 : 0 < S8192x7.numel
  inb_S8192x16_S8192x16_0_0 : ∀ a, (![0, 0] : Fin 2 → Nat) a + S8192x16.size a ≤ S8192x16.size a
  h_S8192x16 : 0 < S8192x16.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  slices_S8192x7_o0_1_S8192x6 : S8192x7.Slices ![0, 1] S8192x6
  slices_S1x7_o0_1_S1x6 : S1x7.Slices ![0, 1] S1x6
  broadcasts_S1x6_S8192x6 : S1x6.Broadcasts S8192x6
  slices_S8192x6_o0_0_S8192x1 : S8192x6.Slices ![0, 0] S8192x1
  slices_S8192x6_o0_1_S8192x1 : S8192x6.Slices ![0, 1] S8192x1
  slices_S8192x6_o0_2_S8192x1 : S8192x6.Slices ![0, 2] S8192x1
  slices_S8192x6_o0_3_S8192x1 : S8192x6.Slices ![0, 3] S8192x1
  slices_S8192x6_o0_4_S8192x1 : S8192x6.Slices ![0, 4] S8192x1
  slices_S8192x6_o0_5_S8192x1 : S8192x6.Slices ![0, 5] S8192x1
  concatenates_S8192x1_S8192x16_S8192x17_d1 : Shape.Concatenates [S8192x1, S8192x16] S8192x17 1
  inb_S17x32_S17x32_0_0 : ∀ a, (![0, 0] : Fin 2 → Nat) a + S17x32.size a ≤ S17x32.size a
  h_S17x32 : 0 < S17x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8192x32 : S1x32.Broadcasts S8192x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8192x16 : S1x16.Broadcasts S8192x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  dot_S8192x17_S17x32_S8192x32_1_0_0_1_n_n_wf : DotDims.WF S8192x17 S17x32 S8192x32 [1] [0] [0] [1] [] []
  dot_S8192x32_S32x16_S8192x16_1_0_0_1_n_n_wf : DotDims.WF S8192x32 S32x16 S8192x16 [1] [0] [0] [1] [] []
  dot_S8192x16_S16x1_S8192x1_1_0_0_1_n_n_wf : DotDims.WF S8192x16 S16x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x7.size a ≤ S262144x7.size a
  hwx0_0 : ∀ i : grid0.Coords, EltTy.bits .f32 = 32 ∨ (Rect.block (s := S262144x7) S8192x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x16.size a ≤ S262144x16.size a
  hwx0_1 : ∀ i : grid0.Coords, EltTy.bits .f32 = 32 ∨ (Rect.block (s := S262144x16) S8192x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x7.size a ≤ S1x7.size a
  hwx0_2 : ∀ i : grid0.Coords, EltTy.bits .f32 = 32 ∨ (Rect.block (s := S1x7) S1x7.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S17x32.size a ≤ S17x32.size a
  hwx0_3 : ∀ i : grid0.Coords, EltTy.bits .f32 = 32 ∨ (Rect.block (s := S17x32) S17x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x16.size a ≤ S32x16.size a
  hwx0_5 : ∀ i : grid0.Coords, EltTy.bits .f32 = 32 ∨ (Rect.block (s := S32x16) S32x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x1.size a ≤ S16x1.size a
  hwx0_7 : ∀ i : grid0.Coords, EltTy.bits .f32 = 32 ∨ (Rect.block (s := S16x1) S16x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8192x1.size a ≤ S262144x1.size a
  hwx0_9 : ∀ i : grid0.Coords, EltTy.bits .f32 = 32 ∨ (Rect.block (s := S262144x1) S8192x1.size (cc0_transform_9 i) (hinb0_9 i)).WholeWords (EltTy.packing .f32)

variable [Facts₀]

def dot_S8192x17_S17x32_S8192x32_1_0_0_1_n_n : DotDims S8192x17 S17x32 S8192x32 where
  lhsContracting := [1]
  rhsContracting := [0]
  lhsNonContracting := [0]
  rhsNonContracting := [1]
  lhsBatch := []
  rhsBatch := []
  wf := dot_S8192x17_S17x32_S8192x32_1_0_0_1_n_n_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def dot_S8192x16_S16x1_S8192x1_1_0_0_1_n_n : DotDims S8192x16 S16x1 S8192x1 where
  lhsContracting := [1]
  rhsContracting := [0]
  lhsNonContracting := [0]
  rhsNonContracting := [1]
  lhsBatch := []
  rhsBatch := []
  wf := dot_S8192x16_S16x1_S8192x1_1_0_0_1_n_n_wf

abbrev win0_0 : Pipeline.Window sig grid0 :=
  Pipeline.Window.ofSpec (Memref.whole main_arg0) S8192x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x7.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S17x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S8192x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x7 : Shape := ⟨2, ![262144, 7]⟩
abbrev S262144x16 : Shape := ⟨2, ![262144, 16]⟩
abbrev S7 : Shape := ⟨1, ![7]⟩
abbrev S17x32 : Shape := ⟨2, ![17, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x7 : Shape := ⟨2, ![1, 7]⟩
abbrev S_ : Shape := ⟨0, ![]⟩
abbrev S262144x1 : Shape := ⟨2, ![262144, 1]⟩
abbrev S262144 : Shape := ⟨1, ![262144]⟩
abbrev S262144x2 : Shape := ⟨2, ![262144, 2]⟩
abbrev S262144x1x1 : Shape := ⟨3, ![262144, 1, 1]⟩
abbrev S262144x1x2 : Shape := ⟨3, ![262144, 1, 2]⟩
abbrev S262144x2x1 : Shape := ⟨3, ![262144, 2, 1]⟩
abbrev S262144x2x2 : Shape := ⟨3, ![262144, 2, 2]⟩
abbrev S262144x4 : Shape := ⟨2, ![262144, 4]⟩
abbrev S262144x4x1 : Shape := ⟨3, ![262144, 4, 1]⟩
abbrev S262144x4x2 : Shape := ⟨3, ![262144, 4, 2]⟩
abbrev S262144x8 : Shape := ⟨2, ![262144, 8]⟩
abbrev S262144x8x1 : Shape := ⟨3, ![262144, 8, 1]⟩
abbrev S262144x8x2 : Shape := ⟨3, ![262144, 8, 2]⟩
abbrev S262144x16x1 : Shape := ⟨3, ![262144, 16, 1]⟩
abbrev S262144x16x2 : Shape := ⟨3, ![262144, 16, 2]⟩
abbrev S262144x32 : Shape := ⟨2, ![262144, 32]⟩
abbrev S262144x32x1 : Shape := ⟨3, ![262144, 32, 1]⟩
abbrev S262144x32x2 : Shape := ⟨3, ![262144, 32, 2]⟩
abbrev S262144x64 : Shape := ⟨2, ![262144, 64]⟩
abbrev S262144x64x1 : Shape := ⟨3, ![262144, 64, 1]⟩
abbrev S262144x64x2 : Shape := ⟨3, ![262144, 64, 2]⟩
abbrev S262144x128 : Shape := ⟨2, ![262144, 128]⟩
abbrev S262144x2x2x2x2x2x2x2 : Shape := ⟨8, ![262144, 2, 2, 2, 2, 2, 2, 2]⟩
abbrev S262144x1x2x2x2x2x2x2 : Shape := ⟨8, ![262144, 1, 2, 2, 2, 2, 2, 2]⟩
abbrev S262144x2x1x2x2x2x2x2 : Shape := ⟨8, ![262144, 2, 1, 2, 2, 2, 2, 2]⟩
abbrev S262144x2x2x1x2x2x2x2 : Shape := ⟨8, ![262144, 2, 2, 1, 2, 2, 2, 2]⟩
abbrev S262144x2x2x2x1x2x2x2 : Shape := ⟨8, ![262144, 2, 2, 2, 1, 2, 2, 2]⟩
abbrev S262144x2x2x2x2x1x2x2 : Shape := ⟨8, ![262144, 2, 2, 2, 2, 1, 2, 2]⟩
abbrev S262144x2x2x2x2x2x1x2 : Shape := ⟨8, ![262144, 2, 2, 2, 2, 2, 1, 2]⟩
abbrev S262144x2x2x2x2x2x2x1 : Shape := ⟨8, ![262144, 2, 2, 2, 2, 2, 2, 1]⟩
abbrev S262144x2x64 : Shape := ⟨3, ![262144, 2, 64]⟩
abbrev S262144x17 : Shape := ⟨2, ![262144, 17]⟩
abbrev S1x32 : Shape := ⟨2, ![1, 32]⟩
abbrev S1x16 : Shape := ⟨2, ![1, 16]⟩
abbrev S1x1 : Shape := ⟨2, ![1, 1]⟩

abbrev nBuf : Space → Nat
  | .hbm => 167
  | .vmem => 0
  | .smem => 0
  | _ => 0

abbrev hbmTy0_0 (i : Nat) : BufTy := match i % 128 with
  | 0 => ⟨S262144x7, .f32⟩
  | 1 => ⟨S262144x16, .f32⟩
  | 2 => ⟨S7, .f32⟩
  | 3 => ⟨S17x32, .f32⟩
  | 4 => ⟨S32, .f32⟩
  | 5 => ⟨S32x16, .f32⟩
  | 6 => ⟨S16, .f32⟩
  | 7 => ⟨S16x1, .f32⟩
  | 8 => ⟨S1, .f32⟩
  | 9 => ⟨S1x7, .f32⟩
  | 10 => ⟨S262144x7, .f32⟩
  | 11 => ⟨S262144x7, .f32⟩
  | 12 => ⟨S_, .f32⟩
  | 13 => ⟨S262144x7, .f32⟩
  | 14 => ⟨S262144x7, .f32⟩
  | 15 => ⟨S262144x7, .f32⟩
  | 16 => ⟨S262144x7, .f32⟩
  | 17 => ⟨S_, .f32⟩
  | 18 => ⟨S262144x1, .f32⟩
  | 19 => ⟨S262144x1, .f32⟩
  | 20 => ⟨S262144, .f32⟩
  | 21 => ⟨S262144x1, .f32⟩
  | 22 => ⟨S262144, .f32⟩
  | 23 => ⟨S262144x1, .f32⟩
  | 24 => ⟨S262144x1, .f32⟩
  | 25 => ⟨S262144x2, .f32⟩
  | 26 => ⟨S262144x1x1, .f32⟩
  | 27 => ⟨S262144x1x2, .f32⟩
  | 28 => ⟨S262144x1x2, .f32⟩
  | 29 => ⟨S262144x1x2, .f32⟩
  | 30 => ⟨S262144x2, .f32⟩
  | 31 => ⟨S262144x1, .f32⟩
  | 32 => ⟨S262144, .f32⟩
  | 33 => ⟨S262144x1, .f32⟩
  | 34 => ⟨S262144, .f32⟩
  | 35 => ⟨S262144x1, .f32⟩
  | 36 => ⟨S262144x1, .f32⟩
  | 37 => ⟨S262144x2, .f32⟩
  | 38 => ⟨S262144x2x1, .f32⟩
  | 39 => ⟨S262144x1x2, .f32⟩
  | 40 => ⟨S262144x2x2, .f32⟩
  | 41 => ⟨S262144x2x2, .f32⟩
  | 42 => ⟨S262144x2x2, .f32⟩
  | 43 => ⟨S262144x4, .f32⟩
  | 44 => ⟨S262144x1, .f32⟩
  | 45 => ⟨S262144, .f32⟩
  | 46 => ⟨S262144x1, .f32⟩
  | 47 => ⟨S262144, .f32⟩
  | 48 => ⟨S262144x1, .f32⟩
  | 49 => ⟨S262144x1, .f32⟩
  | 50 => ⟨S262144x2, .f32⟩
  | 51 => ⟨S262144x4x1, .f32⟩
  | 52 => ⟨S262144x1x2, .f32⟩
  | 53 => ⟨S262144x4x2, .f32⟩
  | 54 => ⟨S262144x4x2, .f32⟩
  | 55 => ⟨S262144x4x2, .f32⟩
  | 56 => ⟨S262144x8, .f32⟩
  | 57 => ⟨S262144x1, .f32⟩
  | 58 => ⟨S262144, .f32⟩
  | 59 => ⟨S262144x1, .f32⟩
  | 60 => ⟨S262144, .f32⟩
  | 61 => ⟨S262144x1, .f32⟩
  | 62 => ⟨S262144x1, .f32⟩
  | 63 => ⟨S262144x2, .f32⟩
  | 64 => ⟨S262144x8x1, .f32⟩
  | 65 => ⟨S262144x1x2, .f32⟩
  | 66 => ⟨S262144x8x2, .f32⟩
  | 67 => ⟨S262144x8x2, .f32⟩
  | 68 => ⟨S262144x8x2, .f32⟩
  | 69 => ⟨S262144x16, .f32⟩
  | 70 => ⟨S262144x1, .f32⟩
  | 71 => ⟨S262144, .f32⟩
  | 72 => ⟨S262144x1, .f32⟩
  | 73 => ⟨S262144, .f32⟩
  | 74 => ⟨S262144x1, .f32⟩
  | 75 => ⟨S262144x1, .f32⟩
  | 76 => ⟨S262144x2, .f32⟩
  | 77 => ⟨S262144x16x1, .f32⟩
  | 78 => ⟨S262144x1x2, .f32⟩
  | 79 => ⟨S262144x16x2, .f32⟩
  | 80 => ⟨S262144x16x2, .f32⟩
  | 81 => ⟨S262144x16x2, .f32⟩
  | 82 => ⟨S262144x32, .f32⟩
  | 83 => ⟨S262144x1, .f32⟩
  | 84 => ⟨S262144, .f32⟩
  | 85 => ⟨S262144x1, .f32⟩
  | 86 => ⟨S262144, .f32⟩
  | 87 => ⟨S262144x1, .f32⟩
  | 88 => ⟨S262144x1, .f32⟩
  | 89 => ⟨S262144x2, .f32⟩
  | 90 => ⟨S262144x32x1, .f32⟩
  | 91 => ⟨S262144x1x2, .f32⟩
  | 92 => ⟨S262144x32x2, .f32⟩
  | 93 => ⟨S262144x32x2, .f32⟩
  | 94 => ⟨S262144x32x2, .f32⟩
  | 95 => ⟨S262144x64, .f32⟩
  | 96 => ⟨S262144x1, .f32⟩
  | 97 => ⟨S262144, .f32⟩
  | 98 => ⟨S262144x1, .f32⟩
  | 99 => ⟨S262144, .f32⟩
  | 100 => ⟨S262144x1, .f32⟩
  | 101 => ⟨S262144x1, .f32⟩
  | 102 => ⟨S262144x2, .f32⟩
  | 103 => ⟨S262144x64x1, .f32⟩
  | 104 => ⟨S262144x1x2, .f32⟩
  | 105 => ⟨S262144x64x2, .f32⟩
  | 106 => ⟨S262144x64x2, .f32⟩
  | 107 => ⟨S262144x64x2, .f32⟩
  | 108 => ⟨S262144x128, .f32⟩
  | 109 => ⟨S262144x2x2x2x2x2x2x2, .f32⟩
  | 110 => ⟨S262144x1x2x2x2x2x2x2, .f32⟩
  | 111 => ⟨S262144x1x2x2x2x2x2x2, .f32⟩
  | 112 => ⟨S262144x1x2x2x2x2x2x2, .f32⟩
  | 113 => ⟨S262144x2x2x2x2x2x2x2, .f32⟩
  | 114 => ⟨S262144x2x1x2x2x2x2x2, .f32⟩
  | 115 => ⟨S262144x2x1x2x2x2x2x2, .f32⟩
  | 116 => ⟨S262144x2x1x2x2x2x2x2, .f32⟩
  | 117 => ⟨S262144x2x2x2x2x2x2x2, .f32⟩
  | 118 => ⟨S262144x2x2x1x2x2x2x2, .f32⟩
  | 119 => ⟨S262144x2x2x1x2x2x2x2, .f32⟩
  | 120 => ⟨S262144x2x2x1x2x2x2x2, .f32⟩
  | 121 => ⟨S262144x2x2x2x2x2x2x2, .f32⟩
  | 122 => ⟨S262144x2x2x2x1x2x2x2, .f32⟩
  | 123 => ⟨S262144x2x2x2x1x2x2x2, .f32⟩
  | 124 => ⟨S262144x2x2x2x1x2x2x2, .f32⟩
  | 125 => ⟨S262144x2x2x2x2x2x2x2, .f32⟩
  | 126 => ⟨S262144x2x2x2x2x1x2x2, .f32⟩
  | 127 => ⟨S262144x2x2x2x2x1x2x2, .f32⟩
  | _ => ⟨S262144x7, .f32⟩

abbrev hbmTy0_1 (i : Nat) : BufTy := match i % 128 with
  | 0 => ⟨S262144x2x2x2x2x1x2x2, .f32⟩
  | 1 => ⟨S262144x2x2x2x2x2x2x2, .f32⟩
  | 2 => ⟨S262144x2x2x2x2x2x1x2, .f32⟩
  | 3 => ⟨S262144x2x2x2x2x2x1x2, .f32⟩
  | 4 => ⟨S262144x2x2x2x2x2x1x2, .f32⟩
  | 5 => ⟨S262144x2x2x2x2x2x2x2, .f32⟩
  | 6 => ⟨S262144x2x2x2x2x2x2x1, .f32⟩
  | 7 => ⟨S262144x2x2x2x2x2x2x1, .f32⟩
  | 8 => ⟨S262144x2x2x2x2x2x2x1, .f32⟩
  | 9 => ⟨S262144x2x2x2x2x2x2x2, .f32⟩
  | 10 => ⟨S262144x2x2x2x2x2x2x2, .f32⟩
  | 11 => ⟨S262144x2x64, .f32⟩
  | 12 => ⟨S_, .f32⟩
  | 13 => ⟨S262144x2, .f32⟩
  | 14 => ⟨S262144x1, .f32⟩
  | 15 => ⟨S262144, .f32⟩
  | 16 => ⟨S262144x1, .f32⟩
  | 17 => ⟨S262144, .f32⟩
  | 18 => ⟨S262144, .f32⟩
  | 19 => ⟨S262144x1, .f32⟩
  | 20 => ⟨S262144x17, .f32⟩
  | 21 => ⟨S262144x32, .f32⟩
  | 22 => ⟨S1x32, .f32⟩
  | 23 => ⟨S262144x32, .f32⟩
  | 24 => ⟨S262144x32, .f32⟩
  | 25 => ⟨S_, .f32⟩
  | 26 => ⟨S262144x32, .f32⟩
  | 27 => ⟨S262144x32, .f32⟩
  | 28 => ⟨S262144x16, .f32⟩
  | 29 => ⟨S1x16, .f32⟩
  | 30 => ⟨S262144x16, .f32⟩
  | 31 => ⟨S262144x16, .f32⟩
  | 32 => ⟨S_, .f32⟩
  | 33 => ⟨S262144x16, .f32⟩
  | 34 => ⟨S262144x16, .f32⟩
  | 35 => ⟨S262144x1, .f32⟩
  | 36 => ⟨S1x1, .f32⟩
  | 37 => ⟨S262144x1, .f32⟩
  | 38 => ⟨S262144x1, .f32⟩
  | _ => ⟨S262144x7, .f32⟩

abbrev hbmTy (i : Nat) : BufTy := match i / 128 with
  | 0 => hbmTy0_0 i
  | 1 => hbmTy0_1 i
  | _ => ⟨S262144x7, .f32⟩

abbrev bufTy : (tb : Table) → Fin (tcTables nBuf tb) → BufTy
  | .hbm, ⟨i, _⟩ => hbmTy i
  | _, _ => ⟨S262144x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_cst_1 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_call7_cst : Ref sig .tc := ⟨.hbm, 153, rfl⟩
abbrev main_call7_v0 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_call8_cst : Ref sig .tc := ⟨.hbm, 160, rfl⟩
abbrev main_call8_v0 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩

abbrev nD : Nat := 1
abbrev τ : Topo := Topo.v7x

variable {F : FTy → Type} [FloatOps F]

class Facts₀ : Prop where
  bcast_S7_S1x7_1 : S7.BroadcastsInDim S1x7 (![1] : Fin 1 → Fin S1x7.rank)
  bcast_S1x7_S262144x7_0_1 : S1x7.BroadcastsInDim S262144x7 (![0, 1] : Fin 2 → Fin S262144x7.rank)
  bcast_S_S262144x7 : S_.BroadcastsInDim S262144x7 (![] : Fin 0 → Fin S262144x7.rank)
  bcast_S_S262144x1 : S_.BroadcastsInDim S262144x1 (![] : Fin 0 → Fin S262144x1.rank)
  slices_S262144x7_S262144x1_0_0 : S262144x7.Slices ![0, 0] S262144x1
  shapeCasts_S262144x1_S262144 : S262144x1.ShapeCasts S262144
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S262144x1_S262144x1x1_0_1 : S262144x1.BroadcastsInDim S262144x1x1 (![0, 1] : Fin 2 → Fin S262144x1x1.rank)
  bcast_S262144x2_S262144x1x2_0_2 : S262144x2.BroadcastsInDim S262144x1x2 (![0, 2] : Fin 2 → Fin S262144x1x2.rank)
  bcast_S262144x1x1_S262144x1x2_0_1_2 : S262144x1x1.BroadcastsInDim S262144x1x2 (![0, 1, 2] : Fin 3 → Fin S262144x1x2.rank)
  shapeCasts_S262144x1x2_S262144x2 : S262144x1x2.ShapeCasts S262144x2
  slices_S262144x7_S262144x1_0_1 : S262144x7.Slices ![0, 1] S262144x1
  bcast_S262144x2_S262144x2x1_0_1 : S262144x2.BroadcastsInDim S262144x2x1 (![0, 1] : Fin 2 → Fin S262144x2x1.rank)
  bcast_S262144x2x1_S262144x2x2_0_1_2 : S262144x2x1.BroadcastsInDim S262144x2x2 (![0, 1, 2] : Fin 3 → Fin S262144x2x2.rank)
  bcast_S262144x1x2_S262144x2x2_0_1_2 : S262144x1x2.BroadcastsInDim S262144x2x2 (![0, 1, 2] : Fin 3 → Fin S262144x2x2.rank)
  shapeCasts_S262144x2x2_S262144x4 : S262144x2x2.ShapeCasts S262144x4
  slices_S262144x7_S262144x1_0_2 : S262144x7.Slices ![0, 2] S262144x1
  bcast_S262144x4_S262144x4x1_0_1 : S262144x4.BroadcastsInDim S262144x4x1 (![0, 1] : Fin 2 → Fin S262144x4x1.rank)
  bcast_S262144x4x1_S262144x4x2_0_1_2 : S262144x4x1.BroadcastsInDim S262144x4x2 (![0, 1, 2] : Fin 3 → Fin S262144x4x2.rank)
  bcast_S262144x1x2_S262144x4x2_0_1_2 : S262144x1x2.BroadcastsInDim S262144x4x2 (![0, 1, 2] : Fin 3 → Fin S262144x4x2.rank)
  shapeCasts_S262144x4x2_S262144x8 : S262144x4x2.ShapeCasts S262144x8
  slices_S262144x7_S262144x1_0_3 : S262144x7.Slices ![0, 3] S262144x1
  bcast_S262144x8_S262144x8x1_0_1 : S262144x8.BroadcastsInDim S262144x8x1 (![0, 1] : Fin 2 → Fin S262144x8x1.rank)
  bcast_S262144x8x1_S262144x8x2_0_1_2 : S262144x8x1.BroadcastsInDim S262144x8x2 (![0, 1, 2] : Fin 3 → Fin S262144x8x2.rank)
  bcast_S262144x1x2_S262144x8x2_0_1_2 : S262144x1x2.BroadcastsInDim S262144x8x2 (![0, 1, 2] : Fin 3 → Fin S262144x8x2.rank)
  shapeCasts_S262144x8x2_S262144x16 : S262144x8x2.ShapeCasts S262144x16
  slices_S262144x7_S262144x1_0_4 : S262144x7.Slices ![0, 4] S262144x1
  bcast_S262144x16_S262144x16x1_0_1 : S262144x16.BroadcastsInDim S262144x16x1 (![0, 1] : Fin 2 → Fin S262144x16x1.rank)
  bcast_S262144x16x1_S262144x16x2_0_1_2 : S262144x16x1.BroadcastsInDim S262144x16x2 (![0, 1, 2] : Fin 3 → Fin S262144x16x2.rank)
  bcast_S262144x1x2_S262144x16x2_0_1_2 : S262144x1x2.BroadcastsInDim S262144x16x2 (![0, 1, 2] : Fin 3 → Fin S262144x16x2.rank)
  shapeCasts_S262144x16x2_S262144x32 : S262144x16x2.ShapeCasts S262144x32
  slices_S262144x7_S262144x1_0_5 : S262144x7.Slices ![0, 5] S262144x1
  bcast_S262144x32_S262144x32x1_0_1 : S262144x32.BroadcastsInDim S262144x32x1 (![0, 1] : Fin 2 → Fin S262144x32x1.rank)
  bcast_S262144x32x1_S262144x32x2_0_1_2 : S262144x32x1.BroadcastsInDim S262144x32x2 (![0, 1, 2] : Fin 3 → Fin S262144x32x2.rank)
  bcast_S262144x1x2_S262144x32x2_0_1_2 : S262144x1x2.BroadcastsInDim S262144x32x2 (![0, 1, 2] : Fin 3 → Fin S262144x32x2.rank)
  shapeCasts_S262144x32x2_S262144x64 : S262144x32x2.ShapeCasts S262144x64
  slices_S262144x7_S262144x1_0_6 : S262144x7.Slices ![0, 6] S262144x1
  bcast_S262144x64_S262144x64x1_0_1 : S262144x64.BroadcastsInDim S262144x64x1 (![0, 1] : Fin 2 → Fin S262144x64x1.rank)
  bcast_S262144x64x1_S262144x64x2_0_1_2 : S262144x64x1.BroadcastsInDim S262144x64x2 (![0, 1, 2] : Fin 3 → Fin S262144x64x2.rank)
  bcast_S262144x1x2_S262144x64x2_0_1_2 : S262144x1x2.BroadcastsInDim S262144x64x2 (![0, 1, 2] : Fin 3 → Fin S262144x64x2.rank)
  shapeCasts_S262144x64x2_S262144x128 : S262144x64x2.ShapeCasts S262144x128
  shapeCasts_S262144x128_S262144x2x2x2x2x2x2x2 : S262144x128.ShapeCasts S262144x2x2x2x2x2x2x2
  slices_S262144x2x2x2x2x2x2x2_S262144x1x2x2x2x2x2x2_0_0_0_0_0_0_0_0 : S262144x2x2x2x2x2x2x2.Slices ![0, 0, 0, 0, 0, 0, 0, 0] S262144x1x2x2x2x2x2x2
  slices_S262144x2x2x2x2x2x2x2_S262144x1x2x2x2x2x2x2_0_1_0_0_0_0_0_0 : S262144x2x2x2x2x2x2x2.Slices ![0, 1, 0, 0, 0, 0, 0, 0] S262144x1x2x2x2x2x2x2
  concatenates_S262144x1x2x2x2x2x2x2_S262144x1x2x2x2x2x2x2_S262144x2x2x2x2x2x2x2_d1 : Shape.Concatenates [S262144x1x2x2x2x2x2x2, S262144x1x2x2x2x2x2x2] S262144x2x2x2x2x2x2x2 1
  slices_S262144x2x2x2x2x2x2x2_S262144x2x1x2x2x2x2x2_0_0_0_0_0_0_0_0 : S262144x2x2x2x2x2x2x2.Slices ![0, 0, 0, 0, 0, 0, 0, 0] S262144x2x1x2x2x2x2x2
  slices_S262144x2x2x2x2x2x2x2_S262144x2x1x2x2x2x2x2_0_0_1_0_0_0_0_0 : S262144x2x2x2x2x2x2x2.Slices ![0, 0, 1, 0, 0, 0, 0, 0] S262144x2x1x2x2x2x2x2
  concatenates_S262144x2x1x2x2x2x2x2_S262144x2x1x2x2x2x2x2_S262144x2x2x2x2x2x2x2_d2 : Shape.Concatenates [S262144x2x1x2x2x2x2x2, S262144x2x1x2x2x2x2x2] S262144x2x2x2x2x2x2x2 2
  slices_S262144x2x2x2x2x2x2x2_S262144x2x2x1x2x2x2x2_0_0_0_0_0_0_0_0 : S262144x2x2x2x2x2x2x2.Slices ![0, 0, 0, 0, 0, 0, 0, 0] S262144x2x2x1x2x2x2x2
  slices_S262144x2x2x2x2x2x2x2_S262144x2x2x1x2x2x2x2_0_0_0_1_0_0_0_0 : S262144x2x2x2x2x2x2x2.Slices ![0, 0, 0, 1, 0, 0, 0, 0] S262144x2x2x1x2x2x2x2
  concatenates_S262144x2x2x1x2x2x2x2_S262144x2x2x1x2x2x2x2_S262144x2x2x2x2x2x2x2_d3 : Shape.Concatenates [S262144x2x2x1x2x2x2x2, S262144x2x2x1x2x2x2x2] S262144x2x2x2x2x2x2x2 3
  slices_S262144x2x2x2x2x2x2x2_S262144x2x2x2x1x2x2x2_0_0_0_0_0_0_0_0 : S262144x2x2x2x2x2x2x2.Slices ![0, 0, 0, 0, 0, 0, 0, 0] S262144x2x2x2x1x2x2x2
  slices_S262144x2x2x2x2x2x2x2_S262144x2x2x2x1x2x2x2_0_0_0_0_1_0_0_0 : S262144x2x2x2x2x2x2x2.Slices ![0, 0, 0, 0, 1, 0, 0, 0] S262144x2x2x2x1x2x2x2
  concatenates_S262144x2x2x2x1x2x2x2_S262144x2x2x2x1x2x2x2_S262144x2x2x2x2x2x2x2_d4 : Shape.Concatenates [S262144x2x2x2x1x2x2x2, S262144x2x2x2x1x2x2x2] S262144x2x2x2x2x2x2x2 4
  slices_S262144x2x2x2x2x2x2x2_S262144x2x2x2x2x1x2x2_0_0_0_0_0_0_0_0 : S262144x2x2x2x2x2x2x2.Slices ![0, 0, 0, 0, 0, 0, 0, 0] S262144x2x2x2x2x1x2x2
  slices_S262144x2x2x2x2x2x2x2_S262144x2x2x2x2x1x2x2_0_0_0_0_0_1_0_0 : S262144x2x2x2x2x2x2x2.Slices ![0, 0, 0, 0, 0, 1, 0, 0] S262144x2x2x2x2x1x2x2
  concatenates_S262144x2x2x2x2x1x2x2_S262144x2x2x2x2x1x2x2_S262144x2x2x2x2x2x2x2_d5 : Shape.Concatenates [S262144x2x2x2x2x1x2x2, S262144x2x2x2x2x1x2x2] S262144x2x2x2x2x2x2x2 5
  slices_S262144x2x2x2x2x2x2x2_S262144x2x2x2x2x2x1x2_0_0_0_0_0_0_0_0 : S262144x2x2x2x2x2x2x2.Slices ![0, 0, 0, 0, 0, 0, 0, 0] S262144x2x2x2x2x2x1x2
  slices_S262144x2x2x2x2x2x2x2_S262144x2x2x2x2x2x1x2_0_0_0_0_0_0_1_0 : S262144x2x2x2x2x2x2x2.Slices ![0, 0, 0, 0, 0, 0, 1, 0] S262144x2x2x2x2x2x1x2
  concatenates_S262144x2x2x2x2x2x1x2_S262144x2x2x2x2x2x1x2_S262144x2x2x2x2x2x2x2_d6 : Shape.Concatenates [S262144x2x2x2x2x2x1x2, S262144x2x2x2x2x2x1x2] S262144x2x2x2x2x2x2x2 6
  slices_S262144x2x2x2x2x2x2x2_S262144x2x2x2x2x2x2x1_0_0_0_0_0_0_0_0 : S262144x2x2x2x2x2x2x2.Slices ![0, 0, 0, 0, 0, 0, 0, 0] S262144x2x2x2x2x2x2x1
  slices_S262144x2x2x2x2x2x2x2_S262144x2x2x2x2x2x2x1_0_0_0_0_0_0_0_1 : S262144x2x2x2x2x2x2x2.Slices ![0, 0, 0, 0, 0, 0, 0, 1] S262144x2x2x2x2x2x2x1
  concatenates_S262144x2x2x2x2x2x2x1_S262144x2x2x2x2x2x2x1_S262144x2x2x2x2x2x2x2_d7 : Shape.Concatenates [S262144x2x2x2x2x2x2x1, S262144x2x2x2x2x2x2x1] S262144x2x2x2x2x2x2x2 7
  shapeCasts_S262144x2x2x2x2x2x2x2_S262144x2x64 : S262144x2x2x2x2x2x2x2.ShapeCasts S262144x2x64
  reducesTo_S262144x2x64_S262144x2_d2 : S262144x2x64.ReducesTo [2] S262144x2
  h_S_ : 0 < S_.numel
  slices_S262144x2_S262144x1_0_0 : S262144x2.Slices ![0, 0] S262144x1
  slices_S262144x2_S262144x1_0_1 : S262144x2.Slices ![0, 1] S262144x1
  concatenates_S262144x1_S262144x16_S262144x17_d1 : Shape.Concatenates [S262144x1, S262144x16] S262144x17 1
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  bcast_S_S262144x32 : S_.BroadcastsInDim S262144x32 (![] : Fin 0 → Fin S262144x32.rank)
  bcast_S16_S1x16_1 : S16.BroadcastsInDim S1x16 (![1] : Fin 1 → Fin S1x16.rank)
  bcast_S1x16_S262144x16_0_1 : S1x16.BroadcastsInDim S262144x16 (![0, 1] : Fin 2 → Fin S262144x16.rank)
  bcast_S_S262144x16 : S_.BroadcastsInDim S262144x16 (![] : Fin 0 → Fin S262144x16.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  dot_S262144x17_S17x32_S262144x32_1_0_0_1_n_n_wf : DotDims.WF S262144x17 S17x32 S262144x32 [1] [0] [0] [1] [] []
  dot_S262144x32_S32x16_S262144x16_1_0_0_1_n_n_wf : DotDims.WF S262144x32 S32x16 S262144x16 [1] [0] [0] [1] [] []
  dot_S262144x16_S16x1_S262144x1_1_0_0_1_n_n_wf : DotDims.WF S262144x16 S16x1 S262144x1 [1] [0] [0] [1] [] []

variable [Facts₀]

def dot_S262144x17_S17x32_S262144x32_1_0_0_1_n_n : DotDims S262144x17 S17x32 S262144x32 where
  lhsContracting := [1]
  rhsContracting := [0]
  lhsNonContracting := [0]
  rhsNonContracting := [1]
  lhsBatch := []
  rhsBatch := []
  wf := dot_S262144x17_S17x32_S262144x32_1_0_0_1_n_n_wf
def dot_S262144x32_S32x16_S262144x16_1_0_0_1_n_n : DotDims S262144x32 S32x16 S262144x16 where
  lhsContracting := [1]
  rhsContracting := [0]
  lhsNonContracting := [0]
  rhsNonContracting := [1]
  lhsBatch := []
  rhsBatch := []
  wf := dot_S262144x32_S32x16_S262144x16_1_0_0_1_n_n_wf
def dot_S262144x16_S16x1_S262144x1_1_0_0_1_n_n : DotDims S262144x16 S16x1 S262144x1 where
  lhsContracting := [1]
  rhsContracting := [0]
  lhsNonContracting := [0]
  rhsNonContracting := [1]
  lhsBatch := []
  rhsBatch := []
  wf := dot_S262144x16_S16x1_S262144x1_1_0_0_1_n_n_wf

class Facts : Prop extends Facts₀ where

variable [Facts]
-- ==== Proof.Spec.lean ====
/-
  The function both programs compute, entry by entry, on the extended reals.

  A sample `r` carries seven rotation angles `θ i = x_q (r, i) + q_params i` and sixteen classical features. The
  quantum part is the expectation of Pauli-Z on wire 0 after a ring of controlled-NOT gates applied to the product
  state with amplitudes `cos (θ i / 2)`, `sin (θ i / 2)`; the ring sends the label of wire 0 to the parity of the labels
  of wires 1 … 6, so the expectation is the product of `cos (θ i)` over those six wires. That number is placed in
  front of the sixteen features, and the seventeen entries go through a perceptron with layers 17 → 32 → 16 → 1, a
  positive part after the first two.

  `mlp` is the perceptron applied to ANY per-sample number `q`, so that the two programs' results are `mlp` of their
  own quantum numbers and the comparison is about those numbers only.
-/
import Idealize.ShloMosaic.PureOps.Ideal
import Idealize.ShloMosaic.Lib.ValueIdx

noncomputable section

open scoped BigOperators

namespace Cert.Spec

open Idealize.ShloMosaic Idealize.ShloMosaic.ValueIdx

/-- The cosine of the full rotation angle of wire `i` of sample `r`. -/
def cosAt (xq : (⟨2, ![262144, 7]⟩ : Shape).Idx → EReal) (qp : (⟨1, ![7]⟩ : Shape).Idx → EReal)
    (r : Fin 262144) (i : Fin 7) : EReal :=
  Ideal.cos (xq (ix2 r i) + qp (ix1 i))

/-- The product of the cosines of wires 1 … 6, multiplied from the left as the kernel does. -/
def cosProd (xq : (⟨2, ![262144, 7]⟩ : Shape).Idx → EReal) (qp : (⟨1, ![7]⟩ : Shape).Idx → EReal)
    (r : Fin 262144) : EReal :=
  cosAt xq qp r 1 * cosAt xq qp r 2 * cosAt xq qp r 3 * cosAt xq qp r 4 * cosAt xq qp r 5 * cosAt xq qp r 6

/-- The seventeen inputs of the perceptron: the quantum number, then the sixteen classical features. -/
def feat (q : Fin 262144 → EReal) (xc : (⟨2, ![262144, 16]⟩ : Shape).Idx → EReal) (r : Fin 262144) (a : Fin 17) : EReal :=
  if h : a.val = 0 then q r else xc (ix2 r ⟨a.val - 1, by have := a.isLt; omega⟩)

/-- The first hidden layer, 32 units, positive part. -/
def hidden1 (q : Fin 262144 → EReal) (xc : (⟨2, ![262144, 16]⟩ : Shape).Idx → EReal)
    (W1 : (⟨2, ![17, 32]⟩ : Shape).Idx → EReal) (b1 : (⟨1, ![32]⟩ : Shape).Idx → EReal) (r : Fin 262144) (j : Fin 32) : EReal :=
  max ((∑ a : Fin 17, feat q xc r a * W1 (ix2 a j)) + b1 (ix1 j)) 0

/-- The second hidden layer, 16 units, positive part. -/
def hidden2 (q : Fin 262144 → EReal) (xc : (⟨2, ![262144, 16]⟩ : Shape).Idx → EReal)
    (W1 : (⟨2, ![17, 32]⟩ : Shape).Idx → EReal) (b1 : (⟨1, ![32]⟩ : Shape).Idx → EReal)
    (W2 : (⟨2, ![32, 16]⟩ : Shape).Idx → EReal) (b2 : (⟨1, ![16]⟩ : Shape).Idx → EReal) (r : Fin 262144) (k : Fin 16) : EReal :=
  max ((∑ j : Fin 32, hidden1 q xc W1 b1 r j * W2 (ix2 j k)) + b2 (ix1 k)) 0

/-- The perceptron's one output per sample, as an array of shape [262144, 1]. -/
def mlp (q : Fin 262144 → EReal) (xc : (⟨2, ![262144, 16]⟩ : Shape).Idx → EReal)
    (W1 : (⟨2, ![17, 32]⟩ : Shape).Idx → EReal) (b1 : (⟨1, ![32]⟩ : Shape).Idx → EReal)
    (W2 : (⟨2, ![32, 16]⟩ : Shape).Idx → EReal) (b2 : (⟨1, ![16]⟩ : Shape).Idx → EReal)
    (W3 : (⟨2, ![16, 1]⟩ : Shape).Idx → EReal) (b3 : (⟨1, ![1]⟩ : Shape).Idx → EReal) :
    (⟨2, ![262144, 1]⟩ : Shape).Idx → EReal := fun i =>
  (∑ k : Fin 16, hidden2 q xc W1 b1 W2 b2 (i 0) k * W3 (ix2 k (0 : Fin 1))) + b3 (ix1 (0 : Fin 1))

/-- `mlp` depends on `q` only through its values. -/
theorem mlp_congr {q q' : Fin 262144 → EReal} (h : ∀ r, q r = q' r) (xc : (⟨2, ![262144, 16]⟩ : Shape).Idx → EReal)
    (W1 : (⟨2, ![17, 32]⟩ : Shape).Idx → EReal) (b1 : (⟨1, ![32]⟩ : Shape).Idx → EReal)
    (W2 : (⟨2, ![32, 16]⟩ : Shape).Idx → EReal) (b2 : (⟨1, ![16]⟩ : Shape).Idx → EReal)
    (W3 : (⟨2, ![16, 1]⟩ : Shape).Idx → EReal) (b3 : (⟨1, ![1]⟩ : Shape).Idx → EReal) :
    mlp q xc W1 b1 W2 b2 W3 b3 = mlp q' xc W1 b1 W2 b2 W3 b3 := by
  rw [show q = q' from funext h]

end Cert.Spec

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«125050_j21938692948013_1_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.KernelPayload.lean ====
/-
  The kernel's body on one block, read at a row.

  The body takes a block of 8192 samples. For each row it adds the angle parameters of wires 1 … 6 to the row's angles,
  takes the six cosines and multiplies them from the left; that number is put in front of the row's sixteen classical
  features, and the seventeen entries go through three affine layers (17 → 32 → 16 → 1) with a positive part after the
  first two. Each step is read at an entry: a slice shifts the column, a one-row broadcast reads the row, the
  concatenation reads the quantum column at column 0 and the feature block one column to the left elsewhere, a matrix
  product into the zero accumulator is the textbook sum. The last theorem says that when the block's row y is the arrays'
  row r, the body's result at row y is the specification's perceptron output for sample r.
-/
import proofs.«125050_j21938692948013_1_alg».proof.Proof.Gen.KernelIdeal.Skeleton
import proofs.«125050_j21938692948013_1_alg».proof.Proof.Spec
import proofs.«125050_j21938692948013_1_alg».proof.Proof.LibAffineBlock
import Idealize.ShloMosaic.Lib.Pipeline.Value
import Idealize.ShloMosaic.Lib.ValueLayout

noncomputable section

open scoped BigOperators

namespace Cert.KernelSide

open Idealize.ShloMosaic Idealize.ShloMosaic.ValueIdx Cert.KernelIdeal Cert.KernelIdeal.Gen

/-- A layer of the perceptron on a block: the affine map of the block's rows followed by the positive part, read at
    the entry (r, j). -/
theorem reluAffine_apply {M K N : Nat} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ .f32) (W : FVec Ideal ⟨2, ![K, N]⟩ .f32) (b : FVec Ideal ⟨2, ![1, N]⟩ .f32)
    (hc : (⟨2, ![1, N]⟩ : Shape).ShapeCasts ⟨2, ![1, N]⟩)
    (hb : (⟨2, ![1, N]⟩ : Shape).Broadcasts ⟨2, ![M, N]⟩) (r : Fin M) (j : Fin N) :
    maximumf (addf (matmul d none x W (constant (F := Ideal) ⟨2, ![M, N]⟩ .f32 0x00000000#32))
        (broadcastTo ⟨2, ![M, N]⟩ (shapeCast ⟨2, ![1, N]⟩ b hc) hb))
      (broadcast ⟨2, ![M, N]⟩ (Scalar.ofBits (F := Ideal) .f32 0x00000000#32)) (ix2 r j)
      = max ((∑ k : Fin K, x (ix2 r k) * W (ix2 k j)) + b (ix2 (0 : Fin 1) j)) 0 := by
  rw [maximumf_apply, shapeCast_self, Cert.LibAffineBlock.affine_apply d hlc hrc hln hrn hlb hrb none x W b hb r j,
    broadcast_apply]
  show max _ (Ideal.ofBits .f32 0x00000000#32) = _
  rw [Ideal.ofBits_zero_f32]

/-- A cosine array at an entry is the cosine of the entry. -/
theorem cos_apply {s : Shape} (v : FVec Ideal s .f32) (j : s.Idx) : cos v j = Ideal.cos (v j) := rfl

/-- The block's six cosines: wire i + 1 of row y has angle x_q (y, i + 1) + q (0, i + 1). -/
def cosBlock (x0 : Vec Ideal S8192x7 .f32) (x2 : Vec Ideal S1x7 .f32) : FVec Ideal S8192x6 .f32 :=
  cos (addf (extractStridedSlice S8192x6 ![0, 1] x0 slices_S8192x7_o0_1_S8192x6)
    (broadcastTo S8192x6 (extractStridedSlice S1x6 ![0, 1] (shapeCast S1x7 x2 shapeCasts_S1x7_S1x7) slices_S1x7_o0_1_S1x6)
      broadcasts_S1x6_S8192x6))

theorem cosBlock_apply (x0 : Vec Ideal S8192x7 .f32) (x2 : Vec Ideal S1x7 .f32) (y : Fin 8192) (i : Fin 6) (i' : Fin 7)
    (hi : i'.val = i.val + 1) :
    cosBlock x0 x2 (ix2 y i) = Ideal.cos (x0 (ix2 y i') + x2 (ix2 (0 : Fin 1) i')) := by
  unfold cosBlock
  rw [cos_apply, addf_apply, shapeCast_self,
    extractStridedSlice_apply ![0, 1] x0 slices_S8192x7_o0_1_S8192x6 (ix2 y i) (ix2 y i') (fun a => by
      match a with
      | ⟨0, _⟩ => exact (Nat.zero_add _).symm
      | ⟨1, _⟩ => show i'.val = 1 + i.val; omega),
    broadcastTo_1b_ab_apply _ broadcasts_S1x6_S8192x6 y i,
    extractStridedSlice_apply ![0, 1] x2 slices_S1x7_o0_1_S1x6 (ix2 (0 : Fin 1) i) (ix2 (0 : Fin 1) i') (fun a => by
      match a with
      | ⟨0, _⟩ => rfl
      | ⟨1, _⟩ => show i'.val = 1 + i.val; omega)]

/-- The quantum number of each row of the block, as a one-column array: the six cosines multiplied from the left. -/
def qColumn (x0 : Vec Ideal S8192x7 .f32) (x2 : Vec Ideal S1x7 .f32) : FVec Ideal S8192x1 .f32 :=
  mulf (mulf (mulf (mulf (mulf
    (extractStridedSlice S8192x1 ![0, 0] (cosBlock x0 x2) slices_S8192x6_o0_0_S8192x1)
    (extractStridedSlice S8192x1 ![0, 1] (cosBlock x0 x2) slices_S8192x6_o0_1_S8192x1))
    (extractStridedSlice S8192x1 ![0, 2] (cosBlock x0 x2) slices_S8192x6_o0_2_S8192x1))
    (extractStridedSlice S8192x1 ![0, 3] (cosBlock x0 x2) slices_S8192x6_o0_3_S8192x1))
    (extractStridedSlice S8192x1 ![0, 4] (cosBlock x0 x2) slices_S8192x6_o0_4_S8192x1))
    (extractStridedSlice S8192x1 ![0, 5] (cosBlock x0 x2) slices_S8192x6_o0_5_S8192x1)

/-- The cosine of the angle of wire i of row y of the block. -/
def blockCos (x0 : Vec Ideal S8192x7 .f32) (x2 : Vec Ideal S1x7 .f32) (y : Fin 8192) (i : Fin 7) : EReal :=
  Ideal.cos (x0 (ix2 y i) + x2 (ix2 (0 : Fin 1) i))

/-- Column k of the cosine array, as a one-column slice, read at row y. -/
theorem cosColumn_apply (x0 : Vec Ideal S8192x7 .f32) (x2 : Vec Ideal S1x7 .f32) (y : Fin 8192) (k : Nat) (hk : k < 6)
    (h : S8192x6.Slices ![0, k] S8192x1) :
    extractStridedSlice S8192x1 ![0, k] (cosBlock x0 x2) h (ix2 y (0 : Fin 1)) = blockCos x0 x2 y ⟨k + 1, by omega⟩ := by
  rw [extractStridedSlice_apply ![0, k] (cosBlock x0 x2) h (ix2 y (0 : Fin 1)) (ix2 y ⟨k, hk⟩) (fun a => by
      match a with
      | ⟨0, _⟩ => exact (Nat.zero_add _).symm
      | ⟨1, _⟩ => rfl),
    cosBlock_apply x0 x2 y ⟨k, hk⟩ ⟨k + 1, by omega⟩ rfl]
  rfl

theorem qColumn_apply (x0 : Vec Ideal S8192x7 .f32) (x2 : Vec Ideal S1x7 .f32) (y : Fin 8192) :
    qColumn x0 x2 (ix2 y (0 : Fin 1)) = blockCos x0 x2 y 1 * blockCos x0 x2 y 2 * blockCos x0 x2 y 3
      * blockCos x0 x2 y 4 * blockCos x0 x2 y 5 * blockCos x0 x2 y 6 := by
  unfold qColumn
  rw [mulf_apply, mulf_apply, mulf_apply, mulf_apply, mulf_apply,
    cosColumn_apply x0 x2 y 0 (by omega), cosColumn_apply x0 x2 y 1 (by omega), cosColumn_apply x0 x2 y 2 (by omega),
    cosColumn_apply x0 x2 y 3 (by omega), cosColumn_apply x0 x2 y 4 (by omega), cosColumn_apply x0 x2 y 5 (by omega)]
  rfl

/-- The seventeen inputs of the perceptron for row y of the block: the quantum number, then the sixteen features. -/
def blockFeat (x0 : Vec Ideal S8192x7 .f32) (x1 : Vec Ideal S8192x16 .f32) (x2 : Vec Ideal S1x7 .f32) (y : Fin 8192)
    (a : Fin 17) : EReal :=
  if h : a.val = 0 then qColumn x0 x2 (ix2 y (0 : Fin 1)) else x1 (ix2 y ⟨a.val - 1, by have := a.isLt; omega⟩)

/-- The concatenation of the quantum column with the feature block, read at an entry. -/
theorem concat_apply (x0 : Vec Ideal S8192x7 .f32) (x1 : Vec Ideal S8192x16 .f32) (x2 : Vec Ideal S1x7 .f32) (y : Fin 8192)
    (a : Fin 17) :
    concatenate S8192x17 1 [⟨S8192x1, qColumn x0 x2⟩, ⟨S8192x16, x1⟩] concatenates_S8192x1_S8192x16_S8192x17_d1 (ix2 y a)
      = blockFeat x0 x1 x2 y a := by
  unfold blockFeat
  by_cases h : a.val = 0
  · rw [dif_pos h]
    exact concatenate_pair_apply_left (1 : Fin 2) (qColumn x0 x2) x1 concatenates_S8192x1_S8192x16_S8192x17_d1 (ix2 y a) rfl
      (ix2 y (0 : Fin 1)) (fun b => by
        match b with
        | ⟨0, _⟩ => rfl
        | ⟨1, _⟩ => show 0 = a.val; omega)
  · rw [dif_neg h]
    exact concatenate_pair_apply_right (1 : Fin 2) (qColumn x0 x2) x1 concatenates_S8192x1_S8192x16_S8192x17_d1 (ix2 y a) rfl rfl
      (ix2 y ⟨a.val - 1, by have := a.isLt; omega⟩) (fun b hb => by
        match b with
        | ⟨0, _⟩ => rfl
        | ⟨1, _⟩ => exact absurd rfl hb) (by show a.val - 1 + 1 = a.val; omega)

/-- THE BODY'S RESULT AT ROW y OF A BLOCK: the perceptron of the row's seventeen inputs, as nested sums over the block's
    own operands. -/
theorem payload_apply (x0 : Vec Ideal S8192x7 .f32) (x1 : Vec Ideal S8192x16 .f32) (x2 : Vec Ideal S1x7 .f32)
    (x3 : Vec Ideal S17x32 .f32) (x4 : Vec Ideal S1x32 .f32) (x5 : Vec Ideal S32x16 .f32) (x6 : Vec Ideal S1x16 .f32)
    (x7 : Vec Ideal S16x1 .f32) (x8 : Vec Ideal S1x1 .f32) (y : Fin 8192) :
    k0_pay1 (k0_pay2 x0 x1 x2 x3 x4 x5 x6) x7 (constant (F := Ideal) S8192x1 .f32 0x00000000#32) x8 (ix2 y (0 : Fin 1))
      = (∑ k : Fin 16, max ((∑ j : Fin 32, max ((∑ a : Fin 17, blockFeat x0 x1 x2 y a * x3 (ix2 a j))
            + x4 (ix2 (0 : Fin 1) j)) 0 * x5 (ix2 j k)) + x6 (ix2 (0 : Fin 1) k)) 0 * x7 (ix2 k (0 : Fin 1)))
          + x8 (ix2 (0 : Fin 1) (0 : Fin 1)) := by
  unfold k0_pay1 k0_pay2
  dsimp only
  rw [shapeCast_self x8,
    Cert.LibAffineBlock.affine_apply dot_S8192x16_S16x1_S8192x1_1_0_0_1_n_n rfl rfl rfl rfl rfl rfl none _ x7 x8
      broadcasts_S1x1_S8192x1 y (0 : Fin 1)]
  refine congrArg (· + _) (Finset.sum_congr rfl fun k _ => congrArg (· * _) ?_)
  rw [reluAffine_apply dot_S8192x32_S32x16_S8192x16_1_0_0_1_n_n rfl rfl rfl rfl rfl rfl _ x5 x6 shapeCasts_S1x16_S1x16
    broadcasts_S1x16_S8192x16 y k]
  refine congrArg (fun z => max (z + _) 0) (Finset.sum_congr rfl fun j _ => congrArg (· * _) ?_)
  rw [reluAffine_apply dot_S8192x17_S17x32_S8192x32_1_0_0_1_n_n rfl rfl rfl rfl rfl rfl _ x3 x4 shapeCasts_S1x32_S1x32
    broadcasts_S1x32_S8192x32 y j]
  refine congrArg (fun z => max (z + _) 0) (Finset.sum_congr rfl fun a _ => congrArg (· * _) ?_)
  exact concat_apply x0 x1 x2 y a

/-- THE BODY'S RESULT IS THE SPECIFICATION'S: when row y of the block is row r of the arrays — the block's operands read
    the arrays' entries as the hypotheses say — the body's result at row y is the perceptron's output for sample r. -/
theorem payload_eq_mlp (x0 : Vec Ideal S8192x7 .f32) (x1 : Vec Ideal S8192x16 .f32) (x2 : Vec Ideal S1x7 .f32)
    (x3 : Vec Ideal S17x32 .f32) (x4 : Vec Ideal S1x32 .f32) (x5 : Vec Ideal S32x16 .f32) (x6 : Vec Ideal S1x16 .f32)
    (x7 : Vec Ideal S16x1 .f32) (x8 : Vec Ideal S1x1 .f32) (y : Fin 8192) (r : Fin 262144)
    (xq : (⟨2, ![262144, 7]⟩ : Shape).Idx → EReal) (xc : (⟨2, ![262144, 16]⟩ : Shape).Idx → EReal)
    (qp : (⟨1, ![7]⟩ : Shape).Idx → EReal)
    (W1 : (⟨2, ![17, 32]⟩ : Shape).Idx → EReal) (b1 : (⟨1, ![32]⟩ : Shape).Idx → EReal)
    (W2 : (⟨2, ![32, 16]⟩ : Shape).Idx → EReal) (b2 : (⟨1, ![16]⟩ : Shape).Idx → EReal)
    (W3 : (⟨2, ![16, 1]⟩ : Shape).Idx → EReal) (b3 : (⟨1, ![1]⟩ : Shape).Idx → EReal)
    (h0 : ∀ i : Fin 7, x0 (ix2 y i) = xq (ix2 r i)) (h1 : ∀ a : Fin 16, x1 (ix2 y a) = xc (ix2 r a))
    (h2 : ∀ i : Fin 7, x2 (ix2 (0 : Fin 1) i) = qp (ix1 i))
    (h3 : ∀ (a : Fin 17) (j : Fin 32), x3 (ix2 a j) = W1 (ix2 a j)) (h4 : ∀ j : Fin 32, x4 (ix2 (0 : Fin 1) j) = b1 (ix1 j))
    (h5 : ∀ (j : Fin 32) (k : Fin 16), x5 (ix2 j k) = W2 (ix2 j k)) (h6 : ∀ k : Fin 16, x6 (ix2 (0 : Fin 1) k) = b2 (ix1 k))
    (h7 : ∀ (k : Fin 16) (l : Fin 1), x7 (ix2 k l) = W3 (ix2 k l)) (h8 : ∀ l : Fin 1, x8 (ix2 (0 : Fin 1) l) = b3 (ix1 l)) :
    k0_pay1 (k0_pay2 x0 x1 x2 x3 x4 x5 x6) x7 (constant (F := Ideal) S8192x1 .f32 0x00000000#32) x8 (ix2 y (0 : Fin 1))
      = Cert.Spec.mlp (Cert.Spec.cosProd xq qp) xc W1 b1 W2 b2 W3 b3 (ix2 r (0 : Fin 1)) := by
  rw [payload_apply]
  show _ = (∑ k : Fin 16, Cert.Spec.hidden2 (Cert.Spec.cosProd xq qp) xc W1 b1 W2 b2 r k * W3 (ix2 k (0 : Fin 1)))
    + b3 (ix1 (0 : Fin 1))
  rw [h8 0]
  refine congrArg (· + _) (Finset.sum_congr rfl fun k _ => ?_)
  rw [h7 k 0]
  refine congrArg (· * _) ?_
  unfold Cert.Spec.hidden2
  rw [h6 k]
  refine congrArg (fun z => max (z + _) 0) (Finset.sum_congr rfl fun j _ => ?_)
  rw [h5 j k]
  refine congrArg (· * _) ?_
  unfold Cert.Spec.hidden1
  rw [h4 j]
  refine congrArg (fun z => max (z + _) 0) (Finset.sum_congr rfl fun a _ => ?_)
  rw [h3 a j]
  refine congrArg (· * _) ?_
  unfold blockFeat Cert.Spec.feat
  by_cases h : a.val = 0
  · rw [dif_pos h, dif_pos h, qColumn_apply]
    unfold blockCos Cert.Spec.cosProd Cert.Spec.cosAt
    rw [h0 1, h0 2, h0 3, h0 4, h0 5, h0 6, h2 1, h2 2, h2 3, h2 4, h2 5, h2 6]
  · rw [dif_neg h, dif_neg h]
    exact h1 _

end Cert.KernelSide

end
-- ==== Proof.KernelHostArgs.lean ====
/-
  The four one-row arrays the region reads are the four parameter vectors, reshaped.

  Before the region, the angle parameters [7] and the three bias vectors [32], [16], [1] are each reshaped to one row
  ([1, 7], [1, 32], [1, 16], [1, 1]). A reshape keeps the row-major position, so the row's entry (0, i) is the
  vector's entry i.
-/
import proofs.«125050_j21938692948013_1_alg».proof.Proof.Gen.KernelIdeal.Value
import Idealize.ShloMosaic.Lib.Pipeline.Value
import Idealize.ShloMosaic.Lib.ValueLayout
import Idealize.ShloMosaic.Lib.Tactic

noncomputable section

namespace Cert.KernelSide

open Idealize.ShloMosaic Idealize.ShloMosaic.TcCoe Idealize.ShloMosaic.ValueIdx Idealize.ShloMosaic.Tactic Idealize.SL.Sem
open Cert.KernelIdeal Cert.KernelIdeal.Gen

variable (m : (l : Loc nD τ sig) → Buf (Elt Ideal) l)

/-- The [1, 7] array the region finds is the vector of the seven angle parameters, reshaped. -/
theorem V_angleRow (c : Dev nD) :
    (V m c main_v0 : S1x7.Idx → EReal) = shapeCast S1x7 (m ((c : Thread nD τ).loc main_arg2)) shapeCasts_S7_S1x7 := by
  dsimp only [Gen.V, Gen.hostOps0]; after_results; rfl

/-- Its entry (0, i) is the vector's entry i. -/
theorem V_angleRow_apply (c : Dev nD) (i : Fin 7) :
    (V m c main_v0 : S1x7.Idx → EReal) (ix2 (0 : Fin 1) i) = (m ((c : Thread nD τ).loc main_arg2) : S7.Idx → EReal) (ix1 i) := by
  rw [V_angleRow m c]
  exact shapeCast_a_1a_apply _ shapeCasts_S7_S1x7 0 i

/-- The [1, 32] array the region finds is the vector of the first layer's thirty-two biases, reshaped. -/
theorem V_biasRow1 (c : Dev nD) :
    (V m c main_v1 : S1x32.Idx → EReal) = shapeCast S1x32 (m ((c : Thread nD τ).loc main_arg4)) shapeCasts_S32_S1x32 := by
  dsimp only [Gen.V, Gen.hostOps0]; after_results; rfl

/-- Its entry (0, i) is the vector's entry i. -/
theorem V_biasRow1_apply (c : Dev nD) (i : Fin 32) :
    (V m c main_v1 : S1x32.Idx → EReal) (ix2 (0 : Fin 1) i) = (m ((c : Thread nD τ).loc main_arg4) : S32.Idx → EReal) (ix1 i) := by
  rw [V_biasRow1 m c]
  exact shapeCast_a_1a_apply _ shapeCasts_S32_S1x32 0 i

/-- The [1, 16] array the region finds is the vector of the second layer's sixteen biases, reshaped. -/
theorem V_biasRow2 (c : Dev nD) :
    (V m c main_v2 : S1x16.Idx → EReal) = shapeCast S1x16 (m ((c : Thread nD τ).loc main_arg6)) shapeCasts_S16_S1x16 := by
  dsimp only [Gen.V, Gen.hostOps0]; after_results; rfl

/-- Its entry (0, i) is the vector's entry i. -/
theorem V_biasRow2_apply (c : Dev nD) (i : Fin 16) :
    (V m c main_v2 : S1x16.Idx → EReal) (ix2 (0 : Fin 1) i) = (m ((c : Thread nD τ).loc main_arg6) : S16.Idx → EReal) (ix1 i) := by
  rw [V_biasRow2 m c]
  exact shapeCast_a_1a_apply _ shapeCasts_S16_S1x16 0 i

/-- The [1, 1] array the region finds is the vector of the last layer's one bias, reshaped. -/
theorem V_biasRow3 (c : Dev nD) :
    (V m c main_v3 : S1x1.Idx → EReal) = shapeCast S1x1 (m ((c : Thread nD τ).loc main_arg8)) shapeCasts_S1_S1x1 := by
  dsimp only [Gen.V, Gen.hostOps0]; after_results; rfl

/-- Its entry (0, i) is the vector's entry i. -/
theorem V_biasRow3_apply (c : Dev nD) (i : Fin 1) :
    (V m c main_v3 : S1x1.Idx → EReal) (ix2 (0 : Fin 1) i) = (m ((c : Thread nD τ).loc main_arg8) : S1.Idx → EReal) (ix1 i) := by
  rw [V_biasRow3 m c]
  exact shapeCast_a_1a_apply _ shapeCasts_S1_S1x1 0 i

end Cert.KernelSide

end
-- ==== Proof.KernelBlocks.lean ====
/-
  From the body's blocks to the whole output array.

  The grid has 32 points; point t works on rows 8192 t … 8192 t + 8191 of the sample arrays and writes the same rows of
  the output, while the weights and the one-row parameter arrays are read whole at every point. So row y of a sample
  block at point t is row 8192 t + y of its array, a parameter block is its array, and what point t writes back is the
  restriction to its rows of ONE function of the argument arrays: the perceptron's output for every sample. The 32 row
  blocks cover all 262144 rows (row r lies in the block of point r / 8192), hence the output array ends holding that
  function everywhere.
-/
import proofs.«125050_j21938692948013_1_alg».proof.Proof.Gen.KernelIdeal.Value
import proofs.«125050_j21938692948013_1_alg».proof.Proof.KernelPayload
import proofs.«125050_j21938692948013_1_alg».proof.Proof.KernelHostArgs
import Idealize.ShloMosaic.Lib.Pipeline.Value
import Idealize.ShloMosaic.Lib.ValueLayout
import Idealize.ShloMosaic.Lib.Tactic

noncomputable section

open scoped BigOperators

namespace Cert.KernelSide

open Idealize.ShloMosaic Idealize.ShloMosaic.TcCoe Idealize.ShloMosaic.ValueIdx Idealize.ShloMosaic.Tactic Idealize.SL.Sem
open Idealize.ShloMosaic.Pipeline (Dat)
open Cert.KernelIdeal Cert.KernelIdeal.Gen

variable (m : (l : Loc nD τ sig) → Buf (Elt Ideal) l)

/-- The printed index maps over the 32 grid points: the two sample windows move with the output window along the rows,
    the parameter windows stay at block (0, 0), and point t takes row block t. -/
theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row y of the angle block of point t is row r of the angle array, r the y-th row of the point's row block. -/
theorem angleBlock_apply (c : Dev nD) (t : Fin cfg0.N) (y : Fin 8192) (i : Fin 7) (r : Fin 262144)
    (hr : r.val = win0_9.index t (0 : Fin 2) * 8192 + y.val) :
    (iblk m c 0 t : Vec Ideal S8192x7 .f32) (ix2 y i)
      = (m ((c : Thread nD τ).loc main_arg0) : S262144x7.Idx → EReal) (ix2 r i) := by
  obtain ⟨e00, e01, e10, e11, e20, e21, e30, e31, e40, e41, e50, e51, e60, e61, e70, e71, e80, e81, e90, e91⟩ := idx_facts t
  unfold iblk
  rw [View.read_apply]
  show V m c main_arg0 _ = _
  rw [V_main_arg0 m c]
  refine congrArg _ (funext fun a => Fin.ext ?_)
  match a with
  | ⟨0, _⟩ => show win0_0.index t (0 : Fin 2) * 8192 + 1 * y.val = r.val; omega
  | ⟨1, _⟩ => show win0_0.index t (1 : Fin 2) * 7 + 1 * i.val = i.val; omega

/-- Row y of the feature block of point t is row r of the feature array. -/
theorem featureBlock_apply (c : Dev nD) (t : Fin cfg0.N) (y : Fin 8192) (i : Fin 16) (r : Fin 262144)
    (hr : r.val = win0_9.index t (0 : Fin 2) * 8192 + y.val) :
    (iblk m c 1 t : Vec Ideal S8192x16 .f32) (ix2 y i)
      = (m ((c : Thread nD τ).loc main_arg1) : S262144x16.Idx → EReal) (ix2 r i) := by
  obtain ⟨e00, e01, e10, e11, e20, e21, e30, e31, e40, e41, e50, e51, e60, e61, e70, e71, e80, e81, e90, e91⟩ := idx_facts t
  unfold iblk
  rw [View.read_apply]
  show V m c main_arg1 _ = _
  rw [V_main_arg1 m c]
  refine congrArg _ (funext fun a => Fin.ext ?_)
  match a with
  | ⟨0, _⟩ => show win0_1.index t (0 : Fin 2) * 8192 + 1 * y.val = r.val; omega
  | ⟨1, _⟩ => show win0_1.index t (1 : Fin 2) * 16 + 1 * i.val = i.val; omega

/-- The angle-parameter window's block is the whole one-row array: its entry (0, i) is the parameter vector's entry i. -/
theorem angleRowBlock_apply (c : Dev nD) (t : Fin cfg0.N) (i : Fin 7) :
    (iblk m c 2 t : Vec Ideal S1x7 .f32) (ix2 (0 : Fin 1) i)
      = (m ((c : Thread nD τ).loc main_arg2) : S7.Idx → EReal) (ix1 i) := by
  obtain ⟨e00, e01, e10, e11, e20, e21, e30, e31, e40, e41, e50, e51, e60, e61, e70, e71, e80, e81, e90, e91⟩ := idx_facts t
  unfold iblk
  rw [View.read_apply]
  show V m c main_v0 _ = _
  rw [← V_angleRow_apply m c i]
  refine congrArg _ (funext fun b => Fin.ext ?_)
  match b with
  | ⟨0, _⟩ => show win0_2.index t (0 : Fin 2) * 1 + 1 * 0 = 0; omega
  | ⟨1, _⟩ => show win0_2.index t (1 : Fin 2) * 7 + 1 * i.val = i.val; omega

/-- The first weight matrix's block is the matrix. -/
theorem weight1Block_apply (c : Dev nD) (t : Fin cfg0.N) (a : Fin 17) (j : Fin 32) :
    (iblk m c 3 t : Vec Ideal S17x32 .f32) (ix2 a j)
      = (m ((c : Thread nD τ).loc main_arg3) : S17x32.Idx → EReal) (ix2 a j) := by
  obtain ⟨e00, e01, e10, e11, e20, e21, e30, e31, e40, e41, e50, e51, e60, e61, e70, e71, e80, e81, e90, e91⟩ := idx_facts t
  unfold iblk
  rw [View.read_apply]
  show V m c main_arg3 _ = _
  rw [V_main_arg3 m c]
  refine congrArg _ (funext fun b => Fin.ext ?_)
  match b with
  | ⟨0, _⟩ => show win0_3.index t (0 : Fin 2) * 17 + 1 * a.val = a.val; omega
  | ⟨1, _⟩ => show win0_3.index t (1 : Fin 2) * 32 + 1 * j.val = j.val; omega

/-- The first bias row's block at (0, j) is the bias vector's entry j. -/
theorem biasRow1Block_apply (c : Dev nD) (t : Fin cfg0.N) (i : Fin 32) :
    (iblk m c 4 t : Vec Ideal S1x32 .f32) (ix2 (0 : Fin 1) i)
      = (m ((c : Thread nD τ).loc main_arg4) : S32.Idx → EReal) (ix1 i) := by
  obtain ⟨e00, e01, e10, e11, e20, e21, e30, e31, e40, e41, e50, e51, e60, e61, e70, e71, e80, e81, e90, e91⟩ := idx_facts t
  unfold iblk
  rw [View.read_apply]
  show V m c main_v1 _ = _
  rw [← V_biasRow1_apply m c i]
  refine congrArg _ (funext fun b => Fin.ext ?_)
  match b with
  | ⟨0, _⟩ => show win0_4.index t (0 : Fin 2) * 1 + 1 * 0 = 0; omega
  | ⟨1, _⟩ => show win0_4.index t (1 : Fin 2) * 32 + 1 * i.val = i.val; omega

/-- The second weight matrix's block is the matrix. -/
theorem weight2Block_apply (c : Dev nD) (t : Fin cfg0.N) (a : Fin 32) (j : Fin 16) :
    (iblk m c 5 t : Vec Ideal S32x16 .f32) (ix2 a j)
      = (m ((c : Thread nD τ).loc main_arg5) : S32x16.Idx → EReal) (ix2 a j) := by
  obtain ⟨e00, e01, e10, e11, e20, e21, e30, e31, e40, e41, e50, e51, e60, e61, e70, e71, e80, e81, e90, e91⟩ := idx_facts t
  unfold iblk
  rw [View.read_apply]
  show V m c main_arg5 _ = _
  rw [V_main_arg5 m c]
  refine congrArg _ (funext fun b => Fin.ext ?_)
  match b with
  | ⟨0, _⟩ => show win0_5.index t (0 : Fin 2) * 32 + 1 * a.val = a.val; omega
  | ⟨1, _⟩ => show win0_5.index t (1 : Fin 2) * 16 + 1 * j.val = j.val; omega

/-- The second bias row's block at (0, k) is the bias vector's entry k. -/
theorem biasRow2Block_apply (c : Dev nD) (t : Fin cfg0.N) (i : Fin 16) :
    (iblk m c 6 t : Vec Ideal S1x16 .f32) (ix2 (0 : Fin 1) i)
      = (m ((c : Thread nD τ).loc main_arg6) : S16.Idx → EReal) (ix1 i) := by
  obtain ⟨e00, e01, e10, e11, e20, e21, e30, e31, e40, e41, e50, e51, e60, e61, e70, e71, e80, e81, e90, e91⟩ := idx_facts t
  unfold iblk
  rw [View.read_apply]
  show V m c main_v2 _ = _
  rw [← V_biasRow2_apply m c i]
  refine congrArg _ (funext fun b => Fin.ext ?_)
  match b with
  | ⟨0, _⟩ => show win0_6.index t (0 : Fin 2) * 1 + 1 * 0 = 0; omega
  | ⟨1, _⟩ => show win0_6.index t (1 : Fin 2) * 16 + 1 * i.val = i.val; omega

/-- The last weight matrix's block is the matrix. -/
theorem weight3Block_apply (c : Dev nD) (t : Fin cfg0.N) (a : Fin 16) (j : Fin 1) :
    (iblk m c 7 t : Vec Ideal S16x1 .f32) (ix2 a j)
      = (m ((c : Thread nD τ).loc main_arg7) : S16x1.Idx → EReal) (ix2 a j) := by
  obtain ⟨e00, e01, e10, e11, e20, e21, e30, e31, e40, e41, e50, e51, e60, e61, e70, e71, e80, e81, e90, e91⟩ := idx_facts t
  unfold iblk
  rw [View.read_apply]
  show V m c main_arg7 _ = _
  rw [V_main_arg7 m c]
  refine congrArg _ (funext fun b => Fin.ext ?_)
  match b with
  | ⟨0, _⟩ => show win0_7.index t (0 : Fin 2) * 16 + 1 * a.val = a.val; omega
  | ⟨1, _⟩ => show win0_7.index t (1 : Fin 2) * 1 + 1 * j.val = j.val; omega

/-- The last bias row's block at (0, 0) is the bias vector's one entry. -/
theorem biasRow3Block_apply (c : Dev nD) (t : Fin cfg0.N) (i : Fin 1) :
    (iblk m c 8 t : Vec Ideal S1x1 .f32) (ix2 (0 : Fin 1) i)
      = (m ((c : Thread nD τ).loc main_arg8) : S1.Idx → EReal) (ix1 i) := by
  obtain ⟨e00, e01, e10, e11, e20, e21, e30, e31, e40, e41, e50, e51, e60, e61, e70, e71, e80, e81, e90, e91⟩ := idx_facts t
  unfold iblk
  rw [View.read_apply]
  show V m c main_v3 _ = _
  rw [← V_biasRow3_apply m c i]
  refine congrArg _ (funext fun b => Fin.ext ?_)
  match b with
  | ⟨0, _⟩ => show win0_8.index t (0 : Fin 2) * 1 + 1 * 0 = 0; omega
  | ⟨1, _⟩ => show win0_8.index t (1 : Fin 2) * 1 + 1 * i.val = i.val; omega

theorem hz : (![0, 0] : Fin 2 → Nat) = fun _ => 0 := funext fun a => by fin_cases a <;> rfl

/-- The body's result at an entry j of the output block is the perceptron's output at the array entry i, when row j 0
    of the block's operands is row i 0 of the arrays. -/
theorem payload_at (x0 : Vec Ideal S8192x7 .f32) (x1 : Vec Ideal S8192x16 .f32) (x2 : Vec Ideal S1x7 .f32)
    (x3 : Vec Ideal S17x32 .f32) (x4 : Vec Ideal S1x32 .f32) (x5 : Vec Ideal S32x16 .f32) (x6 : Vec Ideal S1x16 .f32)
    (x7 : Vec Ideal S16x1 .f32) (x8 : Vec Ideal S1x1 .f32) (j : S8192x1.Idx) (i : S262144x1.Idx)
    (xq : S262144x7.Idx → EReal) (xc : S262144x16.Idx → EReal) (qp : S7.Idx → EReal)
    (W1 : S17x32.Idx → EReal) (b1 : S32.Idx → EReal) (W2 : S32x16.Idx → EReal) (b2 : S16.Idx → EReal)
    (W3 : S16x1.Idx → EReal) (b3 : S1.Idx → EReal)
    (h0 : ∀ a : Fin 7, x0 (ix2 (j 0) a) = xq (ix2 (i 0) a)) (h1 : ∀ a : Fin 16, x1 (ix2 (j 0) a) = xc (ix2 (i 0) a))
    (h2 : ∀ a : Fin 7, x2 (ix2 (0 : Fin 1) a) = qp (ix1 a))
    (h3 : ∀ (a : Fin 17) (b : Fin 32), x3 (ix2 a b) = W1 (ix2 a b)) (h4 : ∀ b : Fin 32, x4 (ix2 (0 : Fin 1) b) = b1 (ix1 b))
    (h5 : ∀ (a : Fin 32) (b : Fin 16), x5 (ix2 a b) = W2 (ix2 a b)) (h6 : ∀ b : Fin 16, x6 (ix2 (0 : Fin 1) b) = b2 (ix1 b))
    (h7 : ∀ (a : Fin 16) (b : Fin 1), x7 (ix2 a b) = W3 (ix2 a b)) (h8 : ∀ b : Fin 1, x8 (ix2 (0 : Fin 1) b) = b3 (ix1 b)) :
    k0_pay1 (k0_pay2 x0 x1 x2 x3 x4 x5 x6) x7 (constant (F := Ideal) S8192x1 .f32 0x00000000#32) x8 j
      = Cert.Spec.mlp (Cert.Spec.cosProd xq qp) xc W1 b1 W2 b2 W3 b3 i := by
  have hj : j = ix2 (j 0) (0 : Fin 1) := by
    funext a
    match a with
    | ⟨0, _⟩ => rfl
    | ⟨1, _⟩ =>
      have h : (j 1).val < 1 := (j 1).isLt
      exact Fin.ext (by show (j 1).val = 0; omega)
  calc k0_pay1 (k0_pay2 x0 x1 x2 x3 x4 x5 x6) x7 (constant (F := Ideal) S8192x1 .f32 0x00000000#32) x8 j
      = k0_pay1 (k0_pay2 x0 x1 x2 x3 x4 x5 x6) x7 (constant (F := Ideal) S8192x1 .f32 0x00000000#32) x8 (ix2 (j 0) (0 : Fin 1)) :=
        congrArg _ hj
    _ = Cert.Spec.mlp (Cert.Spec.cosProd xq qp) xc W1 b1 W2 b2 W3 b3 (ix2 (i 0) (0 : Fin 1)) :=
        payload_eq_mlp x0 x1 x2 x3 x4 x5 x6 x7 x8 (j 0) (i 0) xq xc qp W1 b1 W2 b2 W3 b3 h0 h1 h2 h3 h4 h5 h6 h7 h8
    _ = Cert.Spec.mlp (Cert.Spec.cosProd xq qp) xc W1 b1 W2 b2 W3 b3 i := rfl

/-- WHAT POINT t WRITES BACK is block t of the perceptron's outputs for all samples: the body's result at row y of the
    block is the output for sample 8192 t + y. -/
theorem flushed_eq (c : Dev nD) (t : Fin cfg0.N) :
    (dats m 0 c).flushed 9 t = ((cfg0.win 9).blk t).view.read (Elt Ideal) (Cert.Spec.mlp (Cert.Spec.cosProd (m ((c : Thread nD τ).loc main_arg0)) (m ((c : Thread nD τ).loc main_arg2))) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [Cert.KernelIdeal.Value.flushed9]
  unfold Gen.out0_9
  rw [View.canon_unit_zero hz]
  simp only [View.ld_unit_zero (S := S8192x7) hz, View.ld_unit_zero (S := S8192x16) hz, View.ld_unit_zero (S := S1x7) hz,
    View.ld_unit_zero (S := S17x32) hz, View.ld_unit_zero (S := S1x32) hz, View.ld_unit_zero (S := S32x16) hz,
    View.ld_unit_zero (S := S1x16) hz, View.ld_unit_zero (S := S16x1) hz, View.ld_unit_zero (S := S1x1) hz]
  funext j
  show k0_pay1 (k0_pay2 (iblk m c 0 t) (iblk m c 1 t) (iblk m c 2 t) (iblk m c 3 t) (iblk m c 4 t) (iblk m c 5 t) (iblk m c 6 t))
      (iblk m c 7 t) (constant (F := Ideal) S8192x1 .f32 0x00000000#32) (iblk m c 8 t) j
    = (Cert.Spec.mlp (Cert.Spec.cosProd (m ((c : Thread nD τ).loc main_arg0)) (m ((c : Thread nD τ).loc main_arg2))) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (((cfg0.win 9).blk t).view.emb j)
  have hr : ((((cfg0.win 9).blk t).view.emb j) 0).val = win0_9.index t (0 : Fin 2) * 8192 + (j 0).val := by
    show win0_9.index t (0 : Fin 2) * 8192 + 1 * (j 0).val = _
    omega
  exact payload_at (iblk m c 0 t) (iblk m c 1 t) (iblk m c 2 t) (iblk m c 3 t) (iblk m c 4 t) (iblk m c 5 t) (iblk m c 6 t)
    (iblk m c 7 t) (iblk m c 8 t) j (((cfg0.win 9).blk t).view.emb j) _ _ _ _ _ _ _ _ _
    (fun a => angleBlock_apply m c t (j 0) a _ hr) (fun a => featureBlock_apply m c t (j 0) a _ hr)
    (fun a => angleRowBlock_apply m c t a) (fun a b => weight1Block_apply m c t a b) (fun b => biasRow1Block_apply m c t b)
    (fun a b => weight2Block_apply m c t a b) (fun b => biasRow2Block_apply m c t b)
    (fun a b => weight3Block_apply m c t a b) (fun b => biasRow3Block_apply m c t b)

/-- An index of the output array is in point t's block iff each coordinate is in the block's range on its axis. -/
theorem mem_blk (t : Fin cfg0.N) (i : S262144x1.Idx) :
    i ∈ ((cfg0.win 9).blk t).view.set ↔ ∀ a : Fin 2, win0_9.index t a * S8192x1.size a ≤ (i a).val
      ∧ (i a).val < win0_9.index t a * S8192x1.size a + S8192x1.size a := by
  show i ∈ ((View.whole main_v4).slice (win0_9.rect t)).set ↔ _
  rw [View.set_slice_whole, Rect.mem_set_unit]
  exact Iff.rfl

/-- The 32 row blocks cover the 262144 rows: row r is in the block of point r / 8192. -/
theorem cover (i : S262144x1.Idx) :
    ∃ t : Fin cfg0.N, (cfg0.win 9).flush t = true ∧ i ∈ ((cfg0.win 9).blk t).view.set := by
  have hi0 : (i 0).val < 262144 := (i 0).isLt
  have hi1 : (i 1).val < 1 := (i 1).isLt
  have hN : cfg0.N = 32 := N_0
  have hlt : (i 0).val / 8192 < cfg0.N := by rw [hN]; omega
  obtain ⟨e00, e01, e10, e11, e20, e21, e30, e31, e40, e41, e50, e51, e60, e61, e70, e71, e80, e81, e90, e91⟩ := idx_facts ⟨(i 0).val / 8192, hlt⟩
  have e90' : win0_9.index ⟨(i 0).val / 8192, hlt⟩ (0 : Fin 2) = (i 0).val / 8192 := e90
  refine ⟨⟨(i 0).val / 8192, hlt⟩, flush0_9 _, ?_⟩
  rw [mem_blk]
  intro a
  match a with
  | ⟨0, _⟩ =>
    show win0_9.index ⟨(i 0).val / 8192, hlt⟩ (0 : Fin 2) * 8192 ≤ (i 0).val
      ∧ (i 0).val < win0_9.index ⟨(i 0).val / 8192, hlt⟩ (0 : Fin 2) * 8192 + 8192
    omega
  | ⟨1, _⟩ =>
    show win0_9.index ⟨(i 0).val / 8192, hlt⟩ (1 : Fin 2) * 1 ≤ (i 1).val
      ∧ (i 1).val < win0_9.index ⟨(i 0).val / 8192, hlt⟩ (1 : Fin 2) * 1 + 1
    omega

/-- THE OUTPUT ARRAY after the run: the perceptron's output for every sample. -/
theorem final (c : Dev nD) : (dats m 0 c).arrAt 9 cfg0.N = Cert.Spec.mlp (Cert.Spec.cosProd (m ((c : Thread nD τ).loc main_arg0)) (m ((c : Thread nD τ).loc main_arg2))) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9 _ (fun t _ => flushed_eq m c t) cover

end Cert.KernelSide

end
-- ==== Proof.KernelRun.lean ====
/-
  The kernel's run, read: after it the output array holds the perceptron's output for every sample — the quantum number
  of a sample being the product of the cosines of its wires 1 … 6 — and the nine argument arrays are unchanged.
-/
import proofs.«125050_j21938692948013_1_alg».proof.Proof.Gen.KernelIdeal.Value
import proofs.«125050_j21938692948013_1_alg».proof.Proof.KernelBlocks
import Idealize.ShloMosaic.Lib.Pipeline.Value
import Idealize.ShloMosaic.Lib.ValueLayout
import Idealize.ShloMosaic.Lib.Tactic

noncomputable section

open scoped BigOperators

namespace Cert.KernelSide

open Idealize.ShloMosaic Idealize.ShloMosaic.TcCoe Idealize.ShloMosaic.ValueIdx Idealize.ShloMosaic.Tactic Idealize.SL.Sem
open Idealize.ShloMosaic.Pipeline (Dat)
open Cert.KernelIdeal Cert.KernelIdeal.Gen

/-- Every weakly fair execution of the kernel program terminates with the output array at the specification's function
    of the arguments as launched, and the arguments as launched. -/
theorem run (m : (l : Loc Cert.KernelIdeal.nD Cert.KernelIdeal.τ Cert.KernelIdeal.sig) → Buf (Elt Ideal) l)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ fun r => ∀ c : Dev Cert.KernelIdeal.nD,
      r.2.mem ((c : Thread nD τ).loc main_v4) = Cert.Spec.mlp (Cert.Spec.cosProd (m ((c : Thread nD τ).loc main_arg0)) (m ((c : Thread nD τ).loc main_arg2))) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelSide

end
-- ==== Proof.RefStages.lean ====
/-
  The reference program's value, stage by stage.

  Each definition below is a stretch of the reference's host operations written as one pure function of the arrays
  that stretch reads: the half-angle cosines and sines; each wire's pair of amplitudes; the product state grown one
  wire at a time (an outer product with the wire's pair, flattened); the state with one axis per wire; the seven
  controlled-NOT gates of the ring, each a concatenation of the control-0 half with the target-reversed control-1
  half; the two probabilities of wire 0; their difference; and the perceptron on that number and the classical
  features. Every intermediate array is named once, so an array that two later operations read is not written twice.
  `refOut` is their composition; the run of the program ends with its result buffer holding `refOut` of the arguments.
-/
import proofs.«125050_j21938692948013_1_alg».proof.Proof.Gen.ReferenceIdeal

noncomputable section

namespace Cert.RefStages

open Cert.ReferenceIdeal Cert.ReferenceIdeal.Gen Idealize.ShloMosaic Idealize.ShloMosaic.TcCoe

variable {F : FTy → Type} [FloatOps F]

/-- The cosines of the half angles, `cos ((x_q (r, i) + q_params i) / 2)`, as an array [262144, 7]. -/
def s5 (x0 : (⟨S262144x7, .f32⟩ : BufTy).Contents (Elt F)) (x2 : (⟨S7, .f32⟩ : BufTy).Contents (Elt F)) :
    (⟨S262144x7, .f32⟩ : BufTy).Contents (Elt F) :=
  Host.cos (mulf (broadcastInDim S262144x7 ![] bcast_S_S262144x7 (constant (F := F) S_ .f32 0x3F000000#32)) (addf (x0) (broadcastInDim S262144x7 ![0, 1] bcast_S1x7_S262144x7_0_1 (broadcastInDim S1x7 ![1] bcast_S7_S1x7_1 (x2)))))

/-- The sines of the half angles, as an array [262144, 7]. -/
def s6 (x0 : (⟨S262144x7, .f32⟩ : BufTy).Contents (Elt F)) (x2 : (⟨S7, .f32⟩ : BufTy).Contents (Elt F)) :
    (⟨S262144x7, .f32⟩ : BufTy).Contents (Elt F) :=
  Host.sin (mulf (broadcastInDim S262144x7 ![] bcast_S_S262144x7 (constant (F := F) S_ .f32 0x3F000000#32)) (addf (x0) (broadcastInDim S262144x7 ![0, 1] bcast_S1x7_S262144x7_0_1 (broadcastInDim S1x7 ![1] bcast_S7_S1x7_1 (x2)))))

/-- Wire 0's two amplitudes per sample, [262144, 2]: column 0 the cosine of its half angle, column 1 the sine. -/
def s14 (p5 : (⟨S262144x7, .f32⟩ : BufTy).Contents (Elt F)) (p6 : (⟨S262144x7, .f32⟩ : BufTy).Contents (Elt F)) :
    (⟨S262144x2, .f32⟩ : BufTy).Contents (Elt F) :=
  concatenate S262144x2 1 [⟨S262144x1, broadcastInDim S262144x1 ![0] bcast_S262144_S262144x1_0 (shapeCast _ (extractStridedSlice S262144x1 ![0, 0] (p5) slices_S262144x7_S262144x1_0_0) shapeCasts_S262144x1_S262144)⟩, ⟨S262144x1, broadcastInDim S262144x1 ![0] bcast_S262144_S262144x1_0 (shapeCast _ (extractStridedSlice S262144x1 ![0, 0] (p6) slices_S262144x7_S262144x1_0_0) shapeCasts_S262144x1_S262144)⟩] concatenates_S262144x1_S262144x1_S262144x2_d1

/-- The product state of wires 0 … 0, [262144, 2]: the constant one times wire 0's amplitude `n % 2`. -/
def s19 (p14 : (⟨S262144x2, .f32⟩ : BufTy).Contents (Elt F)) :
    (⟨S262144x2, .f32⟩ : BufTy).Contents (Elt F) :=
  shapeCast _ (mulf (broadcastInDim S262144x1x2 ![0, 1, 2] bcast_S262144x1x1_S262144x1x2_0_1_2 (broadcastInDim S262144x1x1 ![0, 1] bcast_S262144x1_S262144x1x1_0_1 (broadcastInDim S262144x1 ![] bcast_S_S262144x1 (constant (F := F) S_ .f32 0x3F800000#32)))) (broadcastInDim S262144x1x2 ![0, 2] bcast_S262144x2_S262144x1x2_0_2 (p14))) shapeCasts_S262144x1x2_S262144x2

/-- Wire 1's two amplitudes per sample, [262144, 2]: column 0 the cosine of its half angle, column 1 the sine. -/
def s26 (p5 : (⟨S262144x7, .f32⟩ : BufTy).Contents (Elt F)) (p6 : (⟨S262144x7, .f32⟩ : BufTy).Contents (Elt F)) :
    (⟨S262144x2, .f32⟩ : BufTy).Contents (Elt F) :=
  concatenate S262144x2 1 [⟨S262144x1, broadcastInDim S262144x1 ![0] bcast_S262144_S262144x1_0 (shapeCast _ (extractStridedSlice S262144x1 ![0, 1] (p5) slices_S262144x7_S262144x1_0_1) shapeCasts_S262144x1_S262144)⟩, ⟨S262144x1, broadcastInDim S262144x1 ![0] bcast_S262144_S262144x1_0 (shapeCast _ (extractStridedSlice S262144x1 ![0, 1] (p6) slices_S262144x7_S262144x1_0_1) shapeCasts_S262144x1_S262144)⟩] concatenates_S262144x1_S262144x1_S262144x2_d1

/-- The product state of wires 0 … 1, [262144, 4]: the previous state's entry `n / 2` times wire 1's amplitude `n % 2`. -/
def s32 (p19 : (⟨S262144x2, .f32⟩ : BufTy).Contents (Elt F)) (p26 : (⟨S262144x2, .f32⟩ : BufTy).Contents (Elt F)) :
    (⟨S262144x4, .f32⟩ : BufTy).Contents (Elt F) :=
  shapeCast _ (mulf (broadcastInDim S262144x2x2 ![0, 1, 2] bcast_S262144x2x1_S262144x2x2_0_1_2 (broadcastInDim S262144x2x1 ![0, 1] bcast_S262144x2_S262144x2x1_0_1 (p19))) (broadcastInDim S262144x2x2 ![0, 1, 2] bcast_S262144x1x2_S262144x2x2_0_1_2 (broadcastInDim S262144x1x2 ![0, 2] bcast_S262144x2_S262144x1x2_0_2 (p26)))) shapeCasts_S262144x2x2_S262144x4

/-- Wire 2's two amplitudes per sample, [262144, 2]: column 0 the cosine of its half angle, column 1 the sine. -/
def s39 (p5 : (⟨S262144x7, .f32⟩ : BufTy).Contents (Elt F)) (p6 : (⟨S262144x7, .f32⟩ : BufTy).Contents (Elt F)) :
    (⟨S262144x2, .f32⟩ : BufTy).Contents (Elt F) :=
  concatenate S262144x2 1 [⟨S262144x1, broadcastInDim S262144x1 ![0] bcast_S262144_S262144x1_0 (shapeCast _ (extractStridedSlice S262144x1 ![0, 2] (p5) slices_S262144x7_S262144x1_0_2) shapeCasts_S262144x1_S262144)⟩, ⟨S262144x1, broadcastInDim S262144x1 ![0] bcast_S262144_S262144x1_0 (shapeCast _ (extractStridedSlice S262144x1 ![0, 2] (p6) slices_S262144x7_S262144x1_0_2) shapeCasts_S262144x1_S262144)⟩] concatenates_S262144x1_S262144x1_S262144x2_d1

/-- The product state of wires 0 … 2, [262144, 8]: the previous state's entry `n / 2` times wire 2's amplitude `n % 2`. -/
def s45 (p32 : (⟨S262144x4, .f32⟩ : BufTy).Contents (Elt F)) (p39 : (⟨S262144x2, .f32⟩ : BufTy).Contents (Elt F)) :
    (⟨S262144x8, .f32⟩ : BufTy).Contents (Elt F) :=
  shapeCast _ (mulf (broadcastInDim S262144x4x2 ![0, 1, 2] bcast_S262144x4x1_S262144x4x2_0_1_2 (broadcastInDim S262144x4x1 ![0, 1] bcast_S262144x4_S262144x4x1_0_1 (p32))) (broadcastInDim S262144x4x2 ![0, 1, 2] bcast_S262144x1x2_S262144x4x2_0_1_2 (broadcastInDim S262144x1x2 ![0, 2] bcast_S262144x2_S262144x1x2_0_2 (p39)))) shapeCasts_S262144x4x2_S262144x8

/-- Wire 3's two amplitudes per sample, [262144, 2]: column 0 the cosine of its half angle, column 1 the sine. -/
def s52 (p5 : (⟨S262144x7, .f32⟩ : BufTy).Contents (Elt F)) (p6 : (⟨S262144x7, .f32⟩ : BufTy).Contents (Elt F)) :
    (⟨S262144x2, .f32⟩ : BufTy).Contents (Elt F) :=
  concatenate S262144x2 1 [⟨S262144x1, broadcastInDim S262144x1 ![0] bcast_S262144_S262144x1_0 (shapeCast _ (extractStridedSlice S262144x1 ![0, 3] (p5) slices_S262144x7_S262144x1_0_3) shapeCasts_S262144x1_S262144)⟩, ⟨S262144x1, broadcastInDim S262144x1 ![0] bcast_S262144_S262144x1_0 (shapeCast _ (extractStridedSlice S262144x1 ![0, 3] (p6) slices_S262144x7_S262144x1_0_3) shapeCasts_S262144x1_S262144)⟩] concatenates_S262144x1_S262144x1_S262144x2_d1

/-- The product state of wires 0 … 3, [262144, 16]: the previous state's entry `n / 2` times wire 3's amplitude `n % 2`. -/
def s58 (p45 : (⟨S262144x8, .f32⟩ : BufTy).Contents (Elt F)) (p52 : (⟨S262144x2, .f32⟩ : BufTy).Contents (Elt F)) :
    (⟨S262144x16, .f32⟩ : BufTy).Contents (Elt F) :=
  shapeCast _ (mulf (broadcastInDim S262144x8x2 ![0, 1, 2] bcast_S262144x8x1_S262144x8x2_0_1_2 (broadcastInDim S262144x8x1 ![0, 1] bcast_S262144x8_S262144x8x1_0_1 (p45))) (broadcastInDim S262144x8x2 ![0, 1, 2] bcast_S262144x1x2_S262144x8x2_0_1_2 (broadcastInDim S262144x1x2 ![0, 2] bcast_S262144x2_S262144x1x2_0_2 (p52)))) shapeCasts_S262144x8x2_S262144x16

/-- Wire 4's two amplitudes per sample, [262144, 2]: column 0 the cosine of its half angle, column 1 the sine. -/
def s65 (p5 : (⟨S262144x7, .f32⟩ : BufTy).Contents (Elt F)) (p6 : (⟨S262144x7, .f32⟩ : BufTy).Contents (Elt F)) :
    (⟨S262144x2, .f32⟩ : BufTy).Contents (Elt F) :=
  concatenate S262144x2 1 [⟨S262144x1, broadcastInDim S262144x1 ![0] bcast_S262144_S262144x1_0 (shapeCast _ (extractStridedSlice S262144x1 ![0, 4] (p5) slices_S262144x7_S262144x1_0_4) shapeCasts_S262144x1_S262144)⟩, ⟨S262144x1, broadcastInDim S262144x1 ![0] bcast_S262144_S262144x1_0 (shapeCast _ (extractStridedSlice S262144x1 ![0, 4] (p6) slices_S262144x7_S262144x1_0_4) shapeCasts_S262144x1_S262144)⟩] concatenates_S262144x1_S262144x1_S262144x2_d1

/-- The product state of wires 0 … 4, [262144, 32]: the previous state's entry `n / 2` times wire 4's amplitude `n % 2`. -/
def s71 (p58 : (⟨S262144x16, .f32⟩ : BufTy).Contents (Elt F)) (p65 : (⟨S262144x2, .f32⟩ : BufTy).Contents (Elt F)) :
    (⟨S262144x32, .f32⟩ : BufTy).Contents (Elt F) :=
  shapeCast _ (mulf (broadcastInDim S262144x16x2 ![0, 1, 2] bcast_S262144x16x1_S262144x16x2_0_1_2 (broadcastInDim S262144x16x1 ![0, 1] bcast_S262144x16_S262144x16x1_0_1 (p58))) (broadcastInDim S262144x16x2 ![0, 1, 2] bcast_S262144x1x2_S262144x16x2_0_1_2 (broadcastInDim S262144x1x2 ![0, 2] bcast_S262144x2_S262144x1x2_0_2 (p65)))) shapeCasts_S262144x16x2_S262144x32

/-- Wire 5's two amplitudes per sample, [262144, 2]: column 0 the cosine of its half angle, column 1 the sine. -/
def s78 (p5 : (⟨S262144x7, .f32⟩ : BufTy).Contents (Elt F)) (p6 : (⟨S262144x7, .f32⟩ : BufTy).Contents (Elt F)) :
    (⟨S262144x2, .f32⟩ : BufTy).Contents (Elt F) :=
  concatenate S262144x2 1 [⟨S262144x1, broadcastInDim S262144x1 ![0] bcast_S262144_S262144x1_0 (shapeCast _ (extractStridedSlice S262144x1 ![0, 5] (p5) slices_S262144x7_S262144x1_0_5) shapeCasts_S262144x1_S262144)⟩, ⟨S262144x1, broadcastInDim S262144x1 ![0] bcast_S262144_S262144x1_0 (shapeCast _ (extractStridedSlice S262144x1 ![0, 5] (p6) slices_S262144x7_S262144x1_0_5) shapeCasts_S262144x1_S262144)⟩] concatenates_S262144x1_S262144x1_S262144x2_d1

/-- The product state of wires 0 … 5, [262144, 64]: the previous state's entry `n / 2` times wire 5's amplitude `n % 2`. -/
def s84 (p71 : (⟨S262144x32, .f32⟩ : BufTy).Contents (Elt F)) (p78 : (⟨S262144x2, .f32⟩ : BufTy).Contents (Elt F)) :
    (⟨S262144x64, .f32⟩ : BufTy).Contents (Elt F) :=
  shapeCast _ (mulf (broadcastInDim S262144x32x2 ![0, 1, 2] bcast_S262144x32x1_S262144x32x2_0_1_2 (broadcastInDim S262144x32x1 ![0, 1] bcast_S262144x32_S262144x32x1_0_1 (p71))) (broadcastInDim S262144x32x2 ![0, 1, 2] bcast_S262144x1x2_S262144x32x2_0_1_2 (broadcastInDim S262144x1x2 ![0, 2] bcast_S262144x2_S262144x1x2_0_2 (p78)))) shapeCasts_S262144x32x2_S262144x64

/-- Wire 6's two amplitudes per sample, [262144, 2]: column 0 the cosine of its half angle, column 1 the sine. -/
def s91 (p5 : (⟨S262144x7, .f32⟩ : BufTy).Contents (Elt F)) (p6 : (⟨S262144x7, .f32⟩ : BufTy).Contents (Elt F)) :
    (⟨S262144x2, .f32⟩ : BufTy).Contents (Elt F) :=
  concatenate S262144x2 1 [⟨S262144x1, broadcastInDim S262144x1 ![0] bcast_S262144_S262144x1_0 (shapeCast _ (extractStridedSlice S262144x1 ![0, 6] (p5) slices_S262144x7_S262144x1_0_6) shapeCasts_S262144x1_S262144)⟩, ⟨S262144x1, broadcastInDim S262144x1 ![0] bcast_S262144_S262144x1_0 (shapeCast _ (extractStridedSlice S262144x1 ![0, 6] (p6) slices_S262144x7_S262144x1_0_6) shapeCasts_S262144x1_S262144)⟩] concatenates_S262144x1_S262144x1_S262144x2_d1

/-- The amplitudes of the seven-wire product state, [262144, 128]: the previous state's entry `n / 2` times wire 6's amplitude `n % 2`. -/
def s97 (p84 : (⟨S262144x64, .f32⟩ : BufTy).Contents (Elt F)) (p91 : (⟨S262144x2, .f32⟩ : BufTy).Contents (Elt F)) :
    (⟨S262144x128, .f32⟩ : BufTy).Contents (Elt F) :=
  shapeCast _ (mulf (broadcastInDim S262144x64x2 ![0, 1, 2] bcast_S262144x64x1_S262144x64x2_0_1_2 (broadcastInDim S262144x64x1 ![0, 1] bcast_S262144x64_S262144x64x1_0_1 (p84))) (broadcastInDim S262144x64x2 ![0, 1, 2] bcast_S262144x1x2_S262144x64x2_0_1_2 (broadcastInDim S262144x1x2 ![0, 2] bcast_S262144x2_S262144x1x2_0_2 (p91)))) shapeCasts_S262144x64x2_S262144x128

/-- The product state with one axis per wire, [262144, 2, 2, 2, 2, 2, 2, 2]. -/
def s98 (p97 : (⟨S262144x128, .f32⟩ : BufTy).Contents (Elt F)) :
    (⟨S262144x2x2x2x2x2x2x2, .f32⟩ : BufTy).Contents (Elt F) :=
  shapeCast _ (p97) shapeCasts_S262144x128_S262144x2x2x2x2x2x2x2

/-- The controlled-NOT with control wire 0 and target wire 1: where the control's label is 0 the state as it was, where it is 1 the state with the target's axis reversed. -/
def s102 (p98 : (⟨S262144x2x2x2x2x2x2x2, .f32⟩ : BufTy).Contents (Elt F)) :
    (⟨S262144x2x2x2x2x2x2x2, .f32⟩ : BufTy).Contents (Elt F) :=
  concatenate S262144x2x2x2x2x2x2x2 1 [⟨S262144x1x2x2x2x2x2x2, extractStridedSlice S262144x1x2x2x2x2x2x2 ![0, 0, 0, 0, 0, 0, 0, 0] (p98) slices_S262144x2x2x2x2x2x2x2_S262144x1x2x2x2x2x2x2_0_0_0_0_0_0_0_0⟩, ⟨S262144x1x2x2x2x2x2x2, Host.reverse [2] (extractStridedSlice S262144x1x2x2x2x2x2x2 ![0, 1, 0, 0, 0, 0, 0, 0] (p98) slices_S262144x2x2x2x2x2x2x2_S262144x1x2x2x2x2x2x2_0_1_0_0_0_0_0_0)⟩] concatenates_S262144x1x2x2x2x2x2x2_S262144x1x2x2x2x2x2x2_S262144x2x2x2x2x2x2x2_d1

/-- The controlled-NOT with control wire 1 and target wire 2: where the control's label is 0 the state as it was, where it is 1 the state with the target's axis reversed. -/
def s106 (p102 : (⟨S262144x2x2x2x2x2x2x2, .f32⟩ : BufTy).Contents (Elt F)) :
    (⟨S262144x2x2x2x2x2x2x2, .f32⟩ : BufTy).Contents (Elt F) :=
  concatenate S262144x2x2x2x2x2x2x2 2 [⟨S262144x2x1x2x2x2x2x2, extractStridedSlice S262144x2x1x2x2x2x2x2 ![0, 0, 0, 0, 0, 0, 0, 0] (p102) slices_S262144x2x2x2x2x2x2x2_S262144x2x1x2x2x2x2x2_0_0_0_0_0_0_0_0⟩, ⟨S262144x2x1x2x2x2x2x2, Host.reverse [3] (extractStridedSlice S262144x2x1x2x2x2x2x2 ![0, 0, 1, 0, 0, 0, 0, 0] (p102) slices_S262144x2x2x2x2x2x2x2_S262144x2x1x2x2x2x2x2_0_0_1_0_0_0_0_0)⟩] concatenates_S262144x2x1x2x2x2x2x2_S262144x2x1x2x2x2x2x2_S262144x2x2x2x2x2x2x2_d2

/-- The controlled-NOT with control wire 2 and target wire 3: where the control's label is 0 the state as it was, where it is 1 the state with the target's axis reversed. -/
def s110 (p106 : (⟨S262144x2x2x2x2x2x2x2, .f32⟩ : BufTy).Contents (Elt F)) :
    (⟨S262144x2x2x2x2x2x2x2, .f32⟩ : BufTy).Contents (Elt F) :=
  concatenate S262144x2x2x2x2x2x2x2 3 [⟨S262144x2x2x1x2x2x2x2, extractStridedSlice S262144x2x2x1x2x2x2x2 ![0, 0, 0, 0, 0, 0, 0, 0] (p106) slices_S262144x2x2x2x2x2x2x2_S262144x2x2x1x2x2x2x2_0_0_0_0_0_0_0_0⟩, ⟨S262144x2x2x1x2x2x2x2, Host.reverse [4] (extractStridedSlice S262144x2x2x1x2x2x2x2 ![0, 0, 0, 1, 0, 0, 0, 0] (p106) slices_S262144x2x2x2x2x2x2x2_S262144x2x2x1x2x2x2x2_0_0_0_1_0_0_0_0)⟩] concatenates_S262144x2x2x1x2x2x2x2_S262144x2x2x1x2x2x2x2_S262144x2x2x2x2x2x2x2_d3

/-- The controlled-NOT with control wire 3 and target wire 4: where the control's label is 0 the state as it was, where it is 1 the state with the target's axis reversed. -/
def s114 (p110 : (⟨S262144x2x2x2x2x2x2x2, .f32⟩ : BufTy).Contents (Elt F)) :
    (⟨S262144x2x2x2x2x2x2x2, .f32⟩ : BufTy).Contents (Elt F) :=
  concatenate S262144x2x2x2x2x2x2x2 4 [⟨S262144x2x2x2x1x2x2x2, extractStridedSlice S262144x2x2x2x1x2x2x2 ![0, 0, 0, 0, 0, 0, 0, 0] (p110) slices_S262144x2x2x2x2x2x2x2_S262144x2x2x2x1x2x2x2_0_0_0_0_0_0_0_0⟩, ⟨S262144x2x2x2x1x2x2x2, Host.reverse [5] (extractStridedSlice S262144x2x2x2x1x2x2x2 ![0, 0, 0, 0, 1, 0, 0, 0] (p110) slices_S262144x2x2x2x2x2x2x2_S262144x2x2x2x1x2x2x2_0_0_0_0_1_0_0_0)⟩] concatenates_S262144x2x2x2x1x2x2x2_S262144x2x2x2x1x2x2x2_S262144x2x2x2x2x2x2x2_d4

/-- The controlled-NOT with control wire 4 and target wire 5: where the control's label is 0 the state as it was, where it is 1 the state with the target's axis reversed. -/
def s118 (p114 : (⟨S262144x2x2x2x2x2x2x2, .f32⟩ : BufTy).Contents (Elt F)) :
    (⟨S262144x2x2x2x2x2x2x2, .f32⟩ : BufTy).Contents (Elt F) :=
  concatenate S262144x2x2x2x2x2x2x2 5 [⟨S262144x2x2x2x2x1x2x2, extractStridedSlice S262144x2x2x2x2x1x2x2 ![0, 0, 0, 0, 0, 0, 0, 0] (p114) slices_S262144x2x2x2x2x2x2x2_S262144x2x2x2x2x1x2x2_0_0_0_0_0_0_0_0⟩, ⟨S262144x2x2x2x2x1x2x2, Host.reverse [6] (extractStridedSlice S262144x2x2x2x2x1x2x2 ![0, 0, 0, 0, 0, 1, 0, 0] (p114) slices_S262144x2x2x2x2x2x2x2_S262144x2x2x2x2x1x2x2_0_0_0_0_0_1_0_0)⟩] concatenates_S262144x2x2x2x2x1x2x2_S262144x2x2x2x2x1x2x2_S262144x2x2x2x2x2x2x2_d5

/-- The controlled-NOT with control wire 5 and target wire 6: where the control's label is 0 the state as it was, where it is 1 the state with the target's axis reversed. -/
def s122 (p118 : (⟨S262144x2x2x2x2x2x2x2, .f32⟩ : BufTy).Contents (Elt F)) :
    (⟨S262144x2x2x2x2x2x2x2, .f32⟩ : BufTy).Contents (Elt F) :=
  concatenate S262144x2x2x2x2x2x2x2 6 [⟨S262144x2x2x2x2x2x1x2, extractStridedSlice S262144x2x2x2x2x2x1x2 ![0, 0, 0, 0, 0, 0, 0, 0] (p118) slices_S262144x2x2x2x2x2x2x2_S262144x2x2x2x2x2x1x2_0_0_0_0_0_0_0_0⟩, ⟨S262144x2x2x2x2x2x1x2, Host.reverse [7] (extractStridedSlice S262144x2x2x2x2x2x1x2 ![0, 0, 0, 0, 0, 0, 1, 0] (p118) slices_S262144x2x2x2x2x2x2x2_S262144x2x2x2x2x2x1x2_0_0_0_0_0_0_1_0)⟩] concatenates_S262144x2x2x2x2x2x1x2_S262144x2x2x2x2x2x1x2_S262144x2x2x2x2x2x2x2_d6

/-- The controlled-NOT with control wire 6 and target wire 0: where the control's label is 0 the state as it was, where it is 1 the state with the target's axis reversed. -/
def s126 (p122 : (⟨S262144x2x2x2x2x2x2x2, .f32⟩ : BufTy).Contents (Elt F)) :
    (⟨S262144x2x2x2x2x2x2x2, .f32⟩ : BufTy).Contents (Elt F) :=
  concatenate S262144x2x2x2x2x2x2x2 7 [⟨S262144x2x2x2x2x2x2x1, extractStridedSlice S262144x2x2x2x2x2x2x1 ![0, 0, 0, 0, 0, 0, 0, 0] (p122) slices_S262144x2x2x2x2x2x2x2_S262144x2x2x2x2x2x2x1_0_0_0_0_0_0_0_0⟩, ⟨S262144x2x2x2x2x2x2x1, Host.reverse [1] (extractStridedSlice S262144x2x2x2x2x2x2x1 ![0, 0, 0, 0, 0, 0, 0, 1] (p122) slices_S262144x2x2x2x2x2x2x2_S262144x2x2x2x2x2x2x1_0_0_0_0_0_0_0_1)⟩] concatenates_S262144x2x2x2x2x2x2x1_S262144x2x2x2x2x2x2x1_S262144x2x2x2x2x2x2x2_d7

/-- For each value of wire 0's label, the sum of the squared amplitudes over the other six labels, [262144, 2]. -/
def s129 (p126 : (⟨S262144x2x2x2x2x2x2x2, .f32⟩ : BufTy).Contents (Elt F)) :
    (⟨S262144x2, .f32⟩ : BufTy).Contents (Elt F) :=
  Host.reduceAdd (shapeCast _ (mulf (p126) (p126)) shapeCasts_S262144x2x2x2x2x2x2x2_S262144x2x64) (constant (F := F) S_ .f32 0x00000000#32) reducesTo_S262144x2x64_S262144x2_d2 h_S_

/-- Wire 0's expectation: the probability of label 0 less the probability of label 1, per sample. -/
def s134 (p129 : (⟨S262144x2, .f32⟩ : BufTy).Contents (Elt F)) :
    (⟨S262144, .f32⟩ : BufTy).Contents (Elt F) :=
  subf (shapeCast _ (extractStridedSlice S262144x1 ![0, 0] (p129) slices_S262144x2_S262144x1_0_0) shapeCasts_S262144x1_S262144) (shapeCast _ (extractStridedSlice S262144x1 ![0, 1] (p129) slices_S262144x2_S262144x1_0_1) shapeCasts_S262144x1_S262144)

/-- The perceptron applied to the quantum number `p134` placed before the sixteen classical features. -/
def s150 (p134 : (⟨S262144, .f32⟩ : BufTy).Contents (Elt F)) (x1 : (⟨S262144x16, .f32⟩ : BufTy).Contents (Elt F)) (x3 : (⟨S17x32, .f32⟩ : BufTy).Contents (Elt F)) (x4 : (⟨S32, .f32⟩ : BufTy).Contents (Elt F)) (x5 : (⟨S32x16, .f32⟩ : BufTy).Contents (Elt F)) (x6 : (⟨S16, .f32⟩ : BufTy).Contents (Elt F)) (x7 : (⟨S16x1, .f32⟩ : BufTy).Contents (Elt F)) (x8 : (⟨S1, .f32⟩ : BufTy).Contents (Elt F)) :
    (⟨S262144x1, .f32⟩ : BufTy).Contents (Elt F) :=
  addf (Host.dotGeneral dot_S262144x16_S16x1_S262144x1_1_0_0_1_n_n none (maximumf (addf (Host.dotGeneral dot_S262144x32_S32x16_S262144x16_1_0_0_1_n_n none (maximumf (addf (Host.dotGeneral dot_S262144x17_S17x32_S262144x32_1_0_0_1_n_n none (concatenate S262144x17 1 [⟨S262144x1, broadcastInDim S262144x1 ![0] bcast_S262144_S262144x1_0 (p134)⟩, ⟨S262144x16, x1⟩] concatenates_S262144x1_S262144x16_S262144x17_d1) (x3)) (broadcastInDim S262144x32 ![0, 1] bcast_S1x32_S262144x32_0_1 (broadcastInDim S1x32 ![1] bcast_S32_S1x32_1 (x4)))) (broadcastInDim S262144x32 ![] bcast_S_S262144x32 (constant (F := F) S_ .f32 0x00000000#32))) (x5)) (broadcastInDim S262144x16 ![0, 1] bcast_S1x16_S262144x16_0_1 (broadcastInDim S1x16 ![1] bcast_S16_S1x16_1 (x6)))) (broadcastInDim S262144x16 ![] bcast_S_S262144x16 (constant (F := F) S_ .f32 0x00000000#32))) (x7)) (broadcastInDim S262144x1 ![0, 1] bcast_S1x1_S262144x1_0_1 (broadcastInDim S1x1 ![1] bcast_S1_S1x1_1 (x8)))

/-- The seven-wire product state from the arrays of cosines and sines: the seven amplitude pairs multiplied in, one wire at a time. -/
def state7 (c : (⟨S262144x7, .f32⟩ : BufTy).Contents (Elt F)) (s : (⟨S262144x7, .f32⟩ : BufTy).Contents (Elt F)) :
    (⟨S262144x128, .f32⟩ : BufTy).Contents (Elt F) :=
  s97 (s84 (s71 (s58 (s45 (s32 (s19 (s14 c s)) (s26 c s)) (s39 c s)) (s52 c s)) (s65 c s)) (s78 c s)) (s91 c s)

/-- The reference's quantum number per sample: the product state laid out one axis per wire, the ring of seven
    controlled-NOT gates, the probabilities of wire 0's two labels, and their difference. -/
def quantum (x0 : (⟨S262144x7, .f32⟩ : BufTy).Contents (Elt F)) (x2 : (⟨S7, .f32⟩ : BufTy).Contents (Elt F)) :
    (⟨S262144, .f32⟩ : BufTy).Contents (Elt F) :=
  s134 (s129 (s126 (s122 (s118 (s114 (s110 (s106 (s102 (s98 (state7 (F := F) (s5 (F := F) x0 x2) (s6 (F := F) x0 x2)))))))))))

/-- The reference's result as one function of its nine arguments: the stages composed, each intermediate array named once. -/
def refOut (x0 : (⟨S262144x7, .f32⟩ : BufTy).Contents (Elt F)) (x1 : (⟨S262144x16, .f32⟩ : BufTy).Contents (Elt F)) (x2 : (⟨S7, .f32⟩ : BufTy).Contents (Elt F)) (x3 : (⟨S17x32, .f32⟩ : BufTy).Contents (Elt F)) (x4 : (⟨S32, .f32⟩ : BufTy).Contents (Elt F)) (x5 : (⟨S32x16, .f32⟩ : BufTy).Contents (Elt F)) (x6 : (⟨S16, .f32⟩ : BufTy).Contents (Elt F)) (x7 : (⟨S16x1, .f32⟩ : BufTy).Contents (Elt F)) (x8 : (⟨S1, .f32⟩ : BufTy).Contents (Elt F)) :
    (⟨S262144x1, .f32⟩ : BufTy).Contents (Elt F) :=
  s150 (quantum (F := F) x0 x2) x1 x3 x4 x5 x6 x7 x8

end Cert.RefStages

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«125050_j21938692948013_1_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibHostAffine.lean ====
/-
  Two host-side shapes read at an entry, at the ideal instance.

  (1) A plain `dot_general` of an M×K array with a K×N matrix, plus a bias VECTOR of length N broadcast first to one
  row and then over the M rows, has at row `r` and column `j` the value `(∑ k, x (r, k) · W (k, j)) + b j`.
  (2) The maximum of an array with the broadcast of the scalar constant whose word is all zeros is, entry by entry, the
  maximum with the real number zero (the positive part).
-/
import proofs.«125050_j21938692948013_1_alg».proof.Proof.LibDotGeneralNN
import Idealize.ShloMosaic.Lib.Pipeline.Value

noncomputable section

open scoped BigOperators

namespace Cert.LibHostAffine

open Idealize.ShloMosaic Idealize.ShloMosaic.ValueIdx

variable {M K N : Nat} {φ₁ φ₂ : FTy} {α : Type}

/-- A vector broadcast to one row and then over `M` rows reads, at `(r, j)`, its entry `j`. -/
theorem bias_apply (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![1, N]⟩ (![1] : Fin 1 → Fin 2) h1 b) (ix2 r j)
      = b (ix1 j) := by
  rw [broadcastInDim_apply (![0, 1] : Fin 2 → Fin 2) h2 _ (ix2 r j) (ix2 (0 : Fin 1) j) (fun a => by
    match a with
    | ⟨0, _⟩ => rfl
    | ⟨1, _⟩ =>
      show j.val = if N = 1 then 0 else j.val
      split
      · have := j.isLt; omega
      · rfl)]
  exact broadcastInDim_apply (![1] : Fin 1 → Fin 2) h1 b (ix2 (0 : Fin 1) j) (ix1 j) (fun a => by
    match a with
    | ⟨0, _⟩ =>
      show j.val = if N = 1 then 0 else j.val
      split
      · have := j.isLt; omega
      · rfl)

/-- The host product plus the broadcast bias vector at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    addf (Host.dotGeneral d prec x W)
        (broadcastInDim ⟨2, ![M, N]⟩ (![0, 1] : Fin 2 → Fin 2) h2 (broadcastInDim ⟨2, ![1, N]⟩ (![1] : Fin 1 → Fin 2) h1 b)) (ix2 r j)
      = (∑ k : Fin K, x (ix2 r k) * W (ix2 k j)) + b (ix1 j) := by
  rw [addf_apply, bias_apply b h1 h2 r j]
  simp only [Host.dotGeneral]
  rw [Cert.LibDotGeneralNN.dotGeneral_apply d hlc hrc hln hrn hlb hrb]

/-- The maximum with a broadcast zero constant is the positive part. -/
theorem relu_apply {s : Shape} (x : FVec Ideal s .f32) (h : (⟨0, ![]⟩ : Shape).BroadcastsInDim s (![] : Fin 0 → Fin s.rank))
    (i : s.Idx) :
    maximumf x (broadcastInDim s (![] : Fin 0 → Fin s.rank) h (constant (F := Ideal) ⟨0, ![]⟩ .f32 0x00000000#32)) i
      = max (x i) 0 := by
  show max (x i) (Ideal.ofBits .f32 0x00000000#32) = max (x i) 0
  rw [Ideal.ofBits_zero_f32]

end Cert.LibHostAffine

end
-- ==== Proof.RefTail.lean ====
/-
  The last stage of the reference program, read entry by entry.

  The reference places its per-sample quantum number in front of the sixteen classical features and sends the seventeen
  entries through three affine layers (17 → 32 → 16 → 1) with a positive part after the first two. Here the joined
  array and the two hidden layers are named, each is read at an entry and identified with the corresponding layer of
  `Cert.Spec`, and the stage's result is `Cert.Spec.mlp` applied to whatever per-sample number it is given.
-/
import proofs.«125050_j21938692948013_1_alg».proof.Proof.RefStages
import proofs.«125050_j21938692948013_1_alg».proof.Proof.Spec
import proofs.«125050_j21938692948013_1_alg».proof.Proof.LibHostAffine

noncomputable section

open scoped BigOperators

namespace Cert.RefSide

open Cert.ReferenceIdeal Cert.ReferenceIdeal.Gen Idealize.ShloMosaic Idealize.ShloMosaic.ValueIdx

variable (z : FVec Ideal S262144 .f32) (x1 : FVec Ideal S262144x16 .f32) (x3 : FVec Ideal S17x32 .f32)
  (x4 : FVec Ideal S32 .f32) (x5 : FVec Ideal S32x16 .f32) (x6 : FVec Ideal S16 .f32) (x7 : FVec Ideal S16x1 .f32)
  (x8 : FVec Ideal S1 .f32)

/-- The per-sample number as a column, joined with the sixteen classical features: an array [262144, 17]. -/
def joined : FVec Ideal S262144x17 .f32 :=
  concatenate S262144x17 1 [⟨S262144x1, broadcastInDim S262144x1 ![0] bcast_S262144_S262144x1_0 z⟩, ⟨S262144x16, x1⟩]
    concatenates_S262144x1_S262144x16_S262144x17_d1

/-- The first hidden layer as the program computes it: product, bias, positive part. -/
def layer1 : FVec Ideal S262144x32 .f32 :=
  maximumf (addf (Host.dotGeneral dot_S262144x17_S17x32_S262144x32_1_0_0_1_n_n none (joined z x1) x3)
      (broadcastInDim S262144x32 ![0, 1] bcast_S1x32_S262144x32_0_1 (broadcastInDim S1x32 ![1] bcast_S32_S1x32_1 x4)))
    (broadcastInDim S262144x32 ![] bcast_S_S262144x32 (constant (F := Ideal) S_ .f32 0x00000000#32))

/-- The second hidden layer as the program computes it. -/
def layer2 : FVec Ideal S262144x16 .f32 :=
  maximumf (addf (Host.dotGeneral dot_S262144x32_S32x16_S262144x16_1_0_0_1_n_n none (layer1 z x1 x3 x4) x5)
      (broadcastInDim S262144x16 ![0, 1] bcast_S1x16_S262144x16_0_1 (broadcastInDim S1x16 ![1] bcast_S16_S1x16_1 x6)))
    (broadcastInDim S262144x16 ![] bcast_S_S262144x16 (constant (F := Ideal) S_ .f32 0x00000000#32))

/-- The stage is the output layer applied to the second hidden layer. -/
theorem s150_eq : Cert.RefStages.s150 (F := Ideal) z x1 x3 x4 x5 x6 x7 x8
    = addf (Host.dotGeneral dot_S262144x16_S16x1_S262144x1_1_0_0_1_n_n none (layer2 z x1 x3 x4 x5 x6) x7)
        (broadcastInDim S262144x1 ![0, 1] bcast_S1x1_S262144x1_0_1 (broadcastInDim S1x1 ![1] bcast_S1_S1x1_1 x8)) := rfl

/-- The joined array at `(r, a)`: the per-sample number in column 0, the classical feature `a - 1` in the others. -/
theorem feat_apply (r : Fin 262144) (a : Fin 17) :
    joined z x1 (ix2 r a) = Cert.Spec.feat (fun r => z (ix1 r)) x1 r a := by
  unfold joined Cert.Spec.feat
  by_cases h : a.val = 0
  · rw [dif_pos h]
    rw [concatenate_pair_apply_left (t := S262144x17) (s₁ := S262144x1) (s₂ := S262144x16) (1 : Fin 2) _ _ _ (ix2 r a) rfl
      (ix2 r (0 : Fin 1)) (fun b => by
        match b with
        | ⟨0, _⟩ => rfl
        | ⟨1, _⟩ => exact h.symm)]
    exact broadcastInDim_apply _ bcast_S262144_S262144x1_0 z (ix2 r (0 : Fin 1)) (ix1 r) (fun b => by
      match b with
      | ⟨0, _⟩ => show r.val = if (262144 : Nat) = 1 then 0 else r.val; rw [if_neg (by decide)])
  · rw [dif_neg h]
    exact concatenate_pair_apply_right (t := S262144x17) (s₁ := S262144x1) (s₂ := S262144x16) (1 : Fin 2) _ _ _ (ix2 r a)
      rfl rfl (ix2 r (⟨a.val - 1, by have := a.isLt; omega⟩ : Fin 16)) (fun b hb => by
        match b with
        | ⟨0, _⟩ => rfl
        | ⟨1, _⟩ => exact absurd rfl hb) (by
        show a.val - 1 + 1 = a.val
        omega)

/-- The first hidden layer at `(r, j)`. -/
theorem hidden1_apply (r : Fin 262144) (j : Fin 32) :
    layer1 z x1 x3 x4 (ix2 r j) = Cert.Spec.hidden1 (fun r => z (ix1 r)) x1 x3 x4 r j := by
  unfold layer1 Cert.Spec.hidden1
  rw [Cert.LibHostAffine.relu_apply, Cert.LibHostAffine.affine_apply _ rfl rfl rfl rfl rfl rfl]
  congr 2
  exact Finset.sum_congr rfl fun a _ => by rw [feat_apply]

/-- The second hidden layer at `(r, k)`. -/
theorem hidden2_apply (r : Fin 262144) (k : Fin 16) :
    layer2 z x1 x3 x4 x5 x6 (ix2 r k) = Cert.Spec.hidden2 (fun r => z (ix1 r)) x1 x3 x4 x5 x6 r k := by
  unfold layer2 Cert.Spec.hidden2
  rw [Cert.LibHostAffine.relu_apply, Cert.LibHostAffine.affine_apply _ rfl rfl rfl rfl rfl rfl]
  congr 2
  exact Finset.sum_congr rfl fun j _ => by rw [hidden1_apply]

/-- The reference's last stage is the perceptron of `Cert.Spec` on the number it is given. -/
theorem tail : Cert.RefStages.s150 (F := Ideal) z x1 x3 x4 x5 x6 x7 x8
    = Cert.Spec.mlp (fun r => z (ix1 r)) x1 x3 x4 x5 x6 x7 x8 := by
  rw [s150_eq]
  funext i
  obtain ⟨r, c, rfl⟩ : ∃ (r : Fin 262144) (c : Fin 1), i = ix2 r c := ⟨i 0, i 1, eq_ix2 i⟩
  obtain rfl : c = 0 := Subsingleton.elim _ _
  unfold Cert.Spec.mlp
  rw [Cert.LibHostAffine.affine_apply _ rfl rfl rfl rfl rfl rfl]
  congr 1
  exact Finset.sum_congr rfl fun k _ => by rw [hidden2_apply]

end Cert.RefSide

end
-- ==== Proof.FiniteArgs.lean ====
/-
  From the precondition to real entries.

  The precondition is the conjunction, over the nine argument arrays, of "every entry has absolute value below plus
  infinity". An extended real whose absolute value `max x (-x)` is below `⊤` is neither `⊤` nor `⊥`, so it is a real
  number. Here this is read off for the first array (the per-sample angle inputs, one row of seven per sample) and the third
  (the seven offsets added to every row).
-/
import proofs.«125050_j21938692948013_1_alg».proof.Pre_finite_inputs
import proofs.«125050_j21938692948013_1_alg».proof.Proof.Gen.Pre_finite_inputs
import Idealize.ShloMosaic.Lib.ReduceAll
import Idealize.ShloMosaic.Lib.ValueIdx
import Idealize.ShloMosaic.PureOps.Ideal.Laws

noncomputable section

namespace Cert.FiniteArgs

open Cert.Pre_finite_inputs Idealize.ShloMosaic Idealize.ShloMosaic.ValueIdx

instance : Subsingleton S_.Idx := ⟨fun a b => funext fun d => d.elim0⟩

/-- The word `0x7F800000` denotes plus infinity. -/
theorem ofBits_inf : Ideal.ofBits .f32 0x7F800000#32 = (⊤ : EReal) := by simp [Ideal.ofBits, Ideal.ieee]

/-- An extended real whose absolute value compares below plus infinity is a real number. -/
theorem real_of_abs_lt (x : EReal)
    (h : Ideal.cmp .olt (max x (-x)) (Ideal.ofBits .f32 0x7F800000#32) = 1#1) : ∃ r : ℝ, x = (r : EReal) := by
  rw [ofBits_inf] at h
  have hlt : max x (-x) < (⊤ : EReal) := by
    by_contra hn
    have : Ideal.cmp .olt (max x (-x)) (⊤ : EReal) = 0#1 := by
      unfold Ideal.cmp
      simp [hn]
    rw [this] at h
    exact absurd h (by decide)
  induction x using EReal.rec with
  | bot => exact absurd hlt (by simp)
  | coe r => exact ⟨r, rfl⟩
  | top => exact absurd hlt (by simp)

/-- One array's conjunct: if the `and` over all entries of "absolute value below the broadcast plus infinity" is 1,
    every entry is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf a) (broadcastInDim s (![] : Fin 0 → Fin s.rank) hb (constant (F := Ideal) S_ .f32 0x7F800000#32)))
          init hr hu j = 1#1) (i : s.Idx) : ∃ r : ℝ, a i = (r : EReal) :=
  real_of_abs_lt (a i) (Host.reduce_andi_all _ init hr hu j e i)

variable (a0 : FVec Ideal S262144x7 .f32) (a1 : FVec Ideal S262144x16 .f32) (a2 : FVec Ideal S7 .f32)
  (a3 : FVec Ideal S17x32 .f32) (a4 : FVec Ideal S32 .f32) (a5 : FVec Ideal S32x16 .f32) (a6 : FVec Ideal S16 .f32)
  (a7 : FVec Ideal S16x1 .f32) (a8 : FVec Ideal S1 .f32)

/-- The precondition's first and third conjuncts. -/
theorem conjuncts (h : fn (F := Ideal) a0 a1 a2 a3 a4 a5 a6 a7 a8 = fun _ => 1#1) :
    Host.reduce IntOp.andi
        (cmpf .olt (Host.absf a0) (broadcastInDim S262144x7 (![] : Fin 0 → Fin S262144x7.rank) Facts.bcast_S_S262144x7 (constant (F := Ideal) S_ .f32 0x7F800000#32)))
        (constantI S_ 1 1#1) Facts.reducesTo_S262144x7_S_d0_1 Facts.h_S_ ix0 = 1#1
    ∧ Host.reduce IntOp.andi
        (cmpf .olt (Host.absf a2) (broadcastInDim S7 (![] : Fin 0 → Fin S7.rank) Facts.bcast_S_S7 (constant (F := Ideal) S_ .f32 0x7F800000#32)))
        (constantI S_ 1 1#1) Facts.reducesTo_S7_S_d0 Facts.h_S_ ix0 = 1#1 := by
  have e := congrFun h ix0
  dsimp only [fn, fn_part1, fn_part2, andi] at e
  simp only [IntOp.andi_eq_one] at e
  obtain ⟨⟨⟨⟨⟨⟨⟨⟨h0, -⟩, h2⟩, -⟩, -⟩, -⟩, -⟩, -⟩, -⟩ := e
  exact ⟨h0, h2⟩

/-- Every entry of the first array (the per-sample angle inputs) is a real number. -/
theorem real_xq (h : fn (F := Ideal) a0 a1 a2 a3 a4 a5 a6 a7 a8 = fun _ => 1#1) :
    ∀ i, ∃ x : ℝ, a0 i = (x : EReal) :=
  fun i => real_of_all a0 _ _ _ _ _ (conjuncts a0 a1 a2 a3 a4 a5 a6 a7 a8 h).1 i

/-- Every entry of the third array (the seven offsets) is a real number. -/
theorem real_qp (h : fn (F := Ideal) a0 a1 a2 a3 a4 a5 a6 a7 a8 = fun _ => 1#1) :
    ∀ i, ∃ x : ℝ, a2 i = (x : EReal) :=
  fun i => real_of_all a2 _ _ _ _ _ (conjuncts a0 a1 a2 a3 a4 a5 a6 a7 a8 h).2 i

end Cert.FiniteArgs

end
-- ==== Proof.Ix8.lean ====
/-
  Indices of rank-8 arrays from their coordinates, and the row-major position of such an index.

  The seven-wire state is laid out as an array with one axis per sample and one axis of extent 2 per wire. An index
  of such an array is named by its eight coordinates; its row-major position is the mixed-radix number those
  coordinates spell, which is what identifies it with an index of a flattened array.
-/
import Idealize.ShloMosaic.Lib.ValueIdx

noncomputable section

namespace Cert.Ix8

open Idealize.ShloMosaic Idealize.ShloMosaic.ValueIdx Idealize.ShloMosaic.Shape

/-- A rank-8 index from its coordinates. -/
abbrev ix8 {n0 n1 n2 n3 n4 n5 n6 n7 : Nat} (a0 : Fin n0) (a1 : Fin n1) (a2 : Fin n2) (a3 : Fin n3) (a4 : Fin n4)
    (a5 : Fin n5) (a6 : Fin n6) (a7 : Fin n7) : (⟨8, ![n0, n1, n2, n3, n4, n5, n6, n7]⟩ : Shape).Idx :=
  fun d => match d with
    | ⟨0, _⟩ => a0 | ⟨1, _⟩ => a1 | ⟨2, _⟩ => a2 | ⟨3, _⟩ => a3 | ⟨4, _⟩ => a4 | ⟨5, _⟩ => a5 | ⟨6, _⟩ => a6 | ⟨7, _⟩ => a7

/-- Every rank-8 index is `ix8` of its coordinates. -/
theorem eq_ix8 {n0 n1 n2 n3 n4 n5 n6 n7 : Nat} (j : (⟨8, ![n0, n1, n2, n3, n4, n5, n6, n7]⟩ : Shape).Idx) :
    j = ix8 (j 0) (j 1) (j 2) (j 3) (j 4) (j 5) (j 6) (j 7) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

/-- The row-major position at rank 8, as one nested sum of products. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6
          + (i 6).val) * d 7 + (i 7).val := by
  show (rowMajorPi d i).val = _
  rw [rowMajorPi_succ_val, rowMajorPi_succ_val, rowMajorPi_succ_val, rowMajorPi_succ_val, rowMajorPi_succ_val,
    rowMajorPi_succ_val, rowMajorPi_succ_val, rowMajorPi_succ_val]
  simp [rowMajorPi_zero, Fin.prod_univ_succ, Nat.add_mul, Nat.mul_assoc, Nat.add_assoc]

/-- A label in `Fin 2` is 0 or 1. -/
theorem fin2_cases (b : Fin 2) : b = 0 ∨ b = 1 := by
  rcases b with ⟨v, hv⟩
  rcases v with _ | _ | v
  · exact Or.inl rfl
  · exact Or.inr rfl
  · omega

end Cert.Ix8

end
-- ==== Proof.QForm.lean ====
/-
  Two notions the state-vector lemmas are stated in.

  `ampl c s b` is a wire's amplitude at the label `b`: the cosine `c` of its half angle at label 0, the sine `s` at
  label 1. `cx ctl t` is what a controlled-NOT does to the target's label: nothing when the control's label is 0, the
  flip when it is 1. Both are evaluated on literal labels by the lemmas below.
-/
import Idealize.ShloMosaic.PureOps.Ideal

noncomputable section

namespace Cert.QForm

/-- A wire's amplitude at a label. -/
def ampl (c s : EReal) (b : Fin 2) : EReal := if b.val = 0 then c else s

/-- The target's label after a controlled-NOT. -/
def cx (ctl t : Fin 2) : Fin 2 := if ctl.val = 0 then t else t.rev

@[simp] theorem ampl_zero (c s : EReal) : ampl c s 0 = c := rfl
@[simp] theorem ampl_one (c s : EReal) : ampl c s 1 = s := rfl
@[simp] theorem cx_zero (t : Fin 2) : cx 0 t = t := rfl
@[simp] theorem cx_one_zero : cx 1 0 = 1 := rfl
@[simp] theorem cx_one_one : cx 1 1 = 0 := rfl

end Cert.QForm

end
-- ==== Proof.RefAmp.lean ====
/-
  Each wire's pair of amplitudes, read entry by entry.

  Wire `w`'s pair is the array [262144, 2] whose column 0 is column `w` of the cosines and whose column 1 is column
  `w` of the sines: each column is sliced out, flattened to a vector, laid back as a one-column array, and the two
  one-column arrays are joined along the second axis. Read at `(r, b)` this is the wire's amplitude at the label `b`.
-/
import proofs.«125050_j21938692948013_1_alg».proof.Proof.RefStages
import proofs.«125050_j21938692948013_1_alg».proof.Proof.Ix8
import proofs.«125050_j21938692948013_1_alg».proof.Proof.QForm
import Idealize.ShloMosaic.Lib.Pipeline.Value
import Idealize.ShloMosaic.Lib.ValueIdx

noncomputable section

namespace Cert.RefState

open Cert.ReferenceIdeal Cert.ReferenceIdeal.Gen Idealize.ShloMosaic Idealize.ShloMosaic.ValueIdx

open Cert.QForm

/-- Column `w` of an array [262144, 7], sliced out, flattened and laid back as one column, reads the array's entry `(r, w)`. -/
theorem column_apply (w : Nat) (hw : w < 7) (hs : S262144x7.Slices ![0, w] S262144x1)
    (p : (⟨S262144x7, .f32⟩ : BufTy).Contents (Elt Ideal)) (r : Fin 262144) :
    broadcastInDim S262144x1 ![0] bcast_S262144_S262144x1_0
        (shapeCast S262144 (extractStridedSlice S262144x1 ![0, w] p hs) shapeCasts_S262144x1_S262144) (ix2 r (0 : Fin 1))
      = p (ix2 r ⟨w, hw⟩) := by
  refine (broadcastInDim_apply (![0] : Fin 1 → Fin 2) bcast_S262144_S262144x1_0 _ (ix2 r (0 : Fin 1)) (ix1 r) (fun a => by
    match a with
    | ⟨0, _⟩ => show r.val = if (262144 : Nat) = 1 then 0 else r.val; rw [if_neg (by decide)])).trans ?_
  refine (shapeCast_apply _ shapeCasts_S262144x1_S262144 (ix1 r) (ix2 r (0 : Fin 1)) (by
    rw [Shape.rowMajor_val_two, Shape.rowMajor_val_one]
    show r.val * 1 + 0 = r.val
    omega)).trans ?_
  exact extractStridedSlice_apply _ p hs (ix2 r (0 : Fin 1)) (ix2 r ⟨w, hw⟩) (fun a => by
    match a with
    | ⟨0, _⟩ => show r.val = 0 + r.val; omega
    | ⟨1, _⟩ => show w = w + 0; omega)

/-- The two columns joined: at `(r, b)` the cosine entry at label 0, the sine entry at label 1. -/
theorem pair_apply (w : Nat) (hw : w < 7) (hs : S262144x7.Slices ![0, w] S262144x1)
    (c s : (⟨S262144x7, .f32⟩ : BufTy).Contents (Elt Ideal)) (r : Fin 262144) (b : Fin 2) :
    concatenate S262144x2 1
        [⟨S262144x1, broadcastInDim S262144x1 ![0] bcast_S262144_S262144x1_0
            (shapeCast S262144 (extractStridedSlice S262144x1 ![0, w] c hs) shapeCasts_S262144x1_S262144)⟩,
         ⟨S262144x1, broadcastInDim S262144x1 ![0] bcast_S262144_S262144x1_0
            (shapeCast S262144 (extractStridedSlice S262144x1 ![0, w] s hs) shapeCasts_S262144x1_S262144)⟩]
        concatenates_S262144x1_S262144x1_S262144x2_d1 (ix2 r b)
      = ampl (c (ix2 r ⟨w, hw⟩)) (s (ix2 r ⟨w, hw⟩)) b := by
  rcases Cert.Ix8.fin2_cases b with rfl | rfl
  · rw [ampl_zero]
    refine (concatenate_pair_apply_left (t := S262144x2) (s₁ := S262144x1) (s₂ := S262144x1) (1 : Fin 2) _ _
      concatenates_S262144x1_S262144x1_S262144x2_d1 (ix2 r (0 : Fin 2)) rfl (ix2 r (0 : Fin 1)) (fun a => by
        match a with
        | ⟨0, _⟩ => rfl
        | ⟨1, _⟩ => rfl)).trans ?_
    exact column_apply w hw hs c r
  · rw [ampl_one]
    refine (concatenate_pair_apply_right (t := S262144x2) (s₁ := S262144x1) (s₂ := S262144x1) (1 : Fin 2) _ _
      concatenates_S262144x1_S262144x1_S262144x2_d1 (ix2 r (1 : Fin 2)) rfl rfl (ix2 r (0 : Fin 1)) (fun a ha => by
        match a with
        | ⟨0, _⟩ => rfl
        | ⟨1, _⟩ => exact absurd rfl ha) rfl).trans ?_
    exact column_apply w hw hs s r

variable (c s : (⟨S262144x7, .f32⟩ : BufTy).Contents (Elt Ideal)) (r : Fin 262144) (b : Fin 2)

/-- Wire 0's pair at `(r, b)`. -/
theorem s14_apply : Cert.RefStages.s14 (F := Ideal) c s (ix2 r b) = ampl (c (ix2 r 0)) (s (ix2 r 0)) b :=
  pair_apply 0 (by decide) slices_S262144x7_S262144x1_0_0 c s r b

/-- Wire 1's pair at `(r, b)`. -/
theorem s26_apply : Cert.RefStages.s26 (F := Ideal) c s (ix2 r b) = ampl (c (ix2 r 1)) (s (ix2 r 1)) b :=
  pair_apply 1 (by decide) slices_S262144x7_S262144x1_0_1 c s r b

/-- Wire 2's pair at `(r, b)`. -/
theorem s39_apply : Cert.RefStages.s39 (F := Ideal) c s (ix2 r b) = ampl (c (ix2 r 2)) (s (ix2 r 2)) b :=
  pair_apply 2 (by decide) slices_S262144x7_S262144x1_0_2 c s r b

/-- Wire 3's pair at `(r, b)`. -/
theorem s52_apply : Cert.RefStages.s52 (F := Ideal) c s (ix2 r b) = ampl (c (ix2 r 3)) (s (ix2 r 3)) b :=
  pair_apply 3 (by decide) slices_S262144x7_S262144x1_0_3 c s r b

/-- Wire 4's pair at `(r, b)`. -/
theorem s65_apply : Cert.RefStages.s65 (F := Ideal) c s (ix2 r b) = ampl (c (ix2 r 4)) (s (ix2 r 4)) b :=
  pair_apply 4 (by decide) slices_S262144x7_S262144x1_0_4 c s r b

/-- Wire 5's pair at `(r, b)`. -/
theorem s78_apply : Cert.RefStages.s78 (F := Ideal) c s (ix2 r b) = ampl (c (ix2 r 5)) (s (ix2 r 5)) b :=
  pair_apply 5 (by decide) slices_S262144x7_S262144x1_0_5 c s r b

/-- Wire 6's pair at `(r, b)`. -/
theorem s91_apply : Cert.RefStages.s91 (F := Ideal) c s (ix2 r b) = ampl (c (ix2 r 6)) (s (ix2 r 6)) b :=
  pair_apply 6 (by decide) slices_S262144x7_S262144x1_0_6 c s r b

end Cert.RefState

end
-- ==== Proof.RefKron.lean ====
/-
  The product state grown one wire at a time, read entry by entry.

  A state `p` on some wires, an array [262144, n], and the next wire's pair `a`, an array [262144, 2], are each laid
  out as arrays [262144, n, 2] (the state constant along the last axis, the pair constant along the middle one),
  multiplied entry by entry, and flattened to [262144, 2 n]. Row-major flattening sends `(q, b)` to `2 q + b`, so the
  new state's entry `k` is the old state's entry `k / 2` times the pair's entry `k % 2`. The first step does the same
  with the constant one in place of a state.
-/
import proofs.«125050_j21938692948013_1_alg».proof.Proof.RefStages
import Idealize.ShloMosaic.Lib.Pipeline.Value
import Idealize.ShloMosaic.Lib.ValueIdx

noncomputable section

namespace Cert.RefState

open Cert.ReferenceIdeal Cert.ReferenceIdeal.Gen Idealize.ShloMosaic Idealize.ShloMosaic.ValueIdx

/-- One step of the product: the outer product with a pair, flattened, at `(r, k)`. -/
theorem kron_apply (n m : Nat) (hm : m = 2 * n)
    (h1 : (⟨2, ![262144, n]⟩ : Shape).BroadcastsInDim ⟨3, ![262144, n, 1]⟩ (![0, 1] : Fin 2 → Fin 3))
    (h2 : (⟨3, ![262144, n, 1]⟩ : Shape).BroadcastsInDim ⟨3, ![262144, n, 2]⟩ (![0, 1, 2] : Fin 3 → Fin 3))
    (h3 : (⟨2, ![262144, 2]⟩ : Shape).BroadcastsInDim ⟨3, ![262144, 1, 2]⟩ (![0, 2] : Fin 2 → Fin 3))
    (h4 : (⟨3, ![262144, 1, 2]⟩ : Shape).BroadcastsInDim ⟨3, ![262144, n, 2]⟩ (![0, 1, 2] : Fin 3 → Fin 3))
    (h5 : (⟨3, ![262144, n, 2]⟩ : Shape).ShapeCasts ⟨2, ![262144, m]⟩)
    (p : FVec Ideal ⟨2, ![262144, n]⟩ .f32) (a : FVec Ideal ⟨2, ![262144, 2]⟩ .f32) (r : Fin 262144) (k : Fin m) :
    shapeCast ⟨2, ![262144, m]⟩
        (mulf (broadcastInDim ⟨3, ![262144, n, 2]⟩ (![0, 1, 2] : Fin 3 → Fin 3) h2
                (broadcastInDim ⟨3, ![262144, n, 1]⟩ (![0, 1] : Fin 2 → Fin 3) h1 p))
              (broadcastInDim ⟨3, ![262144, n, 2]⟩ (![0, 1, 2] : Fin 3 → Fin 3) h4
                (broadcastInDim ⟨3, ![262144, 1, 2]⟩ (![0, 2] : Fin 2 → Fin 3) h3 a))) h5 (ix2 r k)
      = p (ix2 r ⟨k.val / 2, by have := k.isLt; omega⟩) * a (ix2 r ⟨k.val % 2, by omega⟩) := by
  have hk := k.isLt
  have hq : k.val / 2 < n := by omega
  have hb : k.val % 2 < 2 := by omega
  refine (shapeCast_apply _ h5 (ix2 r k) (ix3 r (⟨k.val / 2, hq⟩ : Fin n) (⟨k.val % 2, hb⟩ : Fin 2)) (by
    rw [Shape.rowMajor_val_three, Shape.rowMajor_val_two]
    show (r.val * n + k.val / 2) * 2 + k.val % 2 = r.val * m + k.val
    have e : r.val * m = r.val * n * 2 := by rw [hm, Nat.mul_comm 2 n, Nat.mul_assoc]
    omega)).trans ?_
  rw [mulf_apply]
  congr 1
  · refine (broadcastInDim_apply (![0, 1, 2] : Fin 3 → Fin 3) h2 _ (ix3 r (⟨k.val / 2, hq⟩ : Fin n) (⟨k.val % 2, hb⟩ : Fin 2))
      (ix3 r (⟨k.val / 2, hq⟩ : Fin n) (0 : Fin 1)) (fun c => by
        match c with
        | ⟨0, _⟩ => show r.val = if (262144 : Nat) = 1 then 0 else r.val; rw [if_neg (by decide)]
        | ⟨1, _⟩ =>
          show k.val / 2 = if n = 1 then 0 else k.val / 2
          split
          · omega
          · rfl
        | ⟨2, _⟩ => rfl)).trans ?_
    exact broadcastInDim_apply (![0, 1] : Fin 2 → Fin 3) h1 p (ix3 r (⟨k.val / 2, hq⟩ : Fin n) (0 : Fin 1)) (ix2 r (⟨k.val / 2, hq⟩ : Fin n)) (fun c => by
        match c with
        | ⟨0, _⟩ => show r.val = if (262144 : Nat) = 1 then 0 else r.val; rw [if_neg (by decide)]
        | ⟨1, _⟩ =>
          show k.val / 2 = if n = 1 then 0 else k.val / 2
          split
          · omega
          · rfl)
  · refine (broadcastInDim_apply (![0, 1, 2] : Fin 3 → Fin 3) h4 _ (ix3 r (⟨k.val / 2, hq⟩ : Fin n) (⟨k.val % 2, hb⟩ : Fin 2))
      (ix3 r (0 : Fin 1) (⟨k.val % 2, hb⟩ : Fin 2)) (fun c => by
        match c with
        | ⟨0, _⟩ => show r.val = if (262144 : Nat) = 1 then 0 else r.val; rw [if_neg (by decide)]
        | ⟨1, _⟩ => rfl
        | ⟨2, _⟩ => show k.val % 2 = if (2 : Nat) = 1 then 0 else k.val % 2; rw [if_neg (by decide)])).trans ?_
    exact broadcastInDim_apply (![0, 2] : Fin 2 → Fin 3) h3 a (ix3 r (0 : Fin 1) (⟨k.val % 2, hb⟩ : Fin 2)) (ix2 r (⟨k.val % 2, hb⟩ : Fin 2)) (fun c => by
        match c with
        | ⟨0, _⟩ => show r.val = if (262144 : Nat) = 1 then 0 else r.val; rw [if_neg (by decide)]
        | ⟨1, _⟩ => show k.val % 2 = if (2 : Nat) = 1 then 0 else k.val % 2; rw [if_neg (by decide)])

/-- The first step: the constant one times wire 0's pair. -/
theorem s19_apply (a : (⟨S262144x2, .f32⟩ : BufTy).Contents (Elt Ideal)) (r : Fin 262144) (k : Fin 2) :
    Cert.RefStages.s19 (F := Ideal) a (ix2 r k) = Ideal.ofBits .f32 0x3F800000#32 * a (ix2 r k) := by
  unfold Cert.RefStages.s19
  refine (shapeCast_apply _ shapeCasts_S262144x1x2_S262144x2 (ix2 r k) (ix3 r (0 : Fin 1) k) (by
    rw [Shape.rowMajor_val_three, Shape.rowMajor_val_two]
    show (r.val * 1 + 0) * 2 + k.val = r.val * 2 + k.val
    omega)).trans ?_
  rw [mulf_apply]
  congr 1
  exact broadcastInDim_apply (![0, 2] : Fin 2 → Fin 3) bcast_S262144x2_S262144x1x2_0_2 a (ix3 r (0 : Fin 1) k) (ix2 r k) (fun c => by
      match c with
      | ⟨0, _⟩ => show r.val = if (262144 : Nat) = 1 then 0 else r.val; rw [if_neg (by decide)]
      | ⟨1, _⟩ => show k.val = if (2 : Nat) = 1 then 0 else k.val; rw [if_neg (by decide)])

/-- The state of wires 0 … 1 at `(r, k)`. -/
theorem s32_apply (p : (⟨S262144x2, .f32⟩ : BufTy).Contents (Elt Ideal)) (a : (⟨S262144x2, .f32⟩ : BufTy).Contents (Elt Ideal))
    (r : Fin 262144) (k : Fin 4) :
    Cert.RefStages.s32 (F := Ideal) p a (ix2 r k)
      = p (ix2 r ⟨k.val / 2, by have := k.isLt; omega⟩) * a (ix2 r ⟨k.val % 2, by omega⟩) :=
  kron_apply 2 4 rfl bcast_S262144x2_S262144x2x1_0_1 bcast_S262144x2x1_S262144x2x2_0_1_2
    bcast_S262144x2_S262144x1x2_0_2 bcast_S262144x1x2_S262144x2x2_0_1_2 shapeCasts_S262144x2x2_S262144x4 p a r k

/-- The state of wires 0 … 2 at `(r, k)`. -/
theorem s45_apply (p : (⟨S262144x4, .f32⟩ : BufTy).Contents (Elt Ideal)) (a : (⟨S262144x2, .f32⟩ : BufTy).Contents (Elt Ideal))
    (r : Fin 262144) (k : Fin 8) :
    Cert.RefStages.s45 (F := Ideal) p a (ix2 r k)
      = p (ix2 r ⟨k.val / 2, by have := k.isLt; omega⟩) * a (ix2 r ⟨k.val % 2, by omega⟩) :=
  kron_apply 4 8 rfl bcast_S262144x4_S262144x4x1_0_1 bcast_S262144x4x1_S262144x4x2_0_1_2
    bcast_S262144x2_S262144x1x2_0_2 bcast_S262144x1x2_S262144x4x2_0_1_2 shapeCasts_S262144x4x2_S262144x8 p a r k

/-- The state of wires 0 … 3 at `(r, k)`. -/
theorem s58_apply (p : (⟨S262144x8, .f32⟩ : BufTy).Contents (Elt Ideal)) (a : (⟨S262144x2, .f32⟩ : BufTy).Contents (Elt Ideal))
    (r : Fin 262144) (k : Fin 16) :
    Cert.RefStages.s58 (F := Ideal) p a (ix2 r k)
      = p (ix2 r ⟨k.val / 2, by have := k.isLt; omega⟩) * a (ix2 r ⟨k.val % 2, by omega⟩) :=
  kron_apply 8 16 rfl bcast_S262144x8_S262144x8x1_0_1 bcast_S262144x8x1_S262144x8x2_0_1_2
    bcast_S262144x2_S262144x1x2_0_2 bcast_S262144x1x2_S262144x8x2_0_1_2 shapeCasts_S262144x8x2_S262144x16 p a r k

/-- The state of wires 0 … 4 at `(r, k)`. -/
theorem s71_apply (p : (⟨S262144x16, .f32⟩ : BufTy).Contents (Elt Ideal)) (a : (⟨S262144x2, .f32⟩ : BufTy).Contents (Elt Ideal))
    (r : Fin 262144) (k : Fin 32) :
    Cert.RefStages.s71 (F := Ideal) p a (ix2 r k)
      = p (ix2 r ⟨k.val / 2, by have := k.isLt; omega⟩) * a (ix2 r ⟨k.val % 2, by omega⟩) :=
  kron_apply 16 32 rfl bcast_S262144x16_S262144x16x1_0_1 bcast_S262144x16x1_S262144x16x2_0_1_2
    bcast_S262144x2_S262144x1x2_0_2 bcast_S262144x1x2_S262144x16x2_0_1_2 shapeCasts_S262144x16x2_S262144x32 p a r k

/-- The state of wires 0 … 5 at `(r, k)`. -/
theorem s84_apply (p : (⟨S262144x32, .f32⟩ : BufTy).Contents (Elt Ideal)) (a : (⟨S262144x2, .f32⟩ : BufTy).Contents (Elt Ideal))
    (r : Fin 262144) (k : Fin 64) :
    Cert.RefStages.s84 (F := Ideal) p a (ix2 r k)
      = p (ix2 r ⟨k.val / 2, by have := k.isLt; omega⟩) * a (ix2 r ⟨k.val % 2, by omega⟩) :=
  kron_apply 32 64 rfl bcast_S262144x32_S262144x32x1_0_1 bcast_S262144x32x1_S262144x32x2_0_1_2
    bcast_S262144x2_S262144x1x2_0_2 bcast_S262144x1x2_S262144x32x2_0_1_2 shapeCasts_S262144x32x2_S262144x64 p a r k

/-- The state of all seven wires at `(r, k)`. -/
theorem s97_apply (p : (⟨S262144x64, .f32⟩ : BufTy).Contents (Elt Ideal)) (a : (⟨S262144x2, .f32⟩ : BufTy).Contents (Elt Ideal))
    (r : Fin 262144) (k : Fin 128) :
    Cert.RefStages.s97 (F := Ideal) p a (ix2 r k)
      = p (ix2 r ⟨k.val / 2, by have := k.isLt; omega⟩) * a (ix2 r ⟨k.val % 2, by omega⟩) :=
  kron_apply 64 128 rfl bcast_S262144x64_S262144x64x1_0_1 bcast_S262144x64x1_S262144x64x2_0_1_2
    bcast_S262144x2_S262144x1x2_0_2 bcast_S262144x1x2_S262144x64x2_0_1_2 shapeCasts_S262144x64x2_S262144x128 p a r k

end Cert.RefState

end
-- ==== Proof.RefState.lean ====
/-
  The seven-wire product state of the reference, read at an index.

  The state is grown one wire at a time; after `k` wires the entry at the position whose binary digits are the labels
  `b0 … b(k-1)`, most significant first, is the constant one times the product of the wires' amplitudes at those labels,
  multiplied from the left. The last reshape gives every wire its own axis, and the row-major position of
  `(r, b0, …, b6)` among the 128 entries of sample `r` is again that binary number.
-/
import proofs.«125050_j21938692948013_1_alg».proof.Proof.RefAmp
import proofs.«125050_j21938692948013_1_alg».proof.Proof.RefKron
import Idealize.ShloMosaic.Lib.Pipeline.Value
import Idealize.ShloMosaic.Lib.ValueIdx

noncomputable section

namespace Cert.RefState

open Cert.ReferenceIdeal Cert.ReferenceIdeal.Gen Idealize.ShloMosaic Idealize.ShloMosaic.ValueIdx

open Cert.QForm Cert.Ix8

/-- The state with one axis per wire reads the flat state at the binary number the labels spell. -/
theorem s98_apply (p : (⟨S262144x128, .f32⟩ : BufTy).Contents (Elt Ideal)) (r : Fin 262144) (b0 b1 b2 b3 b4 b5 b6 : Fin 2) :
    Cert.RefStages.s98 (F := Ideal) p (ix8 r b0 b1 b2 b3 b4 b5 b6)
      = p (ix2 r ⟨64 * b0.val + 32 * b1.val + 16 * b2.val + 8 * b3.val + 4 * b4.val + 2 * b5.val + b6.val, by omega⟩) := by
  unfold Cert.RefStages.s98
  exact shapeCast_apply p shapeCasts_S262144x128_S262144x2x2x2x2x2x2x2 (ix8 r b0 b1 b2 b3 b4 b5 b6) _ (by
    rw [Cert.Ix8.rowMajor_val_eight, Shape.rowMajor_val_two]
    show r.val * 128 + (64 * b0.val + 32 * b1.val + 16 * b2.val + 8 * b3.val + 4 * b4.val + 2 * b5.val + b6.val)
      = (((((((r.val * 2 + b0.val) * 2 + b1.val) * 2 + b2.val) * 2 + b3.val) * 2 + b4.val) * 2 + b5.val) * 2 + b6.val)
    omega)

/-- The position of two labels among four entries. -/
def pos2 (b0 b1 : Fin 2) : Fin 4 := ⟨2 * b0.val + b1.val, by omega⟩
/-- The position of 3 labels among 8 entries: twice the position of the first 2, plus the last. -/
def pos3 (b0 b1 b2 : Fin 2) : Fin 8 :=
  ⟨2 * (pos2 b0 b1).val + b2.val, by have := (pos2 b0 b1).isLt; omega⟩
/-- The position of 4 labels among 16 entries: twice the position of the first 3, plus the last. -/
def pos4 (b0 b1 b2 b3 : Fin 2) : Fin 16 :=
  ⟨2 * (pos3 b0 b1 b2).val + b3.val, by have := (pos3 b0 b1 b2).isLt; omega⟩
/-- The position of 5 labels among 32 entries: twice the position of the first 4, plus the last. -/
def pos5 (b0 b1 b2 b3 b4 : Fin 2) : Fin 32 :=
  ⟨2 * (pos4 b0 b1 b2 b3).val + b4.val, by have := (pos4 b0 b1 b2 b3).isLt; omega⟩
/-- The position of 6 labels among 64 entries: twice the position of the first 5, plus the last. -/
def pos6 (b0 b1 b2 b3 b4 b5 : Fin 2) : Fin 64 :=
  ⟨2 * (pos5 b0 b1 b2 b3 b4).val + b5.val, by have := (pos5 b0 b1 b2 b3 b4).isLt; omega⟩
/-- The position of 7 labels among 128 entries: twice the position of the first 6, plus the last. -/
def pos7 (b0 b1 b2 b3 b4 b5 b6 : Fin 2) : Fin 128 :=
  ⟨2 * (pos6 b0 b1 b2 b3 b4 b5).val + b6.val, by have := (pos6 b0 b1 b2 b3 b4 b5).isLt; omega⟩

/-- A state obtained by one product step, read at position `2 q + b`: the previous state at `q` times the pair at `b`. -/
theorem at_two_mul_add {n m : Nat} (hm : m = 2 * n) (f : FVec Ideal ⟨2, ![262144, m]⟩ .f32)
    (p : FVec Ideal ⟨2, ![262144, n]⟩ .f32) (a : FVec Ideal ⟨2, ![262144, 2]⟩ .f32)
    (hf : ∀ (r : Fin 262144) (k : Fin m),
      f (ix2 r k) = p (ix2 r ⟨k.val / 2, by have := k.isLt; omega⟩) * a (ix2 r ⟨k.val % 2, by omega⟩))
    (r : Fin 262144) (q : Fin n) (b : Fin 2) (x y : EReal) (hp : p (ix2 r q) = x) (ha : a (ix2 r b) = y) :
    f (ix2 r ⟨2 * q.val + b.val, by have := q.isLt; have := b.isLt; omega⟩) = x * y := by
  have hq := q.isLt
  have hb := b.isLt
  refine (hf r _).trans ?_
  have e1 : ∀ h, (⟨(2 * q.val + b.val) / 2, h⟩ : Fin n) = q := fun h => Fin.ext (by show (2 * q.val + b.val) / 2 = q.val; omega)
  have e2 : ∀ h, (⟨(2 * q.val + b.val) % 2, h⟩ : Fin 2) = b := fun h => Fin.ext (by show (2 * q.val + b.val) % 2 = b.val; omega)
  show p (ix2 r ⟨(2 * q.val + b.val) / 2, _⟩) * a (ix2 r ⟨(2 * q.val + b.val) % 2, _⟩) = x * y
  rw [e1, e2, hp, ha]

variable (c s : (⟨S262144x7, .f32⟩ : BufTy).Contents (Elt Ideal)) (r : Fin 262144)

/-- After wire 0: the constant one times wire 0's amplitude. -/
theorem pre1_apply (b0 : Fin 2) :
    Cert.RefStages.s19 (F := Ideal) (Cert.RefStages.s14 (F := Ideal) c s) (ix2 r b0)
      = Ideal.ofBits .f32 0x3F800000#32 * ampl (c (ix2 r 0)) (s (ix2 r 0)) b0 := by
  rw [s19_apply, s14_apply]

/-- After wires 0 … 1. -/
theorem pre2_apply (b0 b1 : Fin 2) :
    Cert.RefStages.s32 (F := Ideal) (Cert.RefStages.s19 (F := Ideal) (Cert.RefStages.s14 (F := Ideal) c s)) (Cert.RefStages.s26 (F := Ideal) c s) (ix2 r (pos2 b0 b1))
      = Ideal.ofBits .f32 0x3F800000#32 * ampl (c (ix2 r 0)) (s (ix2 r 0)) b0 * ampl (c (ix2 r 1)) (s (ix2 r 1)) b1 :=
  at_two_mul_add (n := 2) (m := 4) rfl _ _ _ (s32_apply _ _) r (b0) b1 _ _
    (pre1_apply c s r b0) (s26_apply c s r b1)

/-- After wires 0 … 2. -/
theorem pre3_apply (b0 b1 b2 : Fin 2) :
    Cert.RefStages.s45 (F := Ideal) (Cert.RefStages.s32 (F := Ideal) (Cert.RefStages.s19 (F := Ideal) (Cert.RefStages.s14 (F := Ideal) c s)) (Cert.RefStages.s26 (F := Ideal) c s)) (Cert.RefStages.s39 (F := Ideal) c s) (ix2 r (pos3 b0 b1 b2))
      = Ideal.ofBits .f32 0x3F800000#32 * ampl (c (ix2 r 0)) (s (ix2 r 0)) b0 * ampl (c (ix2 r 1)) (s (ix2 r 1)) b1 * ampl (c (ix2 r 2)) (s (ix2 r 2)) b2 :=
  at_two_mul_add (n := 4) (m := 8) rfl _ _ _ (s45_apply _ _) r (pos2 b0 b1) b2 _ _
    (pre2_apply c s r b0 b1) (s39_apply c s r b2)

/-- After wires 0 … 3. -/
theorem pre4_apply (b0 b1 b2 b3 : Fin 2) :
    Cert.RefStages.s58 (F := Ideal) (Cert.RefStages.s45 (F := Ideal) (Cert.RefStages.s32 (F := Ideal) (Cert.RefStages.s19 (F := Ideal) (Cert.RefStages.s14 (F := Ideal) c s)) (Cert.RefStages.s26 (F := Ideal) c s)) (Cert.RefStages.s39 (F := Ideal) c s)) (Cert.RefStages.s52 (F := Ideal) c s) (ix2 r (pos4 b0 b1 b2 b3))
      = Ideal.ofBits .f32 0x3F800000#32 * ampl (c (ix2 r 0)) (s (ix2 r 0)) b0 * ampl (c (ix2 r 1)) (s (ix2 r 1)) b1 * ampl (c (ix2 r 2)) (s (ix2 r 2)) b2 * ampl (c (ix2 r 3)) (s (ix2 r 3)) b3 :=
  at_two_mul_add (n := 8) (m := 16) rfl _ _ _ (s58_apply _ _) r (pos3 b0 b1 b2) b3 _ _
    (pre3_apply c s r b0 b1 b2) (s52_apply c s r b3)

/-- After wires 0 … 4. -/
theorem pre5_apply (b0 b1 b2 b3 b4 : Fin 2) :
    Cert.RefStages.s71 (F := Ideal) (Cert.RefStages.s58 (F := Ideal) (Cert.RefStages.s45 (F := Ideal) (Cert.RefStages.s32 (F := Ideal) (Cert.RefStages.s19 (F := Ideal) (Cert.RefStages.s14 (F := Ideal) c s)) (Cert.RefStages.s26 (F := Ideal) c s)) (Cert.RefStages.s39 (F := Ideal) c s)) (Cert.RefStages.s52 (F := Ideal) c s)) (Cert.RefStages.s65 (F := Ideal) c s) (ix2 r (pos5 b0 b1 b2 b3 b4))
      = Ideal.ofBits .f32 0x3F800000#32 * ampl (c (ix2 r 0)) (s (ix2 r 0)) b0 * ampl (c (ix2 r 1)) (s (ix2 r 1)) b1 * ampl (c (ix2 r 2)) (s (ix2 r 2)) b2 * ampl (c (ix2 r 3)) (s (ix2 r 3)) b3 * ampl (c (ix2 r 4)) (s (ix2 r 4)) b4 :=
  at_two_mul_add (n := 16) (m := 32) rfl _ _ _ (s71_apply _ _) r (pos4 b0 b1 b2 b3) b4 _ _
    (pre4_apply c s r b0 b1 b2 b3) (s65_apply c s r b4)

/-- After wires 0 … 5. -/
theorem pre6_apply (b0 b1 b2 b3 b4 b5 : Fin 2) :
    Cert.RefStages.s84 (F := Ideal) (Cert.RefStages.s71 (F := Ideal) (Cert.RefStages.s58 (F := Ideal) (Cert.RefStages.s45 (F := Ideal) (Cert.RefStages.s32 (F := Ideal) (Cert.RefStages.s19 (F := Ideal) (Cert.RefStages.s14 (F := Ideal) c s)) (Cert.RefStages.s26 (F := Ideal) c s)) (Cert.RefStages.s39 (F := Ideal) c s)) (Cert.RefStages.s52 (F := Ideal) c s)) (Cert.RefStages.s65 (F := Ideal) c s)) (Cert.RefStages.s78 (F := Ideal) c s) (ix2 r (pos6 b0 b1 b2 b3 b4 b5))
      = Ideal.ofBits .f32 0x3F800000#32 * ampl (c (ix2 r 0)) (s (ix2 r 0)) b0 * ampl (c (ix2 r 1)) (s (ix2 r 1)) b1 * ampl (c (ix2 r 2)) (s (ix2 r 2)) b2 * ampl (c (ix2 r 3)) (s (ix2 r 3)) b3 * ampl (c (ix2 r 4)) (s (ix2 r 4)) b4 * ampl (c (ix2 r 5)) (s (ix2 r 5)) b5 :=
  at_two_mul_add (n := 32) (m := 64) rfl _ _ _ (s84_apply _ _) r (pos5 b0 b1 b2 b3 b4) b5 _ _
    (pre5_apply c s r b0 b1 b2 b3 b4) (s78_apply c s r b5)

/-- After wires 0 … 6. -/
theorem pre7_apply (b0 b1 b2 b3 b4 b5 b6 : Fin 2) :
    Cert.RefStages.s97 (F := Ideal) (Cert.RefStages.s84 (F := Ideal) (Cert.RefStages.s71 (F := Ideal) (Cert.RefStages.s58 (F := Ideal) (Cert.RefStages.s45 (F := Ideal) (Cert.RefStages.s32 (F := Ideal) (Cert.RefStages.s19 (F := Ideal) (Cert.RefStages.s14 (F := Ideal) c s)) (Cert.RefStages.s26 (F := Ideal) c s)) (Cert.RefStages.s39 (F := Ideal) c s)) (Cert.RefStages.s52 (F := Ideal) c s)) (Cert.RefStages.s65 (F := Ideal) c s)) (Cert.RefStages.s78 (F := Ideal) c s)) (Cert.RefStages.s91 (F := Ideal) c s) (ix2 r (pos7 b0 b1 b2 b3 b4 b5 b6))
      = Ideal.ofBits .f32 0x3F800000#32 * ampl (c (ix2 r 0)) (s (ix2 r 0)) b0 * ampl (c (ix2 r 1)) (s (ix2 r 1)) b1 * ampl (c (ix2 r 2)) (s (ix2 r 2)) b2 * ampl (c (ix2 r 3)) (s (ix2 r 3)) b3 * ampl (c (ix2 r 4)) (s (ix2 r 4)) b4 * ampl (c (ix2 r 5)) (s (ix2 r 5)) b5 * ampl (c (ix2 r 6)) (s (ix2 r 6)) b6 :=
  at_two_mul_add (n := 64) (m := 128) rfl _ _ _ (s97_apply _ _) r (pos6 b0 b1 b2 b3 b4 b5) b6 _ _
    (pre6_apply c s r b0 b1 b2 b3 b4 b5) (s91_apply c s r b6)

/-- The product state at `(r, b0, …, b6)`: the constant one times the seven amplitudes, multiplied from the left. -/
theorem state_apply (b0 b1 b2 b3 b4 b5 b6 : Fin 2) :
    Cert.RefStages.s98 (F := Ideal) (Cert.RefStages.state7 (F := Ideal) c s) (ix8 r b0 b1 b2 b3 b4 b5 b6)
      = Ideal.ofBits .f32 0x3F800000#32 * ampl (c (ix2 r 0)) (s (ix2 r 0)) b0 * ampl (c (ix2 r 1)) (s (ix2 r 1)) b1 * ampl (c (ix2 r 2)) (s (ix2 r 2)) b2 * ampl (c (ix2 r 3)) (s (ix2 r 3)) b3 * ampl (c (ix2 r 4)) (s (ix2 r 4)) b4 * ampl (c (ix2 r 5)) (s (ix2 r 5)) b5 * ampl (c (ix2 r 6)) (s (ix2 r 6)) b6 := by
  rw [s98_apply]
  have e : ∀ h, (⟨64 * b0.val + 32 * b1.val + 16 * b2.val + 8 * b3.val + 4 * b4.val + 2 * b5.val + b6.val, h⟩ : Fin 128)
      = pos7 b0 b1 b2 b3 b4 b5 b6 := fun h => Fin.ext (by
    show 64 * b0.val + 32 * b1.val + 16 * b2.val + 8 * b3.val + 4 * b4.val + 2 * b5.val + b6.val
      = 2 * (2 * (2 * (2 * (2 * (2 * b0.val + b1.val) + b2.val) + b3.val) + b4.val) + b5.val) + b6.val
    omega)
  rw [e]
  exact pre7_apply c s r b0 b1 b2 b3 b4 b5 b6

end Cert.RefState

end
-- ==== Proof.RefCosSin.lean ====
/-
  The half-angle cosines and sines of the reference, read entry by entry.

  For sample `r` and wire `i` the rotation angle is `x_q (r, i) + q_params i`. The reference multiplies it by the
  constant one half and takes the cosine and the sine; the constant and the parameter vector reach the array's shape
  by broadcasts, which read one entry each.
-/
import proofs.«125050_j21938692948013_1_alg».proof.Proof.RefStages
import Idealize.ShloMosaic.Lib.Pipeline.Value
import Idealize.ShloMosaic.Lib.ValueIdx

noncomputable section

namespace Cert.RefState

open Cert.ReferenceIdeal Cert.ReferenceIdeal.Gen Idealize.ShloMosaic Idealize.ShloMosaic.ValueIdx

variable (x0 : (⟨S262144x7, .f32⟩ : BufTy).Contents (Elt Ideal)) (x2 : (⟨S7, .f32⟩ : BufTy).Contents (Elt Ideal))

/-- The half angle at `(r, i)`: one half times the sum of the input angle and the wire's parameter. -/
theorem halfAngle_apply (r : Fin 262144) (i : Fin 7) :
    mulf (broadcastInDim S262144x7 ![] bcast_S_S262144x7 (constant (F := Ideal) S_ .f32 0x3F000000#32))
        (addf x0 (broadcastInDim S262144x7 ![0, 1] bcast_S1x7_S262144x7_0_1 (broadcastInDim S1x7 ![1] bcast_S7_S1x7_1 x2)))
        (ix2 r i)
      = Ideal.ofBits .f32 0x3F000000#32 * (x0 (ix2 r i) + x2 (ix1 i)) := by
  rw [mulf_apply, addf_apply]
  congr 2
  rw [broadcastInDim_apply (![0, 1] : Fin 2 → Fin 2) bcast_S1x7_S262144x7_0_1 _ (ix2 r i) (ix2 (0 : Fin 1) i) (fun a => by
    match a with
    | ⟨0, _⟩ => rfl
    | ⟨1, _⟩ => show i.val = if (7 : Nat) = 1 then 0 else i.val; rw [if_neg (by decide)])]
  exact broadcastInDim_apply (![1] : Fin 1 → Fin 2) bcast_S7_S1x7_1 x2 (ix2 (0 : Fin 1) i) (ix1 i) (fun a => by
    match a with
    | ⟨0, _⟩ => show i.val = if (7 : Nat) = 1 then 0 else i.val; rw [if_neg (by decide)])

/-- The cosine array at `(r, i)`. -/
theorem s5_apply (r : Fin 262144) (i : Fin 7) :
    Cert.RefStages.s5 (F := Ideal) x0 x2 (ix2 r i)
      = Ideal.cos (Ideal.ofBits .f32 0x3F000000#32 * (x0 (ix2 r i) + x2 (ix1 i))) := by
  unfold Cert.RefStages.s5
  show Ideal.cos _ = _
  rw [halfAngle_apply]

/-- The sine array at `(r, i)`. -/
theorem s6_apply (r : Fin 262144) (i : Fin 7) :
    Cert.RefStages.s6 (F := Ideal) x0 x2 (ix2 r i)
      = Ideal.sin (Ideal.ofBits .f32 0x3F000000#32 * (x0 (ix2 r i) + x2 (ix1 i))) := by
  unfold Cert.RefStages.s6
  show Ideal.sin _ = _
  rw [halfAngle_apply]

end Cert.RefState

end
-- ==== Proof.Consts.lean ====
/-
  The float constants the reference spells, as the extended reals their words denote.

  The word 0x3F000000 is one half and the word 0x3F800000 is one; both are coercions of real numbers, which is the form
  the comparison with real trigonometry uses.
-/
import Idealize.ShloMosaic.PureOps.Ideal

noncomputable section

namespace Cert.Consts

open Idealize.ShloMosaic

/-- The word of `0.5` denotes the real one half. -/
theorem ofBits_half : Ideal.ofBits .f32 0x3F000000#32 = ((1 / 2 : ℝ) : EReal) := by
  simp [Ideal.ofBits, Ideal.ieee, -EReal.coe_mul]; norm_num

/-- The word of `1.0` denotes the real one. -/
theorem ofBits_one : Ideal.ofBits .f32 0x3F800000#32 = ((1 : ℝ) : EReal) := by
  simp [Ideal.ofBits, Ideal.ieee, -EReal.coe_mul]; norm_num

end Cert.Consts

end
-- ==== Proof.QuantumReal.lean ====
/-
  The quantum number as a polynomial in the half-angle cosines and sines, over the reals.

  Wire `i` has amplitude `C i` at label 0 and `S i` at label 1. The ring of controlled-NOT gates permutes the labels,
  so the entry of the final state at the labels `(b0, …, b6)` is the product of the seven amplitudes at the permuted
  labels. The probability of wire 0's label `b0` is the sum of the squared entries over the other six labels, and the
  quantum number is the probability of label 0 less that of label 1. Summing out the labels one wire at a time, each
  of wires 1 … 6 contributes `C i ^ 2 - S i ^ 2` and wire 0 contributes `C 0 ^ 2 + S 0 ^ 2`. With the cosine and sine of
  a half angle for `C i`, `S i` these are the cosine of the full angle and one.
-/
import proofs.«125050_j21938692948013_1_alg».proof.Proof.QForm

noncomputable section

open scoped BigOperators

namespace Cert.QuantumEq

open Cert.QForm

/-- A wire's amplitude at a label, over the reals. -/
def ampR (c s : ℝ) (b : Fin 2) : ℝ := if b.val = 0 then c else s

@[simp] theorem ampR_zero (c s : ℝ) : ampR c s 0 = c := rfl
@[simp] theorem ampR_one (c s : ℝ) : ampR c s 1 = s := rfl

/-- The entry of the state after the ring of gates at the labels `(b0, …, b6)`. -/
def entryR (C S : Fin 7 → ℝ) (b0 b1 b2 b3 b4 b5 b6 : Fin 2) : ℝ :=
  1 * ampR (C 0) (S 0) (cx b6 b0) * ampR (C 1) (S 1) (cx (cx b6 b0) b1) * ampR (C 2) (S 2) (cx b1 b2)
    * ampR (C 3) (S 3) (cx b2 b3) * ampR (C 4) (S 4) (cx b3 b4) * ampR (C 5) (S 5) (cx b4 b5) * ampR (C 6) (S 6) (cx b5 b6)

/-- The probability of wire 0's label `b0`: zero plus the squared entries summed over the other six labels. -/
def probR (C S : Fin 7 → ℝ) (b0 : Fin 2) : ℝ :=
  0 + ∑ b1 : Fin 2, ∑ b2 : Fin 2, ∑ b3 : Fin 2, ∑ b4 : Fin 2, ∑ b5 : Fin 2, ∑ b6 : Fin 2, entryR C S b0 b1 b2 b3 b4 b5 b6 * entryR C S b0 b1 b2 b3 b4 b5 b6

/-- The difference of the two probabilities factors over the wires. -/
theorem prob_diff (C S : Fin 7 → ℝ) :
    probR C S 0 - probR C S 1
      = (C 0 ^ 2 + S 0 ^ 2) * (C 1 ^ 2 - S 1 ^ 2) * (C 2 ^ 2 - S 2 ^ 2) * (C 3 ^ 2 - S 3 ^ 2) * (C 4 ^ 2 - S 4 ^ 2)
          * (C 5 ^ 2 - S 5 ^ 2) * (C 6 ^ 2 - S 6 ^ 2) := by
  unfold probR entryR
  simp only [Fin.sum_univ_two, cx_zero, cx_one_zero, cx_one_one, ampR_zero, ampR_one]
  ring

/-- The double-angle law in the form met here. -/
theorem cos_sq_sub_sin_sq (h : ℝ) : Real.cos h ^ 2 - Real.sin h ^ 2 = Real.cos (2 * h) := by
  rw [Real.cos_two_mul, Real.sin_sq]
  ring

/-- With half-angle cosines and sines the quantum number is the product of the cosines of the full angles of wires 1 … 6. -/
theorem quantumR (a q : Fin 7 → ℝ) :
    probR (fun i => Real.cos (1 / 2 * (a i + q i))) (fun i => Real.sin (1 / 2 * (a i + q i))) 0
        - probR (fun i => Real.cos (1 / 2 * (a i + q i))) (fun i => Real.sin (1 / 2 * (a i + q i))) 1
      = Real.cos (a 1 + q 1) * Real.cos (a 2 + q 2) * Real.cos (a 3 + q 3) * Real.cos (a 4 + q 4) * Real.cos (a 5 + q 5)
          * Real.cos (a 6 + q 6) := by
  have e : ∀ i : Fin 7, 2 * (1 / 2 * (a i + q i)) = a i + q i := fun i => by ring
  rw [prob_diff]
  simp only [cos_sq_sub_sin_sq, e, Real.cos_sq_add_sin_sq, one_mul]

end Cert.QuantumEq

end
-- ==== Proof.RefGates.lean ====
/-
  The ring of controlled-NOT gates, read at an index.

  The state is an array with one axis per sample and one axis of extent 2 per wire. A controlled-NOT is written as the
  concatenation, along the control's axis, of the half of the state where the control's label is 0 with the half where
  it is 1 reversed along the target's axis. Read at an index, the gate therefore returns the state at the same index
  with the target's label replaced by `cx control target`: unchanged under control 0, flipped under control 1.
-/
import proofs.«125050_j21938692948013_1_alg».proof.Proof.RefStages
import proofs.«125050_j21938692948013_1_alg».proof.Proof.Ix8
import proofs.«125050_j21938692948013_1_alg».proof.Proof.QForm
import Idealize.ShloMosaic.Lib.Pipeline.Value

noncomputable section

namespace Cert.RefGates

open Cert.ReferenceIdeal Cert.ReferenceIdeal.Gen Idealize.ShloMosaic Idealize.ShloMosaic.ValueIdx Cert.Ix8 Cert.QForm

variable (p : FVec Ideal S262144x2x2x2x2x2x2x2 .f32) (r : Fin 262144) (b0 b1 b2 b3 b4 b5 b6 : Fin 2)

/-- The controlled-NOT with control on axis 1 and target on axis 2, read at an index: the control's label stays, the
    target's label is flipped when the control's label is 1. -/
theorem s102_apply :
    Cert.RefStages.s102 (F := Ideal) p (ix8 r b0 b1 b2 b3 b4 b5 b6) = p (ix8 r b0 (cx b0 b1) b2 b3 b4 b5 b6) := by
  unfold Cert.RefStages.s102
  rcases fin2_cases b0 with rfl | rfl
  · rw [concatenate_pair_apply_left (t := S262144x2x2x2x2x2x2x2) (s₁ := S262144x1x2x2x2x2x2x2) (s₂ := S262144x1x2x2x2x2x2x2)
      (1 : Fin 8) _ _ _ (ix8 r (0 : Fin 2) b1 b2 b3 b4 b5 b6) rfl (ix8 r (0 : Fin 1) b1 b2 b3 b4 b5 b6) (fun b => by
        match b with
        | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl)]
    exact extractStridedSlice_apply _ p _ _ (ix8 r (0 : Fin 2) (cx 0 b1) b2 b3 b4 b5 b6) (fun a => by
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm
      | ⟨4, _⟩ => exact (Nat.zero_add _).symm
      | ⟨5, _⟩ => exact (Nat.zero_add _).symm
      | ⟨6, _⟩ => exact (Nat.zero_add _).symm
      | ⟨7, _⟩ => exact (Nat.zero_add _).symm)
  · rw [concatenate_pair_apply_right (t := S262144x2x2x2x2x2x2x2) (s₁ := S262144x1x2x2x2x2x2x2) (s₂ := S262144x1x2x2x2x2x2x2)
      (1 : Fin 8) _ _ _ (ix8 r (1 : Fin 2) b1 b2 b3 b4 b5 b6) rfl rfl (ix8 r (0 : Fin 1) b1 b2 b3 b4 b5 b6) (fun b hb => by
        match b with
        | ⟨0, _⟩ => rfl | ⟨1, _⟩ => exact absurd rfl hb | ⟨2, _⟩ => rfl | ⟨3, _⟩ => rfl | ⟨4, _⟩ => rfl | ⟨5, _⟩ => rfl | ⟨6, _⟩ => rfl | ⟨7, _⟩ => rfl)
      rfl]
    show extractStridedSlice S262144x1x2x2x2x2x2x2 _ p _ (fun (a : Fin 8) => if a ∈ [(2 : Fin 8)] then ((ix8 r (0 : Fin 1) b1 b2 b3 b4 b5 b6) a).rev else (ix8 r (0 : Fin 1) b1 b2 b3 b4 b5 b6) a) = _
    exact extractStridedSlice_apply _ p _ _ (ix8 r (1 : Fin 2) (cx 1 b1) b2 b3 b4 b5 b6) (fun a => by
      match a with
      | ⟨0, _⟩ => exact (Nat.zero_add _).symm
      | ⟨1, _⟩ => rfl
      | ⟨2, _⟩ => exact (Nat.zero_add _).symm
      | ⟨3, _⟩ => exact (Nat.zero_add _).symm
      | ⟨4, _⟩ => exact (Nat.zero_add _).symm
      | ⟨5, _⟩ => exact (Nat.zero_add _).symm
      | ⟨6, _⟩ => exact (Nat.zero_add _).symm
      | ⟨7, _⟩ => exact (Nat.zero_add _).symm)

/-- The controlled-NOT with control on axis 2 and target on axis 3, read at an index: the control's label stays, the
    target's label is flipped when the control's label is 1. -/
theorem s106_apply :
    Cert.RefStages.s106 (F := Ideal) p (ix8 r b0 b1 b2 b3 b4 b5 b6) = p (ix8 r b0 b1 (cx b1 b2) b3 b4 b5 b6) := by
  unfold Cert.RefStages.s106
  rcases fin2_cases b1 with rfl | rfl
  · rw [concatenate_pair_apply_left (t := S262144x2x2x2x2x2x2x2) (s₁ := S262144x2x1x2x2x2x2x2) (s₂ := S262144x2x1x2x2x2x2x2)
      (2 : Fin 8) _ _ _ (ix8 r b0 (0 : Fin 2) b2 b3 b4 b5 b6) rfl (ix8 r b0 (0 : Fin 1) b2 b3 b4 b5 b6) (fun b => by
        match b with
        | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl)]
    exact extractStridedSlice_apply _ p _ _ (ix8 r b0 (0 : Fin 2) (cx 0 b2) b3 b4 b5 b6) (fun a => by
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm
      | ⟨4, _⟩ => exact (Nat.zero_add _).symm
      | ⟨5, _⟩ => exact (Nat.zero_add _).symm
      | ⟨6, _⟩ => exact (Nat.zero_add _).symm
      | ⟨7, _⟩ => exact (Nat.zero_add _).symm)
  · rw [concatenate_pair_apply_right (t := S262144x2x2x2x2x2x2x2) (s₁ := S262144x2x1x2x2x2x2x2) (s₂ := S262144x2x1x2x2x2x2x2)
      (2 : Fin 8) _ _ _ (ix8 r b0 (1 : Fin 2) b2 b3 b4 b5 b6) rfl rfl (ix8 r b0 (0 : Fin 1) b2 b3 b4 b5 b6) (fun b hb => by
        match b with
        | ⟨0, _⟩ => rfl | ⟨1, _⟩ => rfl | ⟨2, _⟩ => exact absurd rfl hb | ⟨3, _⟩ => rfl | ⟨4, _⟩ => rfl | ⟨5, _⟩ => rfl | ⟨6, _⟩ => rfl | ⟨7, _⟩ => rfl)
      rfl]
    show extractStridedSlice S262144x2x1x2x2x2x2x2 _ p _ (fun (a : Fin 8) => if a ∈ [(3 : Fin 8)] then ((ix8 r b0 (0 : Fin 1) b2 b3 b4 b5 b6) a).rev else (ix8 r b0 (0 : Fin 1) b2 b3 b4 b5 b6) a) = _
    exact extractStridedSlice_apply _ p _ _ (ix8 r b0 (1 : Fin 2) (cx 1 b2) b3 b4 b5 b6) (fun a => by
      match a with
      | ⟨0, _⟩ => exact (Nat.zero_add _).symm
      | ⟨1, _⟩ => exact (Nat.zero_add _).symm
      | ⟨2, _⟩ => rfl
      | ⟨3, _⟩ => exact (Nat.zero_add _).symm
      | ⟨4, _⟩ => exact (Nat.zero_add _).symm
      | ⟨5, _⟩ => exact (Nat.zero_add _).symm
      | ⟨6, _⟩ => exact (Nat.zero_add _).symm
      | ⟨7, _⟩ => exact (Nat.zero_add _).symm)

/-- The controlled-NOT with control on axis 3 and target on axis 4, read at an index: the control's label stays, the
    target's label is flipped when the control's label is 1. -/
theorem s110_apply :
    Cert.RefStages.s110 (F := Ideal) p (ix8 r b0 b1 b2 b3 b4 b5 b6) = p (ix8 r b0 b1 b2 (cx b2 b3) b4 b5 b6) := by
  unfold Cert.RefStages.s110
  rcases fin2_cases b2 with rfl | rfl
  · rw [concatenate_pair_apply_left (t := S262144x2x2x2x2x2x2x2) (s₁ := S262144x2x2x1x2x2x2x2) (s₂ := S262144x2x2x1x2x2x2x2)
      (3 : Fin 8) _ _ _ (ix8 r b0 b1 (0 : Fin 2) b3 b4 b5 b6) rfl (ix8 r b0 b1 (0 : Fin 1) b3 b4 b5 b6) (fun b => by
        match b with
        | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl)]
    exact extractStridedSlice_apply _ p _ _ (ix8 r b0 b1 (0 : Fin 2) (cx 0 b3) b4 b5 b6) (fun a => by
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm
      | ⟨4, _⟩ => exact (Nat.zero_add _).symm
      | ⟨5, _⟩ => exact (Nat.zero_add _).symm
      | ⟨6, _⟩ => exact (Nat.zero_add _).symm
      | ⟨7, _⟩ => exact (Nat.zero_add _).symm)
  · rw [concatenate_pair_apply_right (t := S262144x2x2x2x2x2x2x2) (s₁ := S262144x2x2x1x2x2x2x2) (s₂ := S262144x2x2x1x2x2x2x2)
      (3 : Fin 8) _ _ _ (ix8 r b0 b1 (1 : Fin 2) b3 b4 b5 b6) rfl rfl (ix8 r b0 b1 (0 : Fin 1) b3 b4 b5 b6) (fun b hb => by
        match b with
        | ⟨0, _⟩ => rfl | ⟨1, _⟩ => rfl | ⟨2, _⟩ => rfl | ⟨3, _⟩ => exact absurd rfl hb | ⟨4, _⟩ => rfl | ⟨5, _⟩ => rfl | ⟨6, _⟩ => rfl | ⟨7, _⟩ => rfl)
      rfl]
    show extractStridedSlice S262144x2x2x1x2x2x2x2 _ p _ (fun (a : Fin 8) => if a ∈ [(4 : Fin 8)] then ((ix8 r b0 b1 (0 : Fin 1) b3 b4 b5 b6) a).rev else (ix8 r b0 b1 (0 : Fin 1) b3 b4 b5 b6) a) = _
    exact extractStridedSlice_apply _ p _ _ (ix8 r b0 b1 (1 : Fin 2) (cx 1 b3) b4 b5 b6) (fun a => by
      match a with
      | ⟨0, _⟩ => exact (Nat.zero_add _).symm
      | ⟨1, _⟩ => exact (Nat.zero_add _).symm
      | ⟨2, _⟩ => exact (Nat.zero_add _).symm
      | ⟨3, _⟩ => rfl
      | ⟨4, _⟩ => exact (Nat.zero_add _).symm
      | ⟨5, _⟩ => exact (Nat.zero_add _).symm
      | ⟨6, _⟩ => exact (Nat.zero_add _).symm
      | ⟨7, _⟩ => exact (Nat.zero_add _).symm)

/-- The controlled-NOT with control on axis 4 and target on axis 5, read at an index: the control's label stays, the
    target's label is flipped when the control's label is 1. -/
theorem s114_apply :
    Cert.RefStages.s114 (F := Ideal) p (ix8 r b0 b1 b2 b3 b4 b5 b6) = p (ix8 r b0 b1 b2 b3 (cx b3 b4) b5 b6) := by
  unfold Cert.RefStages.s114
  rcases fin2_cases b3 with rfl | rfl
  · rw [concatenate_pair_apply_left (t := S262144x2x2x2x2x2x2x2) (s₁ := S262144x2x2x2x1x2x2x2) (s₂ := S262144x2x2x2x1x2x2x2)
      (4 : Fin 8) _ _ _ (ix8 r b0 b1 b2 (0 : Fin 2) b4 b5 b6) rfl (ix8 r b0 b1 b2 (0 : Fin 1) b4 b5 b6) (fun b => by
        match b with
        | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl)]
    exact extractStridedSlice_apply _ p _ _ (ix8 r b0 b1 b2 (0 : Fin 2) (cx 0 b4) b5 b6) (fun a => by
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm
      | ⟨4, _⟩ => exact (Nat.zero_add _).symm
      | ⟨5, _⟩ => exact (Nat.zero_add _).symm
      | ⟨6, _⟩ => exact (Nat.zero_add _).symm
      | ⟨7, _⟩ => exact (Nat.zero_add _).symm)
  · rw [concatenate_pair_apply_right (t := S262144x2x2x2x2x2x2x2) (s₁ := S262144x2x2x2x1x2x2x2) (s₂ := S262144x2x2x2x1x2x2x2)
      (4 : Fin 8) _ _ _ (ix8 r b0 b1 b2 (1 : Fin 2) b4 b5 b6) rfl rfl (ix8 r b0 b1 b2 (0 : Fin 1) b4 b5 b6) (fun b hb => by
        match b with
        | ⟨0, _⟩ => rfl | ⟨1, _⟩ => rfl | ⟨2, _⟩ => rfl | ⟨3, _⟩ => rfl | ⟨4, _⟩ => exact absurd rfl hb | ⟨5, _⟩ => rfl | ⟨6, _⟩ => rfl | ⟨7, _⟩ => rfl)
      rfl]
    show extractStridedSlice S262144x2x2x2x1x2x2x2 _ p _ (fun (a : Fin 8) => if a ∈ [(5 : Fin 8)] then ((ix8 r b0 b1 b2 (0 : Fin 1) b4 b5 b6) a).rev else (ix8 r b0 b1 b2 (0 : Fin 1) b4 b5 b6) a) = _
    exact extractStridedSlice_apply _ p _ _ (ix8 r b0 b1 b2 (1 : Fin 2) (cx 1 b4) b5 b6) (fun a => by
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm
      | ⟨4, _⟩ => rfl
      | ⟨5, _⟩ => exact (Nat.zero_add _).symm
      | ⟨6, _⟩ => exact (Nat.zero_add _).symm
      | ⟨7, _⟩ => exact (Nat.zero_add _).symm)

/-- The controlled-NOT with control on axis 5 and target on axis 6, read at an index: the control's label stays, the
    target's label is flipped when the control's label is 1. -/
theorem s118_apply :
    Cert.RefStages.s118 (F := Ideal) p (ix8 r b0 b1 b2 b3 b4 b5 b6) = p (ix8 r b0 b1 b2 b3 b4 (cx b4 b5) b6) := by
  unfold Cert.RefStages.s118
  rcases fin2_cases b4 with rfl | rfl
  · rw [concatenate_pair_apply_left (t := S262144x2x2x2x2x2x2x2) (s₁ := S262144x2x2x2x2x1x2x2) (s₂ := S262144x2x2x2x2x1x2x2)
      (5 : Fin 8) _ _ _ (ix8 r b0 b1 b2 b3 (0 : Fin 2) b5 b6) rfl (ix8 r b0 b1 b2 b3 (0 : Fin 1) b5 b6) (fun b => by
        match b with
        | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl)]
    exact extractStridedSlice_apply _ p _ _ (ix8 r b0 b1 b2 b3 (0 : Fin 2) (cx 0 b5) b6) (fun a => by
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm
      | ⟨4, _⟩ => exact (Nat.zero_add _).symm
      | ⟨5, _⟩ => exact (Nat.zero_add _).symm
      | ⟨6, _⟩ => exact (Nat.zero_add _).symm
      | ⟨7, _⟩ => exact (Nat.zero_add _).symm)
  · rw [concatenate_pair_apply_right (t := S262144x2x2x2x2x2x2x2) (s₁ := S262144x2x2x2x2x1x2x2) (s₂ := S262144x2x2x2x2x1x2x2)
      (5 : Fin 8) _ _ _ (ix8 r b0 b1 b2 b3 (1 : Fin 2) b5 b6) rfl rfl (ix8 r b0 b1 b2 b3 (0 : Fin 1) b5 b6) (fun b hb => by
        match b with
        | ⟨0, _⟩ => rfl | ⟨1, _⟩ => rfl | ⟨2, _⟩ => rfl | ⟨3, _⟩ => rfl | ⟨4, _⟩ => rfl | ⟨5, _⟩ => exact absurd rfl hb | ⟨6, _⟩ => rfl | ⟨7, _⟩ => rfl)
      rfl]
    show extractStridedSlice S262144x2x2x2x2x1x2x2 _ p _ (fun (a : Fin 8) => if a ∈ [(6 : Fin 8)] then ((ix8 r b0 b1 b2 b3 (0 : Fin 1) b5 b6) a).rev else (ix8 r b0 b1 b2 b3 (0 : Fin 1) b5 b6) a) = _
    exact extractStridedSlice_apply _ p _ _ (ix8 r b0 b1 b2 b3 (1 : Fin 2) (cx 1 b5) b6) (fun a => by
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm
      | ⟨4, _⟩ => exact (Nat.zero_add _).symm
      | ⟨5, _⟩ => rfl
      | ⟨6, _⟩ => exact (Nat.zero_add _).symm
      | ⟨7, _⟩ => exact (Nat.zero_add _).symm)

/-- The controlled-NOT with control on axis 6 and target on axis 7, read at an index: the control's label stays, the
    target's label is flipped when the control's label is 1. -/
theorem s122_apply :
    Cert.RefStages.s122 (F := Ideal) p (ix8 r b0 b1 b2 b3 b4 b5 b6) = p (ix8 r b0 b1 b2 b3 b4 b5 (cx b5 b6)) := by
  unfold Cert.RefStages.s122
  rcases fin2_cases b5 with rfl | rfl
  · rw [concatenate_pair_apply_left (t := S262144x2x2x2x2x2x2x2) (s₁ := S262144x2x2x2x2x2x1x2) (s₂ := S262144x2x2x2x2x2x1x2)
      (6 : Fin 8) _ _ _ (ix8 r b0 b1 b2 b3 b4 (0 : Fin 2) b6) rfl (ix8 r b0 b1 b2 b3 b4 (0 : Fin 1) b6) (fun b => by
        match b with
        | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl)]
    exact extractStridedSlice_apply _ p _ _ (ix8 r b0 b1 b2 b3 b4 (0 : Fin 2) (cx 0 b6)) (fun a => by
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm
      | ⟨4, _⟩ => exact (Nat.zero_add _).symm
      | ⟨5, _⟩ => exact (Nat.zero_add _).symm
      | ⟨6, _⟩ => exact (Nat.zero_add _).symm
      | ⟨7, _⟩ => exact (Nat.zero_add _).symm)
  · rw [concatenate_pair_apply_right (t := S262144x2x2x2x2x2x2x2) (s₁ := S262144x2x2x2x2x2x1x2) (s₂ := S262144x2x2x2x2x2x1x2)
      (6 : Fin 8) _ _ _ (ix8 r b0 b1 b2 b3 b4 (1 : Fin 2) b6) rfl rfl (ix8 r b0 b1 b2 b3 b4 (0 : Fin 1) b6) (fun b hb => by
        match b with
        | ⟨0, _⟩ => rfl | ⟨1, _⟩ => rfl | ⟨2, _⟩ => rfl | ⟨3, _⟩ => rfl | ⟨4, _⟩ => rfl | ⟨5, _⟩ => rfl | ⟨6, _⟩ => exact absurd rfl hb | ⟨7, _⟩ => rfl)
      rfl]
    show extractStridedSlice S262144x2x2x2x2x2x1x2 _ p _ (fun (a : Fin 8) => if a ∈ [(7 : Fin 8)] then ((ix8 r b0 b1 b2 b3 b4 (0 : Fin 1) b6) a).rev else (ix8 r b0 b1 b2 b3 b4 (0 : Fin 1) b6) a) = _
    exact extractStridedSlice_apply _ p _ _ (ix8 r b0 b1 b2 b3 b4 (1 : Fin 2) (cx 1 b6)) (fun a => by
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm
      | ⟨4, _⟩ => exact (Nat.zero_add _).symm
      | ⟨5, _⟩ => exact (Nat.zero_add _).symm
      | ⟨6, _⟩ => rfl
      | ⟨7, _⟩ => exact (Nat.zero_add _).symm)

/-- The controlled-NOT with control on axis 7 and target on axis 1, read at an index: the control's label stays, the
    target's label is flipped when the control's label is 1. -/
theorem s126_apply :
    Cert.RefStages.s126 (F := Ideal) p (ix8 r b0 b1 b2 b3 b4 b5 b6) = p (ix8 r (cx b6 b0) b1 b2 b3 b4 b5 b6) := by
  unfold Cert.RefStages.s126
  rcases fin2_cases b6 with rfl | rfl
  · rw [concatenate_pair_apply_left (t := S262144x2x2x2x2x2x2x2) (s₁ := S262144x2x2x2x2x2x2x1) (s₂ := S262144x2x2x2x2x2x2x1)
      (7 : Fin 8) _ _ _ (ix8 r b0 b1 b2 b3 b4 b5 (0 : Fin 2)) rfl (ix8 r b0 b1 b2 b3 b4 b5 (0 : Fin 1)) (fun b => by
        match b with
        | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl)]
    exact extractStridedSlice_apply _ p _ _ (ix8 r (cx 0 b0) b1 b2 b3 b4 b5 (0 : Fin 2)) (fun a => by
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm
      | ⟨4, _⟩ => exact (Nat.zero_add _).symm
      | ⟨5, _⟩ => exact (Nat.zero_add _).symm
      | ⟨6, _⟩ => exact (Nat.zero_add _).symm
      | ⟨7, _⟩ => exact (Nat.zero_add _).symm)
  · rw [concatenate_pair_apply_right (t := S262144x2x2x2x2x2x2x2) (s₁ := S262144x2x2x2x2x2x2x1) (s₂ := S262144x2x2x2x2x2x2x1)
      (7 : Fin 8) _ _ _ (ix8 r b0 b1 b2 b3 b4 b5 (1 : Fin 2)) rfl rfl (ix8 r b0 b1 b2 b3 b4 b5 (0 : Fin 1)) (fun b hb => by
        match b with
        | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => exact absurd rfl hb)
      rfl]
    show extractStridedSlice S262144x2x2x2x2x2x2x1 _ p _ (fun (a : Fin 8) => if a ∈ [(1 : Fin 8)] then ((ix8 r b0 b1 b2 b3 b4 b5 (0 : Fin 1)) a).rev else (ix8 r b0 b1 b2 b3 b4 b5 (0 : Fin 1)) a) = _
    exact extractStridedSlice_apply _ p _ _ (ix8 r (cx 1 b0) b1 b2 b3 b4 b5 (1 : Fin 2)) (fun a => by
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm
      | ⟨4, _⟩ => exact (Nat.zero_add _).symm
      | ⟨5, _⟩ => exact (Nat.zero_add _).symm
      | ⟨6, _⟩ => exact (Nat.zero_add _).symm
      | ⟨7, _⟩ => rfl)

end Cert.RefGates

end
-- ==== Proof.RefProbs.lean ====
/-
  The probabilities of wire 0's two labels and their difference, read at an index.

  The squared amplitudes are laid out as an array [262144, 2, 64] (sample, wire 0's label, the other six labels as one
  number in base 2, wire 1's label the most significant digit) and summed over the last axis. Read at `(r, b0)` the sum
  is the initial value plus the six-fold sum, over the labels of wires 1 … 6, of the squared amplitude at those labels.
  The quantum number is column 0 minus column 1 of that array.
-/
import proofs.«125050_j21938692948013_1_alg».proof.Proof.RefStages
import proofs.«125050_j21938692948013_1_alg».proof.Proof.Ix8
import Idealize.ShloMosaic.Lib.Pipeline.Value
import Idealize.ShloMosaic.PureOps.Ideal.Laws

noncomputable section

open scoped BigOperators

namespace Cert.RefGates

open Cert.ReferenceIdeal Cert.ReferenceIdeal.Gen Idealize.ShloMosaic Idealize.ShloMosaic.ValueIdx Cert.Ix8

/-! ## A sum over `2 n` positions as a sum over a leading binary digit and the `n` remaining positions -/

theorem sum_two_mul {M : Type} [AddCommMonoid M] (n : Nat) (g : Nat → M) :
    ∑ k : Fin (2 * n), g k.val = ∑ b : Fin 2, ∑ j : Fin n, g (n * b.val + j.val) := by
  rw [← Equiv.sum_comp finProdFinEquiv (fun k : Fin (2 * n) => g k.val), Fintype.sum_prod_type]
  refine Finset.sum_congr rfl fun b _ => Finset.sum_congr rfl fun j _ => ?_
  show g (j.val + n * b.val) = _
  rw [Nat.add_comm]

/-- A sum over 64 positions as six nested sums over binary digits, the most significant outermost. -/
theorem sum_fin64 {M : Type} [AddCommMonoid M] (g : Nat → M) :
    ∑ k : Fin 64, g k.val
      = ∑ b1 : Fin 2, ∑ b2 : Fin 2, ∑ b3 : Fin 2, ∑ b4 : Fin 2, ∑ b5 : Fin 2, ∑ b6 : Fin 2,
          g (32 * b1.val + (16 * b2.val + (8 * b3.val + (4 * b4.val + (2 * b5.val + b6.val))))) := by
  refine (sum_two_mul 32 g).trans (Finset.sum_congr rfl fun b1 _ => ?_)
  refine (sum_two_mul 16 (fun m => g (32 * b1.val + m))).trans (Finset.sum_congr rfl fun b2 _ => ?_)
  refine (sum_two_mul 8 (fun m => g (32 * b1.val + (16 * b2.val + m)))).trans (Finset.sum_congr rfl fun b3 _ => ?_)
  refine (sum_two_mul 4 (fun m => g (32 * b1.val + (16 * b2.val + (8 * b3.val + m))))).trans (Finset.sum_congr rfl fun b4 _ => ?_)
  exact (sum_two_mul 2 (fun m => g (32 * b1.val + (16 * b2.val + (8 * b3.val + (4 * b4.val + m)))))).trans
    (Finset.sum_congr rfl fun b5 _ => Finset.sum_congr rfl fun b6 _ => rfl)

/-! ## The two columns and their difference -/

/-- Column `c` of a [262144, 2] array, sliced out and flattened to a vector, at sample `r`. -/
theorem col_apply (q : FVec Ideal S262144x2 .f32) (r : Fin 262144) (c : Fin 2)
    (h : S262144x2.Slices (![0, c.val] : Fin 2 → Nat) S262144x1) :
    shapeCast S262144 (extractStridedSlice S262144x1 (![0, c.val] : Fin 2 → Nat) q h) shapeCasts_S262144x1_S262144 (ix1 r)
      = q (ix2 r c) := by
  rw [shapeCast_apply _ shapeCasts_S262144x1_S262144 (ix1 r) (ix2 r (0 : Fin 1)) (by
    rw [Shape.rowMajor_val_two, Shape.rowMajor_val_one]
    show r.val * 1 + 0 = r.val
    omega)]
  exact extractStridedSlice_apply _ q h _ (ix2 r c) (fun a => by
    match a with
    | ⟨0, _⟩ => exact (Nat.zero_add _).symm
    | ⟨1, _⟩ => rfl)

/-- The quantum number of sample `r`: the entry of column 0 less the entry of column 1. -/
theorem s134_apply (q : FVec Ideal S262144x2 .f32) (r : Fin 262144) :
    Cert.RefStages.s134 (F := Ideal) q (ix1 r) = q (ix2 r 0) - q (ix2 r 1) := by
  unfold Cert.RefStages.s134
  rw [subf_apply]
  exact congrArg₂ (fun a b : EReal => a - b) (col_apply q r 0 _) (col_apply q r 1 _)

/-! ## The sum of the squared amplitudes over the labels of wires 1 … 6 -/

/-- The binary digit of weight `w` of a position. -/
def digit (w n : Nat) : Fin 2 := ⟨n / w % 2, Nat.mod_lt _ (by decide)⟩

/-- The index of the state whose wires 1 … 6 carry the digits of position `n`. -/
def at64 (r : Fin 262144) (b0 : Fin 2) (n : Nat) : S262144x2x2x2x2x2x2x2.Idx :=
  ix8 r b0 (digit 32 n) (digit 16 n) (digit 8 n) (digit 4 n) (digit 2 n) (digit 1 n)

theorem at64_digits (r : Fin 262144) (b0 b1 b2 b3 b4 b5 b6 : Fin 2) :
    at64 r b0 (32 * b1.val + (16 * b2.val + (8 * b3.val + (4 * b4.val + (2 * b5.val + b6.val)))))
      = ix8 r b0 b1 b2 b3 b4 b5 b6 := by
  have h1 := b1.isLt; have h2 := b2.isLt; have h3 := b3.isLt; have h4 := b4.isLt; have h5 := b5.isLt; have h6 := b6.isLt
  unfold at64
  rw [show digit 32 (32 * b1.val + (16 * b2.val + (8 * b3.val + (4 * b4.val + (2 * b5.val + b6.val))))) = b1 from
        Fin.ext (by show _ / 32 % 2 = b1.val; omega),
      show digit 16 (32 * b1.val + (16 * b2.val + (8 * b3.val + (4 * b4.val + (2 * b5.val + b6.val))))) = b2 from
        Fin.ext (by show _ / 16 % 2 = b2.val; omega),
      show digit 8 (32 * b1.val + (16 * b2.val + (8 * b3.val + (4 * b4.val + (2 * b5.val + b6.val))))) = b3 from
        Fin.ext (by show _ / 8 % 2 = b3.val; omega),
      show digit 4 (32 * b1.val + (16 * b2.val + (8 * b3.val + (4 * b4.val + (2 * b5.val + b6.val))))) = b4 from
        Fin.ext (by show _ / 4 % 2 = b4.val; omega),
      show digit 2 (32 * b1.val + (16 * b2.val + (8 * b3.val + (4 * b4.val + (2 * b5.val + b6.val))))) = b5 from
        Fin.ext (by show _ / 2 % 2 = b5.val; omega),
      show digit 1 (32 * b1.val + (16 * b2.val + (8 * b3.val + (4 * b4.val + (2 * b5.val + b6.val))))) = b6 from
        Fin.ext (by show _ / 1 % 2 = b6.val; omega)]

/-- The flattened array of squares at `(r, b0, k)` is the square of the amplitude whose labels are the digits of `k`. -/
theorem flat_apply (p : FVec Ideal S262144x2x2x2x2x2x2x2 .f32) (r : Fin 262144) (b0 : Fin 2) (k : Fin 64)
    (j : S262144x2x64.Idx) (hj0 : (j 0).val = r.val) (hj1 : (j 1).val = b0.val) (hj2 : (j 2).val = k.val) :
    shapeCast S262144x2x64 (mulf p p) shapeCasts_S262144x2x2x2x2x2x2x2_S262144x2x64 j
      = p (at64 r b0 k.val) * p (at64 r b0 k.val) := by
  rw [shapeCast_apply _ shapeCasts_S262144x2x2x2x2x2x2x2_S262144x2x64 j (at64 r b0 k.val) (by
    rw [rowMajor_val_eight, Shape.rowMajor_val_three, hj0, hj1, hj2]
    have hk := k.isLt
    have hb := b0.isLt
    show (((((((r.val * 2 + b0.val) * 2 + k.val / 32 % 2) * 2 + k.val / 16 % 2) * 2 + k.val / 8 % 2) * 2 + k.val / 4 % 2) * 2
        + k.val / 2 % 2) * 2 + k.val / 1 % 2) = (r.val * 2 + b0.val) * 64 + k.val
    omega)]
  rfl

/-- The probability array at `(r, b0)`. -/
theorem s129_apply (p : FVec Ideal S262144x2x2x2x2x2x2x2 .f32) (r : Fin 262144) (b0 : Fin 2) :
    Cert.RefStages.s129 (F := Ideal) p (ix2 r b0)
      = Ideal.ofBits .f32 0x00000000#32
        + ∑ b1 : Fin 2, ∑ b2 : Fin 2, ∑ b3 : Fin 2, ∑ b4 : Fin 2, ∑ b5 : Fin 2, ∑ b6 : Fin 2,
            p (ix8 r b0 b1 b2 b3 b4 b5 b6) * p (ix8 r b0 b1 b2 b3 b4 b5 b6) := by
  unfold Cert.RefStages.s129
  simp only [Host.reduceAdd, Ideal.hostReduceAdd_def]
  rw [Ideal.hostReduceAdd_single reducesTo_S262144x2x64_S262144x2_d2 (by decide)]
  refine congrArg₂ (fun a b : EReal => a + b) rfl ?_
  refine (Finset.sum_congr rfl fun k _ => flat_apply p r b0 k _ rfl rfl rfl).trans ?_
  refine (sum_fin64 (fun n => p (at64 r b0 n) * p (at64 r b0 n))).trans ?_
  refine Finset.sum_congr rfl fun b1 _ => Finset.sum_congr rfl fun b2 _ => Finset.sum_congr rfl fun b3 _ =>
    Finset.sum_congr rfl fun b4 _ => Finset.sum_congr rfl fun b5 _ => Finset.sum_congr rfl fun b6 _ => ?_
  rw [at64_digits]

end Cert.RefGates

end
-- ==== Proof.QuantumEq.lean ====
/-
  The reference's quantum number is the product of the cosines of the rotation angles of wires 1 … 6.

  Reading the stages in turn: the ring of controlled-NOT gates permutes the labels at which the product state is read,
  so every entry of the final state is the constant one times seven amplitudes; the probabilities of wire 0's two
  labels are sums of squared entries, and the quantum number is their difference. For finite inputs every amplitude is
  the cosine or sine of a real half angle, so the whole expression is the coercion of a real polynomial in those, which
  the real computation identifies with the product of the full-angle cosines.
-/
import proofs.«125050_j21938692948013_1_alg».proof.Proof.RefState
import proofs.«125050_j21938692948013_1_alg».proof.Proof.RefCosSin
import proofs.«125050_j21938692948013_1_alg».proof.Proof.Spec
import proofs.«125050_j21938692948013_1_alg».proof.Proof.Consts
import proofs.«125050_j21938692948013_1_alg».proof.Proof.QuantumReal
import proofs.«125050_j21938692948013_1_alg».proof.Proof.RefGates
import proofs.«125050_j21938692948013_1_alg».proof.Proof.RefProbs
import Idealize.ShloMosaic.PureOps.Ideal.Laws

noncomputable section

open scoped BigOperators

namespace Cert.QuantumEq

open Cert.ReferenceIdeal Cert.ReferenceIdeal.Gen Idealize.ShloMosaic Idealize.ShloMosaic.ValueIdx Cert.Ix8 Cert.QForm

/-- An amplitude of two real numbers is a real number. -/
theorem ampl_coe (x y : ℝ) (b : Fin 2) : ampl (x : EReal) (y : EReal) b = ((ampR x y b : ℝ) : EReal) := by
  unfold ampl ampR
  split <;> rfl

/-- A sum over a label of coercions of reals is the coercion of the real sum. -/
theorem coe_sum2 (f : Fin 2 → ℝ) : (∑ b : Fin 2, ((f b : ℝ) : EReal)) = ((∑ b : Fin 2, f b : ℝ) : EReal) := by
  rw [Fin.sum_univ_two, Fin.sum_univ_two, EReal.coe_add]

variable (c s : (⟨S262144x7, .f32⟩ : BufTy).Contents (Elt Ideal)) (r : Fin 262144)

/-- The state after the ring of gates at `(r, b0, …, b6)`: the product state read at the permuted labels. -/
theorem ring_apply (b0 b1 b2 b3 b4 b5 b6 : Fin 2) :
    Cert.RefStages.s126 (F := Ideal) (Cert.RefStages.s122 (F := Ideal) (Cert.RefStages.s118 (F := Ideal) (Cert.RefStages.s114 (F := Ideal) (Cert.RefStages.s110 (F := Ideal) (Cert.RefStages.s106 (F := Ideal) (Cert.RefStages.s102 (F := Ideal) (Cert.RefStages.s98 (F := Ideal) (Cert.RefStages.state7 (F := Ideal) c s)))))))) (ix8 r b0 b1 b2 b3 b4 b5 b6)
      = Ideal.ofBits .f32 0x3F800000#32
        * ampl (c (ix2 r 0)) (s (ix2 r 0)) (cx b6 b0)
        * ampl (c (ix2 r 1)) (s (ix2 r 1)) (cx (cx b6 b0) b1)
        * ampl (c (ix2 r 2)) (s (ix2 r 2)) (cx b1 b2)
        * ampl (c (ix2 r 3)) (s (ix2 r 3)) (cx b2 b3)
        * ampl (c (ix2 r 4)) (s (ix2 r 4)) (cx b3 b4)
        * ampl (c (ix2 r 5)) (s (ix2 r 5)) (cx b4 b5)
        * ampl (c (ix2 r 6)) (s (ix2 r 6)) (cx b5 b6) := by
  rw [Cert.RefGates.s126_apply, Cert.RefGates.s122_apply, Cert.RefGates.s118_apply, Cert.RefGates.s114_apply,
    Cert.RefGates.s110_apply, Cert.RefGates.s106_apply, Cert.RefGates.s102_apply, Cert.RefState.state_apply]

variable (C S : Fin 7 → ℝ) (hc : ∀ i : Fin 7, c (ix2 r i) = ((C i : ℝ) : EReal))
  (hs : ∀ i : Fin 7, s (ix2 r i) = ((S i : ℝ) : EReal))

include hc hs in
/-- With real amplitudes the entry after the ring is the coercion of the real entry. -/
theorem ring_coe (b0 b1 b2 b3 b4 b5 b6 : Fin 2) :
    Cert.RefStages.s126 (F := Ideal) (Cert.RefStages.s122 (F := Ideal) (Cert.RefStages.s118 (F := Ideal) (Cert.RefStages.s114 (F := Ideal) (Cert.RefStages.s110 (F := Ideal) (Cert.RefStages.s106 (F := Ideal) (Cert.RefStages.s102 (F := Ideal) (Cert.RefStages.s98 (F := Ideal) (Cert.RefStages.state7 (F := Ideal) c s)))))))) (ix8 r b0 b1 b2 b3 b4 b5 b6)
      = ((entryR C S b0 b1 b2 b3 b4 b5 b6 : ℝ) : EReal) := by
  rw [ring_apply, hc 0, hs 0, hc 1, hs 1, hc 2, hs 2, hc 3, hs 3, hc 4, hs 4, hc 5, hs 5, hc 6, hs 6, Cert.Consts.ofBits_one]
  simp only [ampl_coe, ← EReal.coe_mul]
  rfl

include hc hs in
/-- With real amplitudes the probability of wire 0's label `b0` is the coercion of the real probability. -/
theorem prob_coe (b0 : Fin 2) :
    Cert.RefStages.s129 (F := Ideal) (Cert.RefStages.s126 (F := Ideal) (Cert.RefStages.s122 (F := Ideal) (Cert.RefStages.s118 (F := Ideal) (Cert.RefStages.s114 (F := Ideal) (Cert.RefStages.s110 (F := Ideal) (Cert.RefStages.s106 (F := Ideal) (Cert.RefStages.s102 (F := Ideal) (Cert.RefStages.s98 (F := Ideal) (Cert.RefStages.state7 (F := Ideal) c s))))))))) (ix2 r b0)
      = ((probR C S b0 : ℝ) : EReal) := by
  rw [Cert.RefGates.s129_apply, Ideal.ofBits_zero_f32, ← EReal.coe_zero]
  simp only [ring_coe c s r C S hc hs, ← EReal.coe_mul, coe_sum2, ← EReal.coe_add]
  rfl

/-- The reference's quantum number of sample `r`, for finite inputs. -/
theorem quantum_eq (x0 : (⟨S262144x7, .f32⟩ : BufTy).Contents (Elt Ideal)) (x2 : (⟨S7, .f32⟩ : BufTy).Contents (Elt Ideal))
    (h0 : ∀ i, ∃ x : ℝ, x0 i = (x : EReal)) (h2 : ∀ i, ∃ x : ℝ, x2 i = (x : EReal)) (r : Fin 262144) :
    Cert.RefStages.quantum (F := Ideal) x0 x2 (ix1 r) = Cert.Spec.cosProd x0 x2 r := by
  choose a ha using fun i : Fin 7 => h0 (ix2 r i)
  choose q hq using fun i : Fin 7 => h2 (ix1 i)
  have hc : ∀ i : Fin 7, Cert.RefStages.s5 (F := Ideal) x0 x2 (ix2 r i) = ((Real.cos (1 / 2 * (a i + q i)) : ℝ) : EReal) := fun i => by
    rw [Cert.RefState.s5_apply, ha, hq, Cert.Consts.ofBits_half, ← EReal.coe_add, ← EReal.coe_mul, Ideal.cos_coe]
  have hs : ∀ i : Fin 7, Cert.RefStages.s6 (F := Ideal) x0 x2 (ix2 r i) = ((Real.sin (1 / 2 * (a i + q i)) : ℝ) : EReal) := fun i => by
    rw [Cert.RefState.s6_apply, ha, hq, Cert.Consts.ofBits_half, ← EReal.coe_add, ← EReal.coe_mul, Ideal.sin_coe]
  unfold Cert.RefStages.quantum
  rw [Cert.RefGates.s134_apply,
    prob_coe _ _ r (fun i => Real.cos (1 / 2 * (a i + q i))) (fun i => Real.sin (1 / 2 * (a i + q i))) hc hs 0,
    prob_coe _ _ r (fun i => Real.cos (1 / 2 * (a i + q i))) (fun i => Real.sin (1 / 2 * (a i + q i))) hc hs 1,
    ← EReal.coe_sub, quantumR]
  unfold Cert.Spec.cosProd Cert.Spec.cosAt
  simp only [ha, hq, ← EReal.coe_add, Ideal.cos_coe, ← EReal.coe_mul]

end Cert.QuantumEq

end
-- ==== Proof.RefOps.lean ====
/-
  The reference program's @main as the list of its host operations, and that list cut into stretches.

  `ops` lists the 158 operations in program order (a called function's operations stand where it is called). The
  list is the concatenation of a head — eighteen stretches, one per stage of the state-vector computation — and a
  tail, the perceptron. Buffer contents after a concatenation are the contents after the second list from the
  contents after the first (`after_append`), which is what lets each stretch be read by itself.
-/
import proofs.«125050_j21938692948013_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 158 operations, in order. -/
abbrev ops : List (HloOp τ sig (Elt F)) :=
  [ unary main_arg2 main_v0 (broadcastInDim S1x7 ![1] bcast_S7_S1x7_1 : (⟨S7, .f32⟩ : BufTy).Contents (Elt F) → (⟨S1x7, .f32⟩ : BufTy).Contents (Elt F)),
    unary main_v0 main_v1 (broadcastInDim S262144x7 ![0, 1] bcast_S1x7_S262144x7_0_1 : (⟨S1x7, .f32⟩ : BufTy).Contents (Elt F) → (⟨S262144x7, .f32⟩ : BufTy).Contents (Elt F)),
    binary main_arg0 main_v1 main_v2 (addf : (⟨S262144x7, .f32⟩ : BufTy).Contents (Elt F) → (⟨S262144x7, .f32⟩ : BufTy).Contents (Elt F) → (⟨S262144x7, .f32⟩ : BufTy).Contents (Elt F)),
    nullary main_cst (constant S_ .f32 0x3F000000#32),
    unary main_cst main_v3 (broadcastInDim S262144x7 ![] bcast_S_S262144x7 : (⟨S_, .f32⟩ : BufTy).Contents (Elt F) → (⟨S262144x7, .f32⟩ : BufTy).Contents (Elt F)),
    binary main_v3 main_v2 main_v4 (mulf : (⟨S262144x7, .f32⟩ : BufTy).Contents (Elt F) → (⟨S262144x7, .f32⟩ : BufTy).Contents (Elt F) → (⟨S262144x7, .f32⟩ : BufTy).Contents (Elt F)),
    unary main_v4 main_v5 (Host.cos : (⟨S262144x7, .f32⟩ : BufTy).Contents (Elt F) → (⟨S262144x7, .f32⟩ : BufTy).Contents (Elt F)),
    unary main_v4 main_v6 (Host.sin : (⟨S262144x7, .f32⟩ : BufTy).Contents (Elt F) → (⟨S262144x7, .f32⟩ : BufTy).Contents (Elt F)),
    nullary main_cst_0 (constant S_ .f32 0x3F800000#32),
    unary main_cst_0 main_v7 (broadcastInDim S262144x1 ![] bcast_S_S262144x1 : (⟨S_, .f32⟩ : BufTy).Contents (Elt F) → (⟨S262144x1, .f32⟩ : BufTy).Contents (Elt F)),
    unary main_v5 main_v8 ((extractStridedSlice S262144x1 ![0, 0] · slices_S262144x7_S262144x1_0_0) : (⟨S262144x7, .f32⟩ : BufTy).Contents (Elt F) → (⟨S262144x1, .f32⟩ : BufTy).Contents (Elt F)),
    reshape main_v8 main_v9 rfl shapeCasts_S262144x1_S262144,
    unary main_v6 main_v10 ((extractStridedSlice S262144x1 ![0, 0] · slices_S262144x7_S262144x1_0_0) : (⟨S262144x7, .f32⟩ : BufTy).Contents (Elt F) → (⟨S262144x1, .f32⟩ : BufTy).Contents (Elt F)),
    reshape main_v10 main_v11 rfl shapeCasts_S262144x1_S262144,
    unary main_v9 main_v12 (broadcastInDim S262144x1 ![0] bcast_S262144_S262144x1_0 : (⟨S262144, .f32⟩ : BufTy).Contents (Elt F) → (⟨S262144x1, .f32⟩ : BufTy).Contents (Elt F)),
    unary main_v11 main_v13 (broadcastInDim S262144x1 ![0] bcast_S262144_S262144x1_0 : (⟨S262144, .f32⟩ : BufTy).Contents (Elt F) → (⟨S262144x1, .f32⟩ : BufTy).Contents (Elt F)),
    binary main_v12 main_v13 main_v14 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v7 main_v15 (broadcastInDim S262144x1x1 ![0, 1] bcast_S262144x1_S262144x1x1_0_1 : (⟨S262144x1, .f32⟩ : BufTy).Contents (Elt F) → (⟨S262144x1x1, .f32⟩ : BufTy).Contents (Elt F)),
    unary main_v14 main_v16 (broadcastInDim S262144x1x2 ![0, 2] bcast_S262144x2_S262144x1x2_0_2 : (⟨S262144x2, .f32⟩ : BufTy).Contents (Elt F) → (⟨S262144x1x2, .f32⟩ : BufTy).Contents (Elt F)),
    unary main_v15 main_v17 (broadcastInDim S262144x1x2 ![0, 1, 2] bcast_S262144x1x1_S262144x1x2_0_1_2 : (⟨S262144x1x1, .f32⟩ : BufTy).Contents (Elt F) → (⟨S262144x1x2, .f32⟩ : BufTy).Contents (Elt F)),
    binary main_v17 main_v16 main_v18 (mulf : (⟨S262144x1x2, .f32⟩ : BufTy).Contents (Elt F) → (⟨S262144x1x2, .f32⟩ : BufTy).Contents (Elt F) → (⟨S262144x1x2, .f32⟩ : BufTy).Contents (Elt F)),
    reshape main_v18 main_v19 rfl shapeCasts_S262144x1x2_S262144x2,
    unary main_v5 main_v20 ((extractStridedSlice S262144x1 ![0, 1] · slices_S262144x7_S262144x1_0_1) : (⟨S262144x7, .f32⟩ : BufTy).Contents (Elt F) → (⟨S262144x1, .f32⟩ : BufTy).Contents (Elt F)),
    reshape main_v20 main_v21 rfl shapeCasts_S262144x1_S262144,
    unary main_v6 main_v22 ((extractStridedSlice S262144x1 ![0, 1] · slices_S262144x7_S262144x1_0_1) : (⟨S262144x7, .f32⟩ : BufTy).Contents (Elt F) → (⟨S262144x1, .f32⟩ : BufTy).Contents (Elt F)),
    reshape main_v22 main_v23 rfl shapeCasts_S262144x1_S262144,
    unary main_v21 main_v24 (broadcastInDim S262144x1 ![0] bcast_S262144_S262144x1_0 : (⟨S262144, .f32⟩ : BufTy).Contents (Elt F) → (⟨S262144x1, .f32⟩ : BufTy).Contents (Elt F)),
    unary main_v23 main_v25 (broadcastInDim S262144x1 ![0] bcast_S262144_S262144x1_0 : (⟨S262144, .f32⟩ : BufTy).Contents (Elt F) → (⟨S262144x1, .f32⟩ : BufTy).Contents (Elt F)),
    binary main_v24 main_v25 main_v26 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v19 main_v27 (broadcastInDim S262144x2x1 ![0, 1] bcast_S262144x2_S262144x2x1_0_1 : (⟨S262144x2, .f32⟩ : BufTy).Contents (Elt F) → (⟨S262144x2x1, .f32⟩ : BufTy).Contents (Elt F)),
    unary main_v26 main_v28 (broadcastInDim S262144x1x2 ![0, 2] bcast_S262144x2_S262144x1x2_0_2 : (⟨S262144x2, .f32⟩ : BufTy).Contents (Elt F) → (⟨S262144x1x2, .f32⟩ : BufTy).Contents (Elt F)),
    unary main_v27 main_v29 (broadcastInDim S262144x2x2 ![0, 1, 2] bcast_S262144x2x1_S262144x2x2_0_1_2 : (⟨S262144x2x1, .f32⟩ : BufTy).Contents (Elt F) → (⟨S262144x2x2, .f32⟩ : BufTy).Contents (Elt F)),
    unary main_v28 main_v30 (broadcastInDim S262144x2x2 ![0, 1, 2] bcast_S262144x1x2_S262144x2x2_0_1_2 : (⟨S262144x1x2, .f32⟩ : BufTy).Contents (Elt F) → (⟨S262144x2x2, .f32⟩ : BufTy).Contents (Elt F)),
    binary main_v29 main_v30 main_v31 (mulf : (⟨S262144x2x2, .f32⟩ : BufTy).Contents (Elt F) → (⟨S262144x2x2, .f32⟩ : BufTy).Contents (Elt F) → (⟨S262144x2x2, .f32⟩ : BufTy).Contents (Elt F)),
    reshape main_v31 main_v32 rfl shapeCasts_S262144x2x2_S262144x4,
    unary main_v5 main_v33 ((extractStridedSlice S262144x1 ![0, 2] · slices_S262144x7_S262144x1_0_2) : (⟨S262144x7, .f32⟩ : BufTy).Contents (Elt F) → (⟨S262144x1, .f32⟩ : BufTy).Contents (Elt F)),
    reshape main_v33 main_v34 rfl shapeCasts_S262144x1_S262144,
    unary main_v6 main_v35 ((extractStridedSlice S262144x1 ![0, 2] · slices_S262144x7_S262144x1_0_2) : (⟨S262144x7, .f32⟩ : BufTy).Contents (Elt F) → (⟨S262144x1, .f32⟩ : BufTy).Contents (Elt F)),
    reshape main_v35 main_v36 rfl shapeCasts_S262144x1_S262144,
    unary main_v34 main_v37 (broadcastInDim S262144x1 ![0] bcast_S262144_S262144x1_0 : (⟨S262144, .f32⟩ : BufTy).Contents (Elt F) → (⟨S262144x1, .f32⟩ : BufTy).Contents (Elt F)),
    unary main_v36 main_v38 (broadcastInDim S262144x1 ![0] bcast_S262144_S262144x1_0 : (⟨S262144, .f32⟩ : BufTy).Contents (Elt F) → (⟨S262144x1, .f32⟩ : BufTy).Contents (Elt F)),
    binary main_v37 main_v38 main_v39 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v32 main_v40 (broadcastInDim S262144x4x1 ![0, 1] bcast_S262144x4_S262144x4x1_0_1 : (⟨S262144x4, .f32⟩ : BufTy).Contents (Elt F) → (⟨S262144x4x1, .f32⟩ : BufTy).Contents (Elt F)),
    unary main_v39 main_v41 (broadcastInDim S262144x1x2 ![0, 2] bcast_S262144x2_S262144x1x2_0_2 : (⟨S262144x2, .f32⟩ : BufTy).Contents (Elt F) → (⟨S262144x1x2, .f32⟩ : BufTy).Contents (Elt F)),
    unary main_v40 main_v42 (broadcastInDim S262144x4x2 ![0, 1, 2] bcast_S262144x4x1_S262144x4x2_0_1_2 : (⟨S262144x4x1, .f32⟩ : BufTy).Contents (Elt F) → (⟨S262144x4x2, .f32⟩ : BufTy).Contents (Elt F)),
    unary main_v41 main_v43 (broadcastInDim S262144x4x2 ![0, 1, 2] bcast_S262144x1x2_S262144x4x2_0_1_2 : (⟨S262144x1x2, .f32⟩ : BufTy).Contents (Elt F) → (⟨S262144x4x2, .f32⟩ : BufTy).Contents (Elt F)),
    binary main_v42 main_v43 main_v44 (mulf : (⟨S262144x4x2, .f32⟩ : BufTy).Contents (Elt F) → (⟨S262144x4x2, .f32⟩ : BufTy).Contents (Elt F) → (⟨S262144x4x2, .f32⟩ : BufTy).Contents (Elt F)),
    reshape main_v44 main_v45 rfl shapeCasts_S262144x4x2_S262144x8,
    unary main_v5 main_v46 ((extractStridedSlice S262144x1 ![0, 3] · slices_S262144x7_S262144x1_0_3) : (⟨S262144x7, .f32⟩ : BufTy).Contents (Elt F) → (⟨S262144x1, .f32⟩ : BufTy).Contents (Elt F)),
    reshape main_v46 main_v47 rfl shapeCasts_S262144x1_S262144,
    unary main_v6 main_v48 ((extractStridedSlice S262144x1 ![0, 3] · slices_S262144x7_S262144x1_0_3) : (⟨S262144x7, .f32⟩ : BufTy).Contents (Elt F) → (⟨S262144x1, .f32⟩ : BufTy).Contents (Elt F)),
    reshape main_v48 main_v49 rfl shapeCasts_S262144x1_S262144,
    unary main_v47 main_v50 (broadcastInDim S262144x1 ![0] bcast_S262144_S262144x1_0 : (⟨S262144, .f32⟩ : BufTy).Contents (Elt F) → (⟨S262144x1, .f32⟩ : BufTy).Contents (Elt F)),
    unary main_v49 main_v51 (broadcastInDim S262144x1 ![0] bcast_S262144_S262144x1_0 : (⟨S262144, .f32⟩ : BufTy).Contents (Elt F) → (⟨S262144x1, .f32⟩ : BufTy).Contents (Elt F)),
    binary main_v50 main_v51 main_v52 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v45 main_v53 (broadcastInDim S262144x8x1 ![0, 1] bcast_S262144x8_S262144x8x1_0_1 : (⟨S262144x8, .f32⟩ : BufTy).Contents (Elt F) → (⟨S262144x8x1, .f32⟩ : BufTy).Contents (Elt F)),
    unary main_v52 main_v54 (broadcastInDim S262144x1x2 ![0, 2] bcast_S262144x2_S262144x1x2_0_2 : (⟨S262144x2, .f32⟩ : BufTy).Contents (Elt F) → (⟨S262144x1x2, .f32⟩ : BufTy).Contents (Elt F)),
    unary main_v53 main_v55 (broadcastInDim S262144x8x2 ![0, 1, 2] bcast_S262144x8x1_S262144x8x2_0_1_2 : (⟨S262144x8x1, .f32⟩ : BufTy).Contents (Elt F) → (⟨S262144x8x2, .f32⟩ : BufTy).Contents (Elt F)),
    unary main_v54 main_v56 (broadcastInDim S262144x8x2 ![0, 1, 2] bcast_S262144x1x2_S262144x8x2_0_1_2 : (⟨S262144x1x2, .f32⟩ : BufTy).Contents (Elt F) → (⟨S262144x8x2, .f32⟩ : BufTy).Contents (Elt F)),
    binary main_v55 main_v56 main_v57 (mulf : (⟨S262144x8x2, .f32⟩ : BufTy).Contents (Elt F) → (⟨S262144x8x2, .f32⟩ : BufTy).Contents (Elt F) → (⟨S262144x8x2, .f32⟩ : BufTy).Contents (Elt F)),
    reshape main_v57 main_v58 rfl shapeCasts_S262144x8x2_S262144x16,
    unary main_v5 main_v59 ((extractStridedSlice S262144x1 ![0, 4] · slices_S262144x7_S262144x1_0_4) : (⟨S262144x7, .f32⟩ : BufTy).Contents (Elt F) → (⟨S262144x1, .f32⟩ : BufTy).Contents (Elt F)),
    reshape main_v59 main_v60 rfl shapeCasts_S262144x1_S262144,
    unary main_v6 main_v61 ((extractStridedSlice S262144x1 ![0, 4] · slices_S262144x7_S262144x1_0_4) : (⟨S262144x7, .f32⟩ : BufTy).Contents (Elt F) → (⟨S262144x1, .f32⟩ : BufTy).Contents (Elt F)),
    reshape main_v61 main_v62 rfl shapeCasts_S262144x1_S262144,
    unary main_v60 main_v63 (broadcastInDim S262144x1 ![0] bcast_S262144_S262144x1_0 : (⟨S262144, .f32⟩ : BufTy).Contents (Elt F) → (⟨S262144x1, .f32⟩ : BufTy).Contents (Elt F)),
    unary main_v62 main_v64 (broadcastInDim S262144x1 ![0] bcast_S262144_S262144x1_0 : (⟨S262144, .f32⟩ : BufTy).Contents (Elt F) → (⟨S262144x1, .f32⟩ : BufTy).Contents (Elt F)),
    binary main_v63 main_v64 main_v65 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v58 main_v66 (broadcastInDim S262144x16x1 ![0, 1] bcast_S262144x16_S262144x16x1_0_1 : (⟨S262144x16, .f32⟩ : BufTy).Contents (Elt F) → (⟨S262144x16x1, .f32⟩ : BufTy).Contents (Elt F)),
    unary main_v65 main_v67 (broadcastInDim S262144x1x2 ![0, 2] bcast_S262144x2_S262144x1x2_0_2 : (⟨S262144x2, .f32⟩ : BufTy).Contents (Elt F) → (⟨S262144x1x2, .f32⟩ : BufTy).Contents (Elt F)),
    unary main_v66 main_v68 (broadcastInDim S262144x16x2 ![0, 1, 2] bcast_S262144x16x1_S262144x16x2_0_1_2 : (⟨S262144x16x1, .f32⟩ : BufTy).Contents (Elt F) → (⟨S262144x16x2, .f32⟩ : BufTy).Contents (Elt F)),
    unary main_v67 main_v69 (broadcastInDim S262144x16x2 ![0, 1, 2] bcast_S262144x1x2_S262144x16x2_0_1_2 : (⟨S262144x1x2, .f32⟩ : BufTy).Contents (Elt F) → (⟨S262144x16x2, .f32⟩ : BufTy).Contents (Elt F)),
    binary main_v68 main_v69 main_v70 (mulf : (⟨S262144x16x2, .f32⟩ : BufTy).Contents (Elt F) → (⟨S262144x16x2, .f32⟩ : BufTy).Contents (Elt F) → (⟨S262144x16x2, .f32⟩ : BufTy).Contents (Elt F)),
    reshape main_v70 main_v71 rfl shapeCasts_S262144x16x2_S262144x32,
    unary main_v5 main_v72 ((extractStridedSlice S262144x1 ![0, 5] · slices_S262144x7_S262144x1_0_5) : (⟨S262144x7, .f32⟩ : BufTy).Contents (Elt F) → (⟨S262144x1, .f32⟩ : BufTy).Contents (Elt F)),
    reshape main_v72 main_v73 rfl shapeCasts_S262144x1_S262144,
    unary main_v6 main_v74 ((extractStridedSlice S262144x1 ![0, 5] · slices_S262144x7_S262144x1_0_5) : (⟨S262144x7, .f32⟩ : BufTy).Contents (Elt F) → (⟨S262144x1, .f32⟩ : BufTy).Contents (Elt F)),
    reshape main_v74 main_v75 rfl shapeCasts_S262144x1_S262144,
    unary main_v73 main_v76 (broadcastInDim S262144x1 ![0] bcast_S262144_S262144x1_0 : (⟨S262144, .f32⟩ : BufTy).Contents (Elt F) → (⟨S262144x1, .f32⟩ : BufTy).Contents (Elt F)),
    unary main_v75 main_v77 (broadcastInDim S262144x1 ![0] bcast_S262144_S262144x1_0 : (⟨S262144, .f32⟩ : BufTy).Contents (Elt F) → (⟨S262144x1, .f32⟩ : BufTy).Contents (Elt F)),
    binary main_v76 main_v77 main_v78 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v71 main_v79 (broadcastInDim S262144x32x1 ![0, 1] bcast_S262144x32_S262144x32x1_0_1 : (⟨S262144x32, .f32⟩ : BufTy).Contents (Elt F) → (⟨S262144x32x1, .f32⟩ : BufTy).Contents (Elt F)),
    unary main_v78 main_v80 (broadcastInDim S262144x1x2 ![0, 2] bcast_S262144x2_S262144x1x2_0_2 : (⟨S262144x2, .f32⟩ : BufTy).Contents (Elt F) → (⟨S262144x1x2, .f32⟩ : BufTy).Contents (Elt F)),
    unary main_v79 main_v81 (broadcastInDim S262144x32x2 ![0, 1, 2] bcast_S262144x32x1_S262144x32x2_0_1_2 : (⟨S262144x32x1, .f32⟩ : BufTy).Contents (Elt F) → (⟨S262144x32x2, .f32⟩ : BufTy).Contents (Elt F)),
    unary main_v80 main_v82 (broadcastInDim S262144x32x2 ![0, 1, 2] bcast_S262144x1x2_S262144x32x2_0_1_2 : (⟨S262144x1x2, .f32⟩ : BufTy).Contents (Elt F) → (⟨S262144x32x2, .f32⟩ : BufTy).Contents (Elt F)),
    binary main_v81 main_v82 main_v83 (mulf : (⟨S262144x32x2, .f32⟩ : BufTy).Contents (Elt F) → (⟨S262144x32x2, .f32⟩ : BufTy).Contents (Elt F) → (⟨S262144x32x2, .f32⟩ : BufTy).Contents (Elt F)),
    reshape main_v83 main_v84 rfl shapeCasts_S262144x32x2_S262144x64,
    unary main_v5 main_v85 ((extractStridedSlice S262144x1 ![0, 6] · slices_S262144x7_S262144x1_0_6) : (⟨S262144x7, .f32⟩ : BufTy).Contents (Elt F) → (⟨S262144x1, .f32⟩ : BufTy).Contents (Elt F)),
    reshape main_v85 main_v86 rfl shapeCasts_S262144x1_S262144,
    unary main_v6 main_v87 ((extractStridedSlice S262144x1 ![0, 6] · slices_S262144x7_S262144x1_0_6) : (⟨S262144x7, .f32⟩ : BufTy).Contents (Elt F) → (⟨S262144x1, .f32⟩ : BufTy).Contents (Elt F)),
    reshape main_v87 main_v88 rfl shapeCasts_S262144x1_S262144,
    unary main_v86 main_v89 (broadcastInDim S262144x1 ![0] bcast_S262144_S262144x1_0 : (⟨S262144, .f32⟩ : BufTy).Contents (Elt F) → (⟨S262144x1, .f32⟩ : BufTy).Contents (Elt F)),
    unary main_v88 main_v90 (broadcastInDim S262144x1 ![0] bcast_S262144_S262144x1_0 : (⟨S262144, .f32⟩ : BufTy).Contents (Elt F) → (⟨S262144x1, .f32⟩ : BufTy).Contents (Elt F)),
    binary main_v89 main_v90 main_v91 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v84 main_v92 (broadcastInDim S262144x64x1 ![0, 1] bcast_S262144x64_S262144x64x1_0_1 : (⟨S262144x64, .f32⟩ : BufTy).Contents (Elt F) → (⟨S262144x64x1, .f32⟩ : BufTy).Contents (Elt F)),
    unary main_v91 main_v93 (broadcastInDim S262144x1x2 ![0, 2] bcast_S262144x2_S262144x1x2_0_2 : (⟨S262144x2, .f32⟩ : BufTy).Contents (Elt F) → (⟨S262144x1x2, .f32⟩ : BufTy).Contents (Elt F)),
    unary main_v92 main_v94 (broadcastInDim S262144x64x2 ![0, 1, 2] bcast_S262144x64x1_S262144x64x2_0_1_2 : (⟨S262144x64x1, .f32⟩ : BufTy).Contents (Elt F) → (⟨S262144x64x2, .f32⟩ : BufTy).Contents (Elt F)),
    unary main_v93 main_v95 (broadcastInDim S262144x64x2 ![0, 1, 2] bcast_S262144x1x2_S262144x64x2_0_1_2 : (⟨S262144x1x2, .f32⟩ : BufTy).Contents (Elt F) → (⟨S262144x64x2, .f32⟩ : BufTy).Contents (Elt F)),
    binary main_v94 main_v95 main_v96 (mulf : (⟨S262144x64x2, .f32⟩ : BufTy).Contents (Elt F) → (⟨S262144x64x2, .f32⟩ : BufTy).Contents (Elt F) → (⟨S262144x64x2, .f32⟩ : BufTy).Contents (Elt F)),
    reshape main_v96 main_v97 rfl shapeCasts_S262144x64x2_S262144x128,
    reshape main_v97 main_v98 rfl shapeCasts_S262144x128_S262144x2x2x2x2x2x2x2,
    unary main_v98 main_v99 ((extractStridedSlice S262144x1x2x2x2x2x2x2 ![0, 0, 0, 0, 0, 0, 0, 0] · slices_S262144x2x2x2x2x2x2x2_S262144x1x2x2x2x2x2x2_0_0_0_0_0_0_0_0) : (⟨S262144x2x2x2x2x2x2x2, .f32⟩ : BufTy).Contents (Elt F) → (⟨S262144x1x2x2x2x2x2x2, .f32⟩ : BufTy).Contents (Elt F)),
    unary main_v98 main_v100 ((extractStridedSlice S262144x1x2x2x2x2x2x2 ![0, 1, 0, 0, 0, 0, 0, 0] · slices_S262144x2x2x2x2x2x2x2_S262144x1x2x2x2x2x2x2_0_1_0_0_0_0_0_0) : (⟨S262144x2x2x2x2x2x2x2, .f32⟩ : BufTy).Contents (Elt F) → (⟨S262144x1x2x2x2x2x2x2, .f32⟩ : BufTy).Contents (Elt F)),
    TRef.unary (TRef.of (T := ⟨S262144x1x2x2x2x2x2x2, .f32⟩) main_v100) (TRef.of (T := ⟨S262144x1x2x2x2x2x2x2, .f32⟩) main_v101) (Host.reverse [2]),
    binary main_v99 main_v101 main_v102 ((fun a b => concatenate S262144x2x2x2x2x2x2x2 1 [⟨S262144x1x2x2x2x2x2x2, a⟩, ⟨S262144x1x2x2x2x2x2x2, b⟩] concatenates_S262144x1x2x2x2x2x2x2_S262144x1x2x2x2x2x2x2_S262144x2x2x2x2x2x2x2_d1) : (⟨S262144x1x2x2x2x2x2x2, .f32⟩ : BufTy).Contents (Elt F) → (⟨S262144x1x2x2x2x2x2x2, .f32⟩ : BufTy).Contents (Elt F) → (⟨S262144x2x2x2x2x2x2x2, .f32⟩ : BufTy).Contents (Elt F)),
    unary main_v102 main_v103 ((extractStridedSlice S262144x2x1x2x2x2x2x2 ![0, 0, 0, 0, 0, 0, 0, 0] · slices_S262144x2x2x2x2x2x2x2_S262144x2x1x2x2x2x2x2_0_0_0_0_0_0_0_0) : (⟨S262144x2x2x2x2x2x2x2, .f32⟩ : BufTy).Contents (Elt F) → (⟨S262144x2x1x2x2x2x2x2, .f32⟩ : BufTy).Contents (Elt F)),
    unary main_v102 main_v104 ((extractStridedSlice S262144x2x1x2x2x2x2x2 ![0, 0, 1, 0, 0, 0, 0, 0] · slices_S262144x2x2x2x2x2x2x2_S262144x2x1x2x2x2x2x2_0_0_1_0_0_0_0_0) : (⟨S262144x2x2x2x2x2x2x2, .f32⟩ : BufTy).Contents (Elt F) → (⟨S262144x2x1x2x2x2x2x2, .f32⟩ : BufTy).Contents (Elt F)),
    TRef.unary (TRef.of (T := ⟨S262144x2x1x2x2x2x2x2, .f32⟩) main_v104) (TRef.of (T := ⟨S262144x2x1x2x2x2x2x2, .f32⟩) main_v105) (Host.reverse [3]),
    binary main_v103 main_v105 main_v106 ((fun a b => concatenate S262144x2x2x2x2x2x2x2 2 [⟨S262144x2x1x2x2x2x2x2, a⟩, ⟨S262144x2x1x2x2x2x2x2, b⟩] concatenates_S262144x2x1x2x2x2x2x2_S262144x2x1x2x2x2x2x2_S262144x2x2x2x2x2x2x2_d2) : (⟨S262144x2x1x2x2x2x2x2, .f32⟩ : BufTy).Contents (Elt F) → (⟨S262144x2x1x2x2x2x2x2, .f32⟩ : BufTy).Contents (Elt F) → (⟨S262144x2x2x2x2x2x2x2, .f32⟩ : BufTy).Contents (Elt F)),
    unary main_v106 main_v107 ((extractStridedSlice S262144x2x2x1x2x2x2x2 ![0, 0, 0, 0, 0, 0, 0, 0] · slices_S262144x2x2x2x2x2x2x2_S262144x2x2x1x2x2x2x2_0_0_0_0_0_0_0_0) : (⟨S262144x2x2x2x2x2x2x2, .f32⟩ : BufTy).Contents (Elt F) → (⟨S262144x2x2x1x2x2x2x2, .f32⟩ : BufTy).Contents (Elt F)),
    unary main_v106 main_v108 ((extractStridedSlice S262144x2x2x1x2x2x2x2 ![0, 0, 0, 1, 0, 0, 0, 0] · slices_S262144x2x2x2x2x2x2x2_S262144x2x2x1x2x2x2x2_0_0_0_1_0_0_0_0) : (⟨S262144x2x2x2x2x2x2x2, .f32⟩ : BufTy).Contents (Elt F) → (⟨S262144x2x2x1x2x2x2x2, .f32⟩ : BufTy).Contents (Elt F)),
    TRef.unary (TRef.of (T := ⟨S262144x2x2x1x2x2x2x2, .f32⟩) main_v108) (TRef.of (T := ⟨S262144x2x2x1x2x2x2x2, .f32⟩) main_v109) (Host.reverse [4]),
    binary main_v107 main_v109 main_v110 ((fun a b => concatenate S262144x2x2x2x2x2x2x2 3 [⟨S262144x2x2x1x2x2x2x2, a⟩, ⟨S262144x2x2x1x2x2x2x2, b⟩] concatenates_S262144x2x2x1x2x2x2x2_S262144x2x2x1x2x2x2x2_S262144x2x2x2x2x2x2x2_d3) : (⟨S262144x2x2x1x2x2x2x2, .f32⟩ : BufTy).Contents (Elt F) → (⟨S262144x2x2x1x2x2x2x2, .f32⟩ : BufTy).Contents (Elt F) → (⟨S262144x2x2x2x2x2x2x2, .f32⟩ : BufTy).Contents (Elt F)),
    unary main_v110 main_v111 ((extractStridedSlice S262144x2x2x2x1x2x2x2 ![0, 0, 0, 0, 0, 0, 0, 0] · slices_S262144x2x2x2x2x2x2x2_S262144x2x2x2x1x2x2x2_0_0_0_0_0_0_0_0) : (⟨S262144x2x2x2x2x2x2x2, .f32⟩ : BufTy).Contents (Elt F) → (⟨S262144x2x2x2x1x2x2x2, .f32⟩ : BufTy).Contents (Elt F)),
    unary main_v110 main_v112 ((extractStridedSlice S262144x2x2x2x1x2x2x2 ![0, 0, 0, 0, 1, 0, 0, 0] · slices_S262144x2x2x2x2x2x2x2_S262144x2x2x2x1x2x2x2_0_0_0_0_1_0_0_0) : (⟨S262144x2x2x2x2x2x2x2, .f32⟩ : BufTy).Contents (Elt F) → (⟨S262144x2x2x2x1x2x2x2, .f32⟩ : BufTy).Contents (Elt F)),
    TRef.unary (TRef.of (T := ⟨S262144x2x2x2x1x2x2x2, .f32⟩) main_v112) (TRef.of (T := ⟨S262144x2x2x2x1x2x2x2, .f32⟩) main_v113) (Host.reverse [5]),
    binary main_v111 main_v113 main_v114 ((fun a b => concatenate S262144x2x2x2x2x2x2x2 4 [⟨S262144x2x2x2x1x2x2x2, a⟩, ⟨S262144x2x2x2x1x2x2x2, b⟩] concatenates_S262144x2x2x2x1x2x2x2_S262144x2x2x2x1x2x2x2_S262144x2x2x2x2x2x2x2_d4) : (⟨S262144x2x2x2x1x2x2x2, .f32⟩ : BufTy).Contents (Elt F) → (⟨S262144x2x2x2x1x2x2x2, .f32⟩ : BufTy).Contents (Elt F) → (⟨S262144x2x2x2x2x2x2x2, .f32⟩ : BufTy).Contents (Elt F)),
    unary main_v114 main_v115 ((extractStridedSlice S262144x2x2x2x2x1x2x2 ![0, 0, 0, 0, 0, 0, 0, 0] · slices_S262144x2x2x2x2x2x2x2_S262144x2x2x2x2x1x2x2_0_0_0_0_0_0_0_0) : (⟨S262144x2x2x2x2x2x2x2, .f32⟩ : BufTy).Contents (Elt F) → (⟨S262144x2x2x2x2x1x2x2, .f32⟩ : BufTy).Contents (Elt F)),
    unary main_v114 main_v116 ((extractStridedSlice S262144x2x2x2x2x1x2x2 ![0, 0, 0, 0, 0, 1, 0, 0] · slices_S262144x2x2x2x2x2x2x2_S262144x2x2x2x2x1x2x2_0_0_0_0_0_1_0_0) : (⟨S262144x2x2x2x2x2x2x2, .f32⟩ : BufTy).Contents (Elt F) → (⟨S262144x2x2x2x2x1x2x2, .f32⟩ : BufTy).Contents (Elt F)),
    TRef.unary (TRef.of (T := ⟨S262144x2x2x2x2x1x2x2, .f32⟩) main_v116) (TRef.of (T := ⟨S262144x2x2x2x2x1x2x2, .f32⟩) main_v117) (Host.reverse [6]),
    binary main_v115 main_v117 main_v118 ((fun a b => concatenate S262144x2x2x2x2x2x2x2 5 [⟨S262144x2x2x2x2x1x2x2, a⟩, ⟨S262144x2x2x2x2x1x2x2, b⟩] concatenates_S262144x2x2x2x2x1x2x2_S262144x2x2x2x2x1x2x2_S262144x2x2x2x2x2x2x2_d5) : (⟨S262144x2x2x2x2x1x2x2, .f32⟩ : BufTy).Contents (Elt F) → (⟨S262144x2x2x2x2x1x2x2, .f32⟩ : BufTy).Contents (Elt F) → (⟨S262144x2x2x2x2x2x2x2, .f32⟩ : BufTy).Contents (Elt F)),
    unary main_v118 main_v119 ((extractStridedSlice S262144x2x2x2x2x2x1x2 ![0, 0, 0, 0, 0, 0, 0, 0] · slices_S262144x2x2x2x2x2x2x2_S262144x2x2x2x2x2x1x2_0_0_0_0_0_0_0_0) : (⟨S262144x2x2x2x2x2x2x2, .f32⟩ : BufTy).Contents (Elt F) → (⟨S262144x2x2x2x2x2x1x2, .f32⟩ : BufTy).Contents (Elt F)),
    unary main_v118 main_v120 ((extractStridedSlice S262144x2x2x2x2x2x1x2 ![0, 0, 0, 0, 0, 0, 1, 0] · slices_S262144x2x2x2x2x2x2x2_S262144x2x2x2x2x2x1x2_0_0_0_0_0_0_1_0) : (⟨S262144x2x2x2x2x2x2x2, .f32⟩ : BufTy).Contents (Elt F) → (⟨S262144x2x2x2x2x2x1x2, .f32⟩ : BufTy).Contents (Elt F)),
    TRef.unary (TRef.of (T := ⟨S262144x2x2x2x2x2x1x2, .f32⟩) main_v120) (TRef.of (T := ⟨S262144x2x2x2x2x2x1x2, .f32⟩) main_v121) (Host.reverse [7]),
    binary main_v119 main_v121 main_v122 ((fun a b => concatenate S262144x2x2x2x2x2x2x2 6 [⟨S262144x2x2x2x2x2x1x2, a⟩, ⟨S262144x2x2x2x2x2x1x2, b⟩] concatenates_S262144x2x2x2x2x2x1x2_S262144x2x2x2x2x2x1x2_S262144x2x2x2x2x2x2x2_d6) : (⟨S262144x2x2x2x2x2x1x2, .f32⟩ : BufTy).Contents (Elt F) → (⟨S262144x2x2x2x2x2x1x2, .f32⟩ : BufTy).Contents (Elt F) → (⟨S262144x2x2x2x2x2x2x2, .f32⟩ : BufTy).Contents (Elt F)),
    unary main_v122 main_v123 ((extractStridedSlice S262144x2x2x2x2x2x2x1 ![0, 0, 0, 0, 0, 0, 0, 0] · slices_S262144x2x2x2x2x2x2x2_S262144x2x2x2x2x2x2x1_0_0_0_0_0_0_0_0) : (⟨S262144x2x2x2x2x2x2x2, .f32⟩ : BufTy).Contents (Elt F) → (⟨S262144x2x2x2x2x2x2x1, .f32⟩ : BufTy).Contents (Elt F)),
    unary main_v122 main_v124 ((extractStridedSlice S262144x2x2x2x2x2x2x1 ![0, 0, 0, 0, 0, 0, 0, 1] · slices_S262144x2x2x2x2x2x2x2_S262144x2x2x2x2x2x2x1_0_0_0_0_0_0_0_1) : (⟨S262144x2x2x2x2x2x2x2, .f32⟩ : BufTy).Contents (Elt F) → (⟨S262144x2x2x2x2x2x2x1, .f32⟩ : BufTy).Contents (Elt F)),
    TRef.unary (TRef.of (T := ⟨S262144x2x2x2x2x2x2x1, .f32⟩) main_v124) (TRef.of (T := ⟨S262144x2x2x2x2x2x2x1, .f32⟩) main_v125) (Host.reverse [1]),
    binary main_v123 main_v125 main_v126 ((fun a b => concatenate S262144x2x2x2x2x2x2x2 7 [⟨S262144x2x2x2x2x2x2x1, a⟩, ⟨S262144x2x2x2x2x2x2x1, b⟩] concatenates_S262144x2x2x2x2x2x2x1_S262144x2x2x2x2x2x2x1_S262144x2x2x2x2x2x2x2_d7) : (⟨S262144x2x2x2x2x2x2x1, .f32⟩ : BufTy).Contents (Elt F) → (⟨S262144x2x2x2x2x2x2x1, .f32⟩ : BufTy).Contents (Elt F) → (⟨S262144x2x2x2x2x2x2x2, .f32⟩ : BufTy).Contents (Elt F)),
    binary main_v126 main_v126 main_v127 (mulf : (⟨S262144x2x2x2x2x2x2x2, .f32⟩ : BufTy).Contents (Elt F) → (⟨S262144x2x2x2x2x2x2x2, .f32⟩ : BufTy).Contents (Elt F) → (⟨S262144x2x2x2x2x2x2x2, .f32⟩ : BufTy).Contents (Elt F)),
    reshape main_v127 main_v128 rfl shapeCasts_S262144x2x2x2x2x2x2x2_S262144x2x64,
    nullary main_cst_1 (constant S_ .f32 0x00000000#32),
    binary main_v128 main_cst_1 main_v129 ((fun x v => Host.reduceAdd x v reducesTo_S262144x2x64_S262144x2_d2 h_S_) : (⟨S262144x2x64, .f32⟩ : BufTy).Contents (Elt F) → (⟨S_, .f32⟩ : BufTy).Contents (Elt F) → (⟨S262144x2, .f32⟩ : BufTy).Contents (Elt F)),
    unary main_v129 main_v130 ((extractStridedSlice S262144x1 ![0, 0] · slices_S262144x2_S262144x1_0_0) : (⟨S262144x2, .f32⟩ : BufTy).Contents (Elt F) → (⟨S262144x1, .f32⟩ : BufTy).Contents (Elt F)),
    reshape main_v130 main_v131 rfl shapeCasts_S262144x1_S262144,
    unary main_v129 main_v132 ((extractStridedSlice S262144x1 ![0, 1] · slices_S262144x2_S262144x1_0_1) : (⟨S262144x2, .f32⟩ : BufTy).Contents (Elt F) → (⟨S262144x1, .f32⟩ : BufTy).Contents (Elt F)),
    reshape main_v132 main_v133 rfl shapeCasts_S262144x1_S262144,
    binary main_v131 main_v133 main_v134 (subf : (⟨S262144, .f32⟩ : BufTy).Contents (Elt F) → (⟨S262144, .f32⟩ : BufTy).Contents (Elt F) → (⟨S262144, .f32⟩ : BufTy).Contents (Elt F)),
    unary main_v134 main_v135 (broadcastInDim S262144x1 ![0] bcast_S262144_S262144x1_0 : (⟨S262144, .f32⟩ : BufTy).Contents (Elt F) → (⟨S262144x1, .f32⟩ : BufTy).Contents (Elt F)),
    binary main_v135 main_arg1 main_v136 ((fun a b => concatenate S262144x17 1 [⟨S262144x1, a⟩, ⟨S262144x16, b⟩] concatenates_S262144x1_S262144x16_S262144x17_d1) : (⟨S262144x1, .f32⟩ : BufTy).Contents (Elt F) → (⟨S262144x16, .f32⟩ : BufTy).Contents (Elt F) → (⟨S262144x17, .f32⟩ : BufTy).Contents (Elt F)),
    binary main_v136 main_arg3 main_v137 ((fun l r => Host.dotGeneral dot_S262144x17_S17x32_S262144x32_1_0_0_1_n_n none l r) : (⟨S262144x17, .f32⟩ : BufTy).Contents (Elt F) → (⟨S17x32, .f32⟩ : BufTy).Contents (Elt F) → (⟨S262144x32, .f32⟩ : BufTy).Contents (Elt F)),
    unary main_arg4 main_v138 (broadcastInDim S1x32 ![1] bcast_S32_S1x32_1 : (⟨S32, .f32⟩ : BufTy).Contents (Elt F) → (⟨S1x32, .f32⟩ : BufTy).Contents (Elt F)),
    unary main_v138 main_v139 (broadcastInDim S262144x32 ![0, 1] bcast_S1x32_S262144x32_0_1 : (⟨S1x32, .f32⟩ : BufTy).Contents (Elt F) → (⟨S262144x32, .f32⟩ : BufTy).Contents (Elt F)),
    binary main_v137 main_v139 main_v140 (addf : (⟨S262144x32, .f32⟩ : BufTy).Contents (Elt F) → (⟨S262144x32, .f32⟩ : BufTy).Contents (Elt F) → (⟨S262144x32, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S262144x32, .f32⟩) main_call7_v0) (broadcastInDim S262144x32 ![] bcast_S_S262144x32),
    TRef.binary (TRef.of (T := ⟨S262144x32, .f32⟩) main_v140) (TRef.of (T := ⟨S262144x32, .f32⟩) main_call7_v0) (TRef.of (T := ⟨S262144x32, .f32⟩) main_v141) maximumf,
    binary main_v141 main_arg5 main_v142 ((fun l r => Host.dotGeneral dot_S262144x32_S32x16_S262144x16_1_0_0_1_n_n none l r) : (⟨S262144x32, .f32⟩ : BufTy).Contents (Elt F) → (⟨S32x16, .f32⟩ : BufTy).Contents (Elt F) → (⟨S262144x16, .f32⟩ : BufTy).Contents (Elt F)),
    unary main_arg6 main_v143 (broadcastInDim S1x16 ![1] bcast_S16_S1x16_1 : (⟨S16, .f32⟩ : BufTy).Contents (Elt F) → (⟨S1x16, .f32⟩ : BufTy).Contents (Elt F)),
    unary main_v143 main_v144 (broadcastInDim S262144x16 ![0, 1] bcast_S1x16_S262144x16_0_1 : (⟨S1x16, .f32⟩ : BufTy).Contents (Elt F) → (⟨S262144x16, .f32⟩ : BufTy).Contents (Elt F)),
    binary main_v142 main_v144 main_v145 (addf : (⟨S262144x16, .f32⟩ : BufTy).Contents (Elt F) → (⟨S262144x16, .f32⟩ : BufTy).Contents (Elt F) → (⟨S262144x16, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S262144x16, .f32⟩) main_call8_v0) (broadcastInDim S262144x16 ![] bcast_S_S262144x16),
    TRef.binary (TRef.of (T := ⟨S262144x16, .f32⟩) main_v145) (TRef.of (T := ⟨S262144x16, .f32⟩) main_call8_v0) (TRef.of (T := ⟨S262144x16, .f32⟩) main_v146) maximumf,
    binary main_v146 main_arg7 main_v147 ((fun l r => Host.dotGeneral dot_S262144x16_S16x1_S262144x1_1_0_0_1_n_n none l r) : (⟨S262144x16, .f32⟩ : BufTy).Contents (Elt F) → (⟨S16x1, .f32⟩ : BufTy).Contents (Elt F) → (⟨S262144x1, .f32⟩ : BufTy).Contents (Elt F)),
    unary main_arg8 main_v148 (broadcastInDim S1x1 ![1] bcast_S1_S1x1_1 : (⟨S1, .f32⟩ : BufTy).Contents (Elt F) → (⟨S1x1, .f32⟩ : BufTy).Contents (Elt F)),
    unary main_v148 main_v149 (broadcastInDim S262144x1 ![0, 1] bcast_S1x1_S262144x1_0_1 : (⟨S1x1, .f32⟩ : BufTy).Contents (Elt F) → (⟨S262144x1, .f32⟩ : BufTy).Contents (Elt F)),
    binary main_v147 main_v149 main_v150 (addf : (⟨S262144x1, .f32⟩ : BufTy).Contents (Elt F) → (⟨S262144x1, .f32⟩ : BufTy).Contents (Elt F) → (⟨S262144x1, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., nullary_bufs_sub .., unary_bufs_sub .., unary_bufs_sub .., reshape_bufs_sub .., unary_bufs_sub .., reshape_bufs_sub .., unary_bufs_sub .., unary_bufs_sub .., binary_bufs_sub .., unary_bufs_sub .., unary_bufs_sub .., unary_bufs_sub .., binary_bufs_sub .., reshape_bufs_sub .., unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub .., unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub .., unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub .., unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub .., unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub .., unary_bufs_sub .., reshape_bufs_sub .., unary_bufs_sub .., reshape_bufs_sub .., unary_bufs_sub .., unary_bufs_sub .., binary_bufs_sub .., unary_bufs_sub .., unary_bufs_sub .., unary_bufs_sub .., unary_bufs_sub .., binary_bufs_sub .., reshape_bufs_sub .., reshape_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., binary_bufs_sub .., reshape_bufs_sub .., nullary_bufs_sub .., binary_bufs_sub .., unary_bufs_sub .., reshape_bufs_sub .., unary_bufs_sub .., reshape_bufs_sub .., binary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- The contents after two lists run one after the other. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ## The stretches -/

/-- Operations 0 … 7. -/
abbrev w0 : List (HloOp τ sig (Elt F)) :=
  [ unary main_arg2 main_v0 (broadcastInDim S1x7 ![1] bcast_S7_S1x7_1 : (⟨S7, .f32⟩ : BufTy).Contents (Elt F) → (⟨S1x7, .f32⟩ : BufTy).Contents (Elt F)),
    unary main_v0 main_v1 (broadcastInDim S262144x7 ![0, 1] bcast_S1x7_S262144x7_0_1 : (⟨S1x7, .f32⟩ : BufTy).Contents (Elt F) → (⟨S262144x7, .f32⟩ : BufTy).Contents (Elt F)),
    binary main_arg0 main_v1 main_v2 (addf : (⟨S262144x7, .f32⟩ : BufTy).Contents (Elt F) → (⟨S262144x7, .f32⟩ : BufTy).Contents (Elt F) → (⟨S262144x7, .f32⟩ : BufTy).Contents (Elt F)),
    nullary main_cst (constant S_ .f32 0x3F000000#32),
    unary main_cst main_v3 (broadcastInDim S262144x7 ![] bcast_S_S262144x7 : (⟨S_, .f32⟩ : BufTy).Contents (Elt F) → (⟨S262144x7, .f32⟩ : BufTy).Contents (Elt F)),
    binary main_v3 main_v2 main_v4 (mulf : (⟨S262144x7, .f32⟩ : BufTy).Contents (Elt F) → (⟨S262144x7, .f32⟩ : BufTy).Contents (Elt F) → (⟨S262144x7, .f32⟩ : BufTy).Contents (Elt F)),
    unary main_v4 main_v5 (Host.cos : (⟨S262144x7, .f32⟩ : BufTy).Contents (Elt F) → (⟨S262144x7, .f32⟩ : BufTy).Contents (Elt F)),
    unary main_v4 main_v6 (Host.sin : (⟨S262144x7, .f32⟩ : BufTy).Contents (Elt F) → (⟨S262144x7, .f32⟩ : BufTy).Contents (Elt F)) ]

/-- Operations 8 … 21. -/
abbrev wq0 : List (HloOp τ sig (Elt F)) :=
  [ nullary main_cst_0 (constant S_ .f32 0x3F800000#32),
    unary main_cst_0 main_v7 (broadcastInDim S262144x1 ![] bcast_S_S262144x1 : (⟨S_, .f32⟩ : BufTy).Contents (Elt F) → (⟨S262144x1, .f32⟩ : BufTy).Contents (Elt F)),
    unary main_v5 main_v8 ((extractStridedSlice S262144x1 ![0, 0] · slices_S262144x7_S262144x1_0_0) : (⟨S262144x7, .f32⟩ : BufTy).Contents (Elt F) → (⟨S262144x1, .f32⟩ : BufTy).Contents (Elt F)),
    reshape main_v8 main_v9 rfl shapeCasts_S262144x1_S262144,
    unary main_v6 main_v10 ((extractStridedSlice S262144x1 ![0, 0] · slices_S262144x7_S262144x1_0_0) : (⟨S262144x7, .f32⟩ : BufTy).Contents (Elt F) → (⟨S262144x1, .f32⟩ : BufTy).Contents (Elt F)),
    reshape main_v10 main_v11 rfl shapeCasts_S262144x1_S262144,
    unary main_v9 main_v12 (broadcastInDim S262144x1 ![0] bcast_S262144_S262144x1_0 : (⟨S262144, .f32⟩ : BufTy).Contents (Elt F) → (⟨S262144x1, .f32⟩ : BufTy).Contents (Elt F)),
    unary main_v11 main_v13 (broadcastInDim S262144x1 ![0] bcast_S262144_S262144x1_0 : (⟨S262144, .f32⟩ : BufTy).Contents (Elt F) → (⟨S262144x1, .f32⟩ : BufTy).Contents (Elt F)),
    binary main_v12 main_v13 main_v14 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v7 main_v15 (broadcastInDim S262144x1x1 ![0, 1] bcast_S262144x1_S262144x1x1_0_1 : (⟨S262144x1, .f32⟩ : BufTy).Contents (Elt F) → (⟨S262144x1x1, .f32⟩ : BufTy).Contents (Elt F)),
    unary main_v14 main_v16 (broadcastInDim S262144x1x2 ![0, 2] bcast_S262144x2_S262144x1x2_0_2 : (⟨S262144x2, .f32⟩ : BufTy).Contents (Elt F) → (⟨S262144x1x2, .f32⟩ : BufTy).Contents (Elt F)),
    unary main_v15 main_v17 (broadcastInDim S262144x1x2 ![0, 1, 2] bcast_S262144x1x1_S262144x1x2_0_1_2 : (⟨S262144x1x1, .f32⟩ : BufTy).Contents (Elt F) → (⟨S262144x1x2, .f32⟩ : BufTy).Contents (Elt F)),
    binary main_v17 main_v16 main_v18 (mulf : (⟨S262144x1x2, .f32⟩ : BufTy).Contents (Elt F) → (⟨S262144x1x2, .f32⟩ : BufTy).Contents (Elt F) → (⟨S262144x1x2, .f32⟩ : BufTy).Contents (Elt F)),
    reshape main_v18 main_v19 rfl shapeCasts_S262144x1x2_S262144x2 ]

/-- Operations 22 … 34. -/
abbrev wq1 : List (HloOp τ sig (Elt F)) :=
  [ unary main_v5 main_v20 ((extractStridedSlice S262144x1 ![0, 1] · slices_S262144x7_S262144x1_0_1) : (⟨S262144x7, .f32⟩ : BufTy).Contents (Elt F) → (⟨S262144x1, .f32⟩ : BufTy).Contents (Elt F)),
    reshape main_v20 main_v21 rfl shapeCasts_S262144x1_S262144,
    unary main_v6 main_v22 ((extractStridedSlice S262144x1 ![0, 1] · slices_S262144x7_S262144x1_0_1) : (⟨S262144x7, .f32⟩ : BufTy).Contents (Elt F) → (⟨S262144x1, .f32⟩ : BufTy).Contents (Elt F)),
    reshape main_v22 main_v23 rfl shapeCasts_S262144x1_S262144,
    unary main_v21 main_v24 (broadcastInDim S262144x1 ![0] bcast_S262144_S262144x1_0 : (⟨S262144, .f32⟩ : BufTy).Contents (Elt F) → (⟨S262144x1, .f32⟩ : BufTy).Contents (Elt F)),
    unary main_v23 main_v25 (broadcastInDim S262144x1 ![0] bcast_S262144_S262144x1_0 : (⟨S262144, .f32⟩ : BufTy).Contents (Elt F) → (⟨S262144x1, .f32⟩ : BufTy).Contents (Elt F)),
    binary main_v24 main_v25 main_v26 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v19 main_v27 (broadcastInDim S262144x2x1 ![0, 1] bcast_S262144x2_S262144x2x1_0_1 : (⟨S262144x2, .f32⟩ : BufTy).Contents (Elt F) → (⟨S262144x2x1, .f32⟩ : BufTy).Contents (Elt F)),
    unary main_v26 main_v28 (broadcastInDim S262144x1x2 ![0, 2] bcast_S262144x2_S262144x1x2_0_2 : (⟨S262144x2, .f32⟩ : BufTy).Contents (Elt F) → (⟨S262144x1x2, .f32⟩ : BufTy).Contents (Elt F)),
    unary main_v27 main_v29 (broadcastInDim S262144x2x2 ![0, 1, 2] bcast_S262144x2x1_S262144x2x2_0_1_2 : (⟨S262144x2x1, .f32⟩ : BufTy).Contents (Elt F) → (⟨S262144x2x2, .f32⟩ : BufTy).Contents (Elt F)),
    unary main_v28 main_v30 (broadcastInDim S262144x2x2 ![0, 1, 2] bcast_S262144x1x2_S262144x2x2_0_1_2 : (⟨S262144x1x2, .f32⟩ : BufTy).Contents (Elt F) → (⟨S262144x2x2, .f32⟩ : BufTy).Contents (Elt F)),
    binary main_v29 main_v30 main_v31 (mulf : (⟨S262144x2x2, .f32⟩ : BufTy).Contents (Elt F) → (⟨S262144x2x2, .f32⟩ : BufTy).Contents (Elt F) → (⟨S262144x2x2, .f32⟩ : BufTy).Contents (Elt F)),
    reshape main_v31 main_v32 rfl shapeCasts_S262144x2x2_S262144x4 ]

/-- Operations 35 … 47. -/
abbrev wq2 : List (HloOp τ sig (Elt F)) :=
  [ unary main_v5 main_v33 ((extractStridedSlice S262144x1 ![0, 2] · slices_S262144x7_S262144x1_0_2) : (⟨S262144x7, .f32⟩ : BufTy).Contents (Elt F) → (⟨S262144x1, .f32⟩ : BufTy).Contents (Elt F)),
    reshape main_v33 main_v34 rfl shapeCasts_S262144x1_S262144,
    unary main_v6 main_v35 ((extractStridedSlice S262144x1 ![0, 2] · slices_S262144x7_S262144x1_0_2) : (⟨S262144x7, .f32⟩ : BufTy).Contents (Elt F) → (⟨S262144x1, .f32⟩ : BufTy).Contents (Elt F)),
    reshape main_v35 main_v36 rfl shapeCasts_S262144x1_S262144,
    unary main_v34 main_v37 (broadcastInDim S262144x1 ![0] bcast_S262144_S262144x1_0 : (⟨S262144, .f32⟩ : BufTy).Contents (Elt F) → (⟨S262144x1, .f32⟩ : BufTy).Contents (Elt F)),
    unary main_v36 main_v38 (broadcastInDim S262144x1 ![0] bcast_S262144_S262144x1_0 : (⟨S262144, .f32⟩ : BufTy).Contents (Elt F) → (⟨S262144x1, .f32⟩ : BufTy).Contents (Elt F)),
    binary main_v37 main_v38 main_v39 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v32 main_v40 (broadcastInDim S262144x4x1 ![0, 1] bcast_S262144x4_S262144x4x1_0_1 : (⟨S262144x4, .f32⟩ : BufTy).Contents (Elt F) → (⟨S262144x4x1, .f32⟩ : BufTy).Contents (Elt F)),
    unary main_v39 main_v41 (broadcastInDim S262144x1x2 ![0, 2] bcast_S262144x2_S262144x1x2_0_2 : (⟨S262144x2, .f32⟩ : BufTy).Contents (Elt F) → (⟨S262144x1x2, .f32⟩ : BufTy).Contents (Elt F)),
    unary main_v40 main_v42 (broadcastInDim S262144x4x2 ![0, 1, 2] bcast_S262144x4x1_S262144x4x2_0_1_2 : (⟨S262144x4x1, .f32⟩ : BufTy).Contents (Elt F) → (⟨S262144x4x2, .f32⟩ : BufTy).Contents (Elt F)),
    unary main_v41 main_v43 (broadcastInDim S262144x4x2 ![0, 1, 2] bcast_S262144x1x2_S262144x4x2_0_1_2 : (⟨S262144x1x2, .f32⟩ : BufTy).Contents (Elt F) → (⟨S262144x4x2, .f32⟩ : BufTy).Contents (Elt F)),
    binary main_v42 main_v43 main_v44 (mulf : (⟨S262144x4x2, .f32⟩ : BufTy).Contents (Elt F) → (⟨S262144x4x2, .f32⟩ : BufTy).Contents (Elt F) → (⟨S262144x4x2, .f32⟩ : BufTy).Contents (Elt F)),
    reshape main_v44 main_v45 rfl shapeCasts_S262144x4x2_S262144x8 ]

/-- Operations 48 … 60. -/
abbrev wq3 : List (HloOp τ sig (Elt F)) :=
  [ unary main_v5 main_v46 ((extractStridedSlice S262144x1 ![0, 3] · slices_S262144x7_S262144x1_0_3) : (⟨S262144x7, .f32⟩ : BufTy).Contents (Elt F) → (⟨S262144x1, .f32⟩ : BufTy).Contents (Elt F)),
    reshape main_v46 main_v47 rfl shapeCasts_S262144x1_S262144,
    unary main_v6 main_v48 ((extractStridedSlice S262144x1 ![0, 3] · slices_S262144x7_S262144x1_0_3) : (⟨S262144x7, .f32⟩ : BufTy).Contents (Elt F) → (⟨S262144x1, .f32⟩ : BufTy).Contents (Elt F)),
    reshape main_v48 main_v49 rfl shapeCasts_S262144x1_S262144,
    unary main_v47 main_v50 (broadcastInDim S262144x1 ![0] bcast_S262144_S262144x1_0 : (⟨S262144, .f32⟩ : BufTy).Contents (Elt F) → (⟨S262144x1, .f32⟩ : BufTy).Contents (Elt F)),
    unary main_v49 main_v51 (broadcastInDim S262144x1 ![0] bcast_S262144_S262144x1_0 : (⟨S262144, .f32⟩ : BufTy).Contents (Elt F) → (⟨S262144x1, .f32⟩ : BufTy).Contents (Elt F)),
    binary main_v50 main_v51 main_v52 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v45 main_v53 (broadcastInDim S262144x8x1 ![0, 1] bcast_S262144x8_S262144x8x1_0_1 : (⟨S262144x8, .f32⟩ : BufTy).Contents (Elt F) → (⟨S262144x8x1, .f32⟩ : BufTy).Contents (Elt F)),
    unary main_v52 main_v54 (broadcastInDim S262144x1x2 ![0, 2] bcast_S262144x2_S262144x1x2_0_2 : (⟨S262144x2, .f32⟩ : BufTy).Contents (Elt F) → (⟨S262144x1x2, .f32⟩ : BufTy).Contents (Elt F)),
    unary main_v53 main_v55 (broadcastInDim S262144x8x2 ![0, 1, 2] bcast_S262144x8x1_S262144x8x2_0_1_2 : (⟨S262144x8x1, .f32⟩ : BufTy).Contents (Elt F) → (⟨S262144x8x2, .f32⟩ : BufTy).Contents (Elt F)),
    unary main_v54 main_v56 (broadcastInDim S262144x8x2 ![0, 1, 2] bcast_S262144x1x2_S262144x8x2_0_1_2 : (⟨S262144x1x2, .f32⟩ : BufTy).Contents (Elt F) → (⟨S262144x8x2, .f32⟩ : BufTy).Contents (Elt F)),
    binary main_v55 main_v56 main_v57 (mulf : (⟨S262144x8x2, .f32⟩ : BufTy).Contents (Elt F) → (⟨S262144x8x2, .f32⟩ : BufTy).Contents (Elt F) → (⟨S262144x8x2, .f32⟩ : BufTy).Contents (Elt F)),
    reshape main_v57 main_v58 rfl shapeCasts_S262144x8x2_S262144x16 ]

/-- Operations 61 … 73. -/
abbrev wq4 : List (HloOp τ sig (Elt F)) :=
  [ unary main_v5 main_v59 ((extractStridedSlice S262144x1 ![0, 4] · slices_S262144x7_S262144x1_0_4) : (⟨S262144x7, .f32⟩ : BufTy).Contents (Elt F) → (⟨S262144x1, .f32⟩ : BufTy).Contents (Elt F)),
    reshape main_v59 main_v60 rfl shapeCasts_S262144x1_S262144,
    unary main_v6 main_v61 ((extractStridedSlice S262144x1 ![0, 4] · slices_S262144x7_S262144x1_0_4) : (⟨S262144x7, .f32⟩ : BufTy).Contents (Elt F) → (⟨S262144x1, .f32⟩ : BufTy).Contents (Elt F)),
    reshape main_v61 main_v62 rfl shapeCasts_S262144x1_S262144,
    unary main_v60 main_v63 (broadcastInDim S262144x1 ![0] bcast_S262144_S262144x1_0 : (⟨S262144, .f32⟩ : BufTy).Contents (Elt F) → (⟨S262144x1, .f32⟩ : BufTy).Contents (Elt F)),
    unary main_v62 main_v64 (broadcastInDim S262144x1 ![0] bcast_S262144_S262144x1_0 : (⟨S262144, .f32⟩ : BufTy).Contents (Elt F) → (⟨S262144x1, .f32⟩ : BufTy).Contents (Elt F)),
    binary main_v63 main_v64 main_v65 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v58 main_v66 (broadcastInDim S262144x16x1 ![0, 1] bcast_S262144x16_S262144x16x1_0_1 : (⟨S262144x16, .f32⟩ : BufTy).Contents (Elt F) → (⟨S262144x16x1, .f32⟩ : BufTy).Contents (Elt F)),
    unary main_v65 main_v67 (broadcastInDim S262144x1x2 ![0, 2] bcast_S262144x2_S262144x1x2_0_2 : (⟨S262144x2, .f32⟩ : BufTy).Contents (Elt F) → (⟨S262144x1x2, .f32⟩ : BufTy).Contents (Elt F)),
    unary main_v66 main_v68 (broadcastInDim S262144x16x2 ![0, 1, 2] bcast_S262144x16x1_S262144x16x2_0_1_2 : (⟨S262144x16x1, .f32⟩ : BufTy).Contents (Elt F) → (⟨S262144x16x2, .f32⟩ : BufTy).Contents (Elt F)),
    unary main_v67 main_v69 (broadcastInDim S262144x16x2 ![0, 1, 2] bcast_S262144x1x2_S262144x16x2_0_1_2 : (⟨S262144x1x2, .f32⟩ : BufTy).Contents (Elt F) → (⟨S262144x16x2, .f32⟩ : BufTy).Contents (Elt F)),
    binary main_v68 main_v69 main_v70 (mulf : (⟨S262144x16x2, .f32⟩ : BufTy).Contents (Elt F) → (⟨S262144x16x2, .f32⟩ : BufTy).Contents (Elt F) → (⟨S262144x16x2, .f32⟩ : BufTy).Contents (Elt F)),
    reshape main_v70 main_v71 rfl shapeCasts_S262144x16x2_S262144x32 ]

/-- Operations 74 … 86. -/
abbrev wq5 : List (HloOp τ sig (Elt F)) :=
  [ unary main_v5 main_v72 ((extractStridedSlice S262144x1 ![0, 5] · slices_S262144x7_S262144x1_0_5) : (⟨S262144x7, .f32⟩ : BufTy).Contents (Elt F) → (⟨S262144x1, .f32⟩ : BufTy).Contents (Elt F)),
    reshape main_v72 main_v73 rfl shapeCasts_S262144x1_S262144,
    unary main_v6 main_v74 ((extractStridedSlice S262144x1 ![0, 5] · slices_S262144x7_S262144x1_0_5) : (⟨S262144x7, .f32⟩ : BufTy).Contents (Elt F) → (⟨S262144x1, .f32⟩ : BufTy).Contents (Elt F)),
    reshape main_v74 main_v75 rfl shapeCasts_S262144x1_S262144,
    unary main_v73 main_v76 (broadcastInDim S262144x1 ![0] bcast_S262144_S262144x1_0 : (⟨S262144, .f32⟩ : BufTy).Contents (Elt F) → (⟨S262144x1, .f32⟩ : BufTy).Contents (Elt F)),
    unary main_v75 main_v77 (broadcastInDim S262144x1 ![0] bcast_S262144_S262144x1_0 : (⟨S262144, .f32⟩ : BufTy).Contents (Elt F) → (⟨S262144x1, .f32⟩ : BufTy).Contents (Elt F)),
    binary main_v76 main_v77 main_v78 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v71 main_v79 (broadcastInDim S262144x32x1 ![0, 1] bcast_S262144x32_S262144x32x1_0_1 : (⟨S262144x32, .f32⟩ : BufTy).Contents (Elt F) → (⟨S262144x32x1, .f32⟩ : BufTy).Contents (Elt F)),
    unary main_v78 main_v80 (broadcastInDim S262144x1x2 ![0, 2] bcast_S262144x2_S262144x1x2_0_2 : (⟨S262144x2, .f32⟩ : BufTy).Contents (Elt F) → (⟨S262144x1x2, .f32⟩ : BufTy).Contents (Elt F)),
    unary main_v79 main_v81 (broadcastInDim S262144x32x2 ![0, 1, 2] bcast_S262144x32x1_S262144x32x2_0_1_2 : (⟨S262144x32x1, .f32⟩ : BufTy).Contents (Elt F) → (⟨S262144x32x2, .f32⟩ : BufTy).Contents (Elt F)),
    unary main_v80 main_v82 (broadcastInDim S262144x32x2 ![0, 1, 2] bcast_S262144x1x2_S262144x32x2_0_1_2 : (⟨S262144x1x2, .f32⟩ : BufTy).Contents (Elt F) → (⟨S262144x32x2, .f32⟩ : BufTy).Contents (Elt F)),
    binary main_v81 main_v82 main_v83 (mulf : (⟨S262144x32x2, .f32⟩ : BufTy).Contents (Elt F) → (⟨S262144x32x2, .f32⟩ : BufTy).Contents (Elt F) → (⟨S262144x32x2, .f32⟩ : BufTy).Contents (Elt F)),
    reshape main_v83 main_v84 rfl shapeCasts_S262144x32x2_S262144x64 ]

/-- Operations 87 … 99. -/
abbrev wq6 : List (HloOp τ sig (Elt F)) :=
  [ unary main_v5 main_v85 ((extractStridedSlice S262144x1 ![0, 6] · slices_S262144x7_S262144x1_0_6) : (⟨S262144x7, .f32⟩ : BufTy).Contents (Elt F) → (⟨S262144x1, .f32⟩ : BufTy).Contents (Elt F)),
    reshape main_v85 main_v86 rfl shapeCasts_S262144x1_S262144,
    unary main_v6 main_v87 ((extractStridedSlice S262144x1 ![0, 6] · slices_S262144x7_S262144x1_0_6) : (⟨S262144x7, .f32⟩ : BufTy).Contents (Elt F) → (⟨S262144x1, .f32⟩ : BufTy).Contents (Elt F)),
    reshape main_v87 main_v88 rfl shapeCasts_S262144x1_S262144,
    unary main_v86 main_v89 (broadcastInDim S262144x1 ![0] bcast_S262144_S262144x1_0 : (⟨S262144, .f32⟩ : BufTy).Contents (Elt F) → (⟨S262144x1, .f32⟩ : BufTy).Contents (Elt F)),
    unary main_v88 main_v90 (broadcastInDim S262144x1 ![0] bcast_S262144_S262144x1_0 : (⟨S262144, .f32⟩ : BufTy).Contents (Elt F) → (⟨S262144x1, .f32⟩ : BufTy).Contents (Elt F)),
    binary main_v89 main_v90 main_v91 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v84 main_v92 (broadcastInDim S262144x64x1 ![0, 1] bcast_S262144x64_S262144x64x1_0_1 : (⟨S262144x64, .f32⟩ : BufTy).Contents (Elt F) → (⟨S262144x64x1, .f32⟩ : BufTy).Contents (Elt F)),
    unary main_v91 main_v93 (broadcastInDim S262144x1x2 ![0, 2] bcast_S262144x2_S262144x1x2_0_2 : (⟨S262144x2, .f32⟩ : BufTy).Contents (Elt F) → (⟨S262144x1x2, .f32⟩ : BufTy).Contents (Elt F)),
    unary main_v92 main_v94 (broadcastInDim S262144x64x2 ![0, 1, 2] bcast_S262144x64x1_S262144x64x2_0_1_2 : (⟨S262144x64x1, .f32⟩ : BufTy).Contents (Elt F) → (⟨S262144x64x2, .f32⟩ : BufTy).Contents (Elt F)),
    unary main_v93 main_v95 (broadcastInDim S262144x64x2 ![0, 1, 2] bcast_S262144x1x2_S262144x64x2_0_1_2 : (⟨S262144x1x2, .f32⟩ : BufTy).Contents (Elt F) → (⟨S262144x64x2, .f32⟩ : BufTy).Contents (Elt F)),
    binary main_v94 main_v95 main_v96 (mulf : (⟨S262144x64x2, .f32⟩ : BufTy).Contents (Elt F) → (⟨S262144x64x2, .f32⟩ : BufTy).Contents (Elt F) → (⟨S262144x64x2, .f32⟩ : BufTy).Contents (Elt F)),
    reshape main_v96 main_v97 rfl shapeCasts_S262144x64x2_S262144x128 ]

/-- Operations 100 … 100. -/
abbrev w98 : List (HloOp τ sig (Elt F)) :=
  [ reshape main_v97 main_v98 rfl shapeCasts_S262144x128_S262144x2x2x2x2x2x2x2 ]

/-- Operations 101 … 104. -/
abbrev wc0 : List (HloOp τ sig (Elt F)) :=
  [ unary main_v98 main_v99 ((extractStridedSlice S262144x1x2x2x2x2x2x2 ![0, 0, 0, 0, 0, 0, 0, 0] · slices_S262144x2x2x2x2x2x2x2_S262144x1x2x2x2x2x2x2_0_0_0_0_0_0_0_0) : (⟨S262144x2x2x2x2x2x2x2, .f32⟩ : BufTy).Contents (Elt F) → (⟨S262144x1x2x2x2x2x2x2, .f32⟩ : BufTy).Contents (Elt F)),
    unary main_v98 main_v100 ((extractStridedSlice S262144x1x2x2x2x2x2x2 ![0, 1, 0, 0, 0, 0, 0, 0] · slices_S262144x2x2x2x2x2x2x2_S262144x1x2x2x2x2x2x2_0_1_0_0_0_0_0_0) : (⟨S262144x2x2x2x2x2x2x2, .f32⟩ : BufTy).Contents (Elt F) → (⟨S262144x1x2x2x2x2x2x2, .f32⟩ : BufTy).Contents (Elt F)),
    TRef.unary (TRef.of (T := ⟨S262144x1x2x2x2x2x2x2, .f32⟩) main_v100) (TRef.of (T := ⟨S262144x1x2x2x2x2x2x2, .f32⟩) main_v101) (Host.reverse [2]),
    binary main_v99 main_v101 main_v102 ((fun a b => concatenate S262144x2x2x2x2x2x2x2 1 [⟨S262144x1x2x2x2x2x2x2, a⟩, ⟨S262144x1x2x2x2x2x2x2, b⟩] concatenates_S262144x1x2x2x2x2x2x2_S262144x1x2x2x2x2x2x2_S262144x2x2x2x2x2x2x2_d1) : (⟨S262144x1x2x2x2x2x2x2, .f32⟩ : BufTy).Contents (Elt F) → (⟨S262144x1x2x2x2x2x2x2, .f32⟩ : BufTy).Contents (Elt F) → (⟨S262144x2x2x2x2x2x2x2, .f32⟩ : BufTy).Contents (Elt F)) ]

/-- Operations 105 … 108. -/
abbrev wc1 : List (HloOp τ sig (Elt F)) :=
  [ unary main_v102 main_v103 ((extractStridedSlice S262144x2x1x2x2x2x2x2 ![0, 0, 0, 0, 0, 0, 0, 0] · slices_S262144x2x2x2x2x2x2x2_S262144x2x1x2x2x2x2x2_0_0_0_0_0_0_0_0) : (⟨S262144x2x2x2x2x2x2x2, .f32⟩ : BufTy).Contents (Elt F) → (⟨S262144x2x1x2x2x2x2x2, .f32⟩ : BufTy).Contents (Elt F)),
    unary main_v102 main_v104 ((extractStridedSlice S262144x2x1x2x2x2x2x2 ![0, 0, 1, 0, 0, 0, 0, 0] · slices_S262144x2x2x2x2x2x2x2_S262144x2x1x2x2x2x2x2_0_0_1_0_0_0_0_0) : (⟨S262144x2x2x2x2x2x2x2, .f32⟩ : BufTy).Contents (Elt F) → (⟨S262144x2x1x2x2x2x2x2, .f32⟩ : BufTy).Contents (Elt F)),
    TRef.unary (TRef.of (T := ⟨S262144x2x1x2x2x2x2x2, .f32⟩) main_v104) (TRef.of (T := ⟨S262144x2x1x2x2x2x2x2, .f32⟩) main_v105) (Host.reverse [3]),
    binary main_v103 main_v105 main_v106 ((fun a b => concatenate S262144x2x2x2x2x2x2x2 2 [⟨S262144x2x1x2x2x2x2x2, a⟩, ⟨S262144x2x1x2x2x2x2x2, b⟩] concatenates_S262144x2x1x2x2x2x2x2_S262144x2x1x2x2x2x2x2_S262144x2x2x2x2x2x2x2_d2) : (⟨S262144x2x1x2x2x2x2x2, .f32⟩ : BufTy).Contents (Elt F) → (⟨S262144x2x1x2x2x2x2x2, .f32⟩ : BufTy).Contents (Elt F) → (⟨S262144x2x2x2x2x2x2x2, .f32⟩ : BufTy).Contents (Elt F)) ]

/-- Operations 109 … 112. -/
abbrev wc2 : List (HloOp τ sig (Elt F)) :=
  [ unary main_v106 main_v107 ((extractStridedSlice S262144x2x2x1x2x2x2x2 ![0, 0, 0, 0, 0, 0, 0, 0] · slices_S262144x2x2x2x2x2x2x2_S262144x2x2x1x2x2x2x2_0_0_0_0_0_0_0_0) : (⟨S262144x2x2x2x2x2x2x2, .f32⟩ : BufTy).Contents (Elt F) → (⟨S262144x2x2x1x2x2x2x2, .f32⟩ : BufTy).Contents (Elt F)),
    unary main_v106 main_v108 ((extractStridedSlice S262144x2x2x1x2x2x2x2 ![0, 0, 0, 1, 0, 0, 0, 0] · slices_S262144x2x2x2x2x2x2x2_S262144x2x2x1x2x2x2x2_0_0_0_1_0_0_0_0) : (⟨S262144x2x2x2x2x2x2x2, .f32⟩ : BufTy).Contents (Elt F) → (⟨S262144x2x2x1x2x2x2x2, .f32⟩ : BufTy).Contents (Elt F)),
    TRef.unary (TRef.of (T := ⟨S262144x2x2x1x2x2x2x2, .f32⟩) main_v108) (TRef.of (T := ⟨S262144x2x2x1x2x2x2x2, .f32⟩) main_v109) (Host.reverse [4]),
    binary main_v107 main_v109 main_v110 ((fun a b => concatenate S262144x2x2x2x2x2x2x2 3 [⟨S262144x2x2x1x2x2x2x2, a⟩, ⟨S262144x2x2x1x2x2x2x2, b⟩] concatenates_S262144x2x2x1x2x2x2x2_S262144x2x2x1x2x2x2x2_S262144x2x2x2x2x2x2x2_d3) : (⟨S262144x2x2x1x2x2x2x2, .f32⟩ : BufTy).Contents (Elt F) → (⟨S262144x2x2x1x2x2x2x2, .f32⟩ : BufTy).Contents (Elt F) → (⟨S262144x2x2x2x2x2x2x2, .f32⟩ : BufTy).Contents (Elt F)) ]

/-- Operations 113 … 116. -/
abbrev wc3 : List (HloOp τ sig (Elt F)) :=
  [ unary main_v110 main_v111 ((extractStridedSlice S262144x2x2x2x1x2x2x2 ![0, 0, 0, 0, 0, 0, 0, 0] · slices_S262144x2x2x2x2x2x2x2_S262144x2x2x2x1x2x2x2_0_0_0_0_0_0_0_0) : (⟨S262144x2x2x2x2x2x2x2, .f32⟩ : BufTy).Contents (Elt F) → (⟨S262144x2x2x2x1x2x2x2, .f32⟩ : BufTy).Contents (Elt F)),
    unary main_v110 main_v112 ((extractStridedSlice S262144x2x2x2x1x2x2x2 ![0, 0, 0, 0, 1, 0, 0, 0] · slices_S262144x2x2x2x2x2x2x2_S262144x2x2x2x1x2x2x2_0_0_0_0_1_0_0_0) : (⟨S262144x2x2x2x2x2x2x2, .f32⟩ : BufTy).Contents (Elt F) → (⟨S262144x2x2x2x1x2x2x2, .f32⟩ : BufTy).Contents (Elt F)),
    TRef.unary (TRef.of (T := ⟨S262144x2x2x2x1x2x2x2, .f32⟩) main_v112) (TRef.of (T := ⟨S262144x2x2x2x1x2x2x2, .f32⟩) main_v113) (Host.reverse [5]),
    binary main_v111 main_v113 main_v114 ((fun a b => concatenate S262144x2x2x2x2x2x2x2 4 [⟨S262144x2x2x2x1x2x2x2, a⟩, ⟨S262144x2x2x2x1x2x2x2, b⟩] concatenates_S262144x2x2x2x1x2x2x2_S262144x2x2x2x1x2x2x2_S262144x2x2x2x2x2x2x2_d4) : (⟨S262144x2x2x2x1x2x2x2, .f32⟩ : BufTy).Contents (Elt F) → (⟨S262144x2x2x2x1x2x2x2, .f32⟩ : BufTy).Contents (Elt F) → (⟨S262144x2x2x2x2x2x2x2, .f32⟩ : BufTy).Contents (Elt F)) ]

/-- Operations 117 … 120. -/
abbrev wc4 : List (HloOp τ sig (Elt F)) :=
  [ unary main_v114 main_v115 ((extractStridedSlice S262144x2x2x2x2x1x2x2 ![0, 0, 0, 0, 0, 0, 0, 0] · slices_S262144x2x2x2x2x2x2x2_S262144x2x2x2x2x1x2x2_0_0_0_0_0_0_0_0) : (⟨S262144x2x2x2x2x2x2x2, .f32⟩ : BufTy).Contents (Elt F) → (⟨S262144x2x2x2x2x1x2x2, .f32⟩ : BufTy).Contents (Elt F)),
    unary main_v114 main_v116 ((extractStridedSlice S262144x2x2x2x2x1x2x2 ![0, 0, 0, 0, 0, 1, 0, 0] · slices_S262144x2x2x2x2x2x2x2_S262144x2x2x2x2x1x2x2_0_0_0_0_0_1_0_0) : (⟨S262144x2x2x2x2x2x2x2, .f32⟩ : BufTy).Contents (Elt F) → (⟨S262144x2x2x2x2x1x2x2, .f32⟩ : BufTy).Contents (Elt F)),
    TRef.unary (TRef.of (T := ⟨S262144x2x2x2x2x1x2x2, .f32⟩) main_v116) (TRef.of (T := ⟨S262144x2x2x2x2x1x2x2, .f32⟩) main_v117) (Host.reverse [6]),
    binary main_v115 main_v117 main_v118 ((fun a b => concatenate S262144x2x2x2x2x2x2x2 5 [⟨S262144x2x2x2x2x1x2x2, a⟩, ⟨S262144x2x2x2x2x1x2x2, b⟩] concatenates_S262144x2x2x2x2x1x2x2_S262144x2x2x2x2x1x2x2_S262144x2x2x2x2x2x2x2_d5) : (⟨S262144x2x2x2x2x1x2x2, .f32⟩ : BufTy).Contents (Elt F) → (⟨S262144x2x2x2x2x1x2x2, .f32⟩ : BufTy).Contents (Elt F) → (⟨S262144x2x2x2x2x2x2x2, .f32⟩ : BufTy).Contents (Elt F)) ]

/-- Operations 121 … 124. -/
abbrev wc5 : List (HloOp τ sig (Elt F)) :=
  [ unary main_v118 main_v119 ((extractStridedSlice S262144x2x2x2x2x2x1x2 ![0, 0, 0, 0, 0, 0, 0, 0] · slices_S262144x2x2x2x2x2x2x2_S262144x2x2x2x2x2x1x2_0_0_0_0_0_0_0_0) : (⟨S262144x2x2x2x2x2x2x2, .f32⟩ : BufTy).Contents (Elt F) → (⟨S262144x2x2x2x2x2x1x2, .f32⟩ : BufTy).Contents (Elt F)),
    unary main_v118 main_v120 ((extractStridedSlice S262144x2x2x2x2x2x1x2 ![0, 0, 0, 0, 0, 0, 1, 0] · slices_S262144x2x2x2x2x2x2x2_S262144x2x2x2x2x2x1x2_0_0_0_0_0_0_1_0) : (⟨S262144x2x2x2x2x2x2x2, .f32⟩ : BufTy).Contents (Elt F) → (⟨S262144x2x2x2x2x2x1x2, .f32⟩ : BufTy).Contents (Elt F)),
    TRef.unary (TRef.of (T := ⟨S262144x2x2x2x2x2x1x2, .f32⟩) main_v120) (TRef.of (T := ⟨S262144x2x2x2x2x2x1x2, .f32⟩) main_v121) (Host.reverse [7]),
    binary main_v119 main_v121 main_v122 ((fun a b => concatenate S262144x2x2x2x2x2x2x2 6 [⟨S262144x2x2x2x2x2x1x2, a⟩, ⟨S262144x2x2x2x2x2x1x2, b⟩] concatenates_S262144x2x2x2x2x2x1x2_S262144x2x2x2x2x2x1x2_S262144x2x2x2x2x2x2x2_d6) : (⟨S262144x2x2x2x2x2x1x2, .f32⟩ : BufTy).Contents (Elt F) → (⟨S262144x2x2x2x2x2x1x2, .f32⟩ : BufTy).Contents (Elt F) → (⟨S262144x2x2x2x2x2x2x2, .f32⟩ : BufTy).Contents (Elt F)) ]

/-- Operations 125 … 128. -/
abbrev wc6 : List (HloOp τ sig (Elt F)) :=
  [ unary main_v122 main_v123 ((extractStridedSlice S262144x2x2x2x2x2x2x1 ![0, 0, 0, 0, 0, 0, 0, 0] · slices_S262144x2x2x2x2x2x2x2_S262144x2x2x2x2x2x2x1_0_0_0_0_0_0_0_0) : (⟨S262144x2x2x2x2x2x2x2, .f32⟩ : BufTy).Contents (Elt F) → (⟨S262144x2x2x2x2x2x2x1, .f32⟩ : BufTy).Contents (Elt F)),
    unary main_v122 main_v124 ((extractStridedSlice S262144x2x2x2x2x2x2x1 ![0, 0, 0, 0, 0, 0, 0, 1] · slices_S262144x2x2x2x2x2x2x2_S262144x2x2x2x2x2x2x1_0_0_0_0_0_0_0_1) : (⟨S262144x2x2x2x2x2x2x2, .f32⟩ : BufTy).Contents (Elt F) → (⟨S262144x2x2x2x2x2x2x1, .f32⟩ : BufTy).Contents (Elt F)),
    TRef.unary (TRef.of (T := ⟨S262144x2x2x2x2x2x2x1, .f32⟩) main_v124) (TRef.of (T := ⟨S262144x2x2x2x2x2x2x1, .f32⟩) main_v125) (Host.reverse [1]),
    binary main_v123 main_v125 main_v126 ((fun a b => concatenate S262144x2x2x2x2x2x2x2 7 [⟨S262144x2x2x2x2x2x2x1, a⟩, ⟨S262144x2x2x2x2x2x2x1, b⟩] concatenates_S262144x2x2x2x2x2x2x1_S262144x2x2x2x2x2x2x1_S262144x2x2x2x2x2x2x2_d7) : (⟨S262144x2x2x2x2x2x2x1, .f32⟩ : BufTy).Contents (Elt F) → (⟨S262144x2x2x2x2x2x2x1, .f32⟩ : BufTy).Contents (Elt F) → (⟨S262144x2x2x2x2x2x2x2, .f32⟩ : BufTy).Contents (Elt F)) ]

/-- Operations 129 … 132. -/
abbrev w129 : List (HloOp τ sig (Elt F)) :=
  [ binary main_v126 main_v126 main_v127 (mulf : (⟨S262144x2x2x2x2x2x2x2, .f32⟩ : BufTy).Contents (Elt F) → (⟨S262144x2x2x2x2x2x2x2, .f32⟩ : BufTy).Contents (Elt F) → (⟨S262144x2x2x2x2x2x2x2, .f32⟩ : BufTy).Contents (Elt F)),
    reshape main_v127 main_v128 rfl shapeCasts_S262144x2x2x2x2x2x2x2_S262144x2x64,
    nullary main_cst_1 (constant S_ .f32 0x00000000#32),
    binary main_v128 main_cst_1 main_v129 ((fun x v => Host.reduceAdd x v reducesTo_S262144x2x64_S262144x2_d2 h_S_) : (⟨S262144x2x64, .f32⟩ : BufTy).Contents (Elt F) → (⟨S_, .f32⟩ : BufTy).Contents (Elt F) → (⟨S262144x2, .f32⟩ : BufTy).Contents (Elt F)) ]

/-- Operations 133 … 137. -/
abbrev w134 : List (HloOp τ sig (Elt F)) :=
  [ unary main_v129 main_v130 ((extractStridedSlice S262144x1 ![0, 0] · slices_S262144x2_S262144x1_0_0) : (⟨S262144x2, .f32⟩ : BufTy).Contents (Elt F) → (⟨S262144x1, .f32⟩ : BufTy).Contents (Elt F)),
    reshape main_v130 main_v131 rfl shapeCasts_S262144x1_S262144,
    unary main_v129 main_v132 ((extractStridedSlice S262144x1 ![0, 1] · slices_S262144x2_S262144x1_0_1) : (⟨S262144x2, .f32⟩ : BufTy).Contents (Elt F) → (⟨S262144x1, .f32⟩ : BufTy).Contents (Elt F)),
    reshape main_v132 main_v133 rfl shapeCasts_S262144x1_S262144,
    binary main_v131 main_v133 main_v134 (subf : (⟨S262144, .f32⟩ : BufTy).Contents (Elt F) → (⟨S262144, .f32⟩ : BufTy).Contents (Elt F) → (⟨S262144, .f32⟩ : BufTy).Contents (Elt F)) ]

/-- Operations 138 … 157. -/
abbrev wTail : List (HloOp τ sig (Elt F)) :=
  [ unary main_v134 main_v135 (broadcastInDim S262144x1 ![0] bcast_S262144_S262144x1_0 : (⟨S262144, .f32⟩ : BufTy).Contents (Elt F) → (⟨S262144x1, .f32⟩ : BufTy).Contents (Elt F)),
    binary main_v135 main_arg1 main_v136 ((fun a b => concatenate S262144x17 1 [⟨S262144x1, a⟩, ⟨S262144x16, b⟩] concatenates_S262144x1_S262144x16_S262144x17_d1) : (⟨S262144x1, .f32⟩ : BufTy).Contents (Elt F) → (⟨S262144x16, .f32⟩ : BufTy).Contents (Elt F) → (⟨S262144x17, .f32⟩ : BufTy).Contents (Elt F)),
    binary main_v136 main_arg3 main_v137 ((fun l r => Host.dotGeneral dot_S262144x17_S17x32_S262144x32_1_0_0_1_n_n none l r) : (⟨S262144x17, .f32⟩ : BufTy).Contents (Elt F) → (⟨S17x32, .f32⟩ : BufTy).Contents (Elt F) → (⟨S262144x32, .f32⟩ : BufTy).Contents (Elt F)),
    unary main_arg4 main_v138 (broadcastInDim S1x32 ![1] bcast_S32_S1x32_1 : (⟨S32, .f32⟩ : BufTy).Contents (Elt F) → (⟨S1x32, .f32⟩ : BufTy).Contents (Elt F)),
    unary main_v138 main_v139 (broadcastInDim S262144x32 ![0, 1] bcast_S1x32_S262144x32_0_1 : (⟨S1x32, .f32⟩ : BufTy).Contents (Elt F) → (⟨S262144x32, .f32⟩ : BufTy).Contents (Elt F)),
    binary main_v137 main_v139 main_v140 (addf : (⟨S262144x32, .f32⟩ : BufTy).Contents (Elt F) → (⟨S262144x32, .f32⟩ : BufTy).Contents (Elt F) → (⟨S262144x32, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S262144x32, .f32⟩) main_call7_v0) (broadcastInDim S262144x32 ![] bcast_S_S262144x32),
    TRef.binary (TRef.of (T := ⟨S262144x32, .f32⟩) main_v140) (TRef.of (T := ⟨S262144x32, .f32⟩) main_call7_v0) (TRef.of (T := ⟨S262144x32, .f32⟩) main_v141) maximumf,
    binary main_v141 main_arg5 main_v142 ((fun l r => Host.dotGeneral dot_S262144x32_S32x16_S262144x16_1_0_0_1_n_n none l r) : (⟨S262144x32, .f32⟩ : BufTy).Contents (Elt F) → (⟨S32x16, .f32⟩ : BufTy).Contents (Elt F) → (⟨S262144x16, .f32⟩ : BufTy).Contents (Elt F)),
    unary main_arg6 main_v143 (broadcastInDim S1x16 ![1] bcast_S16_S1x16_1 : (⟨S16, .f32⟩ : BufTy).Contents (Elt F) → (⟨S1x16, .f32⟩ : BufTy).Contents (Elt F)),
    unary main_v143 main_v144 (broadcastInDim S262144x16 ![0, 1] bcast_S1x16_S262144x16_0_1 : (⟨S1x16, .f32⟩ : BufTy).Contents (Elt F) → (⟨S262144x16, .f32⟩ : BufTy).Contents (Elt F)),
    binary main_v142 main_v144 main_v145 (addf : (⟨S262144x16, .f32⟩ : BufTy).Contents (Elt F) → (⟨S262144x16, .f32⟩ : BufTy).Contents (Elt F) → (⟨S262144x16, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S262144x16, .f32⟩) main_call8_v0) (broadcastInDim S262144x16 ![] bcast_S_S262144x16),
    TRef.binary (TRef.of (T := ⟨S262144x16, .f32⟩) main_v145) (TRef.of (T := ⟨S262144x16, .f32⟩) main_call8_v0) (TRef.of (T := ⟨S262144x16, .f32⟩) main_v146) maximumf,
    binary main_v146 main_arg7 main_v147 ((fun l r => Host.dotGeneral dot_S262144x16_S16x1_S262144x1_1_0_0_1_n_n none l r) : (⟨S262144x16, .f32⟩ : BufTy).Contents (Elt F) → (⟨S16x1, .f32⟩ : BufTy).Contents (Elt F) → (⟨S262144x1, .f32⟩ : BufTy).Contents (Elt F)),
    unary main_arg8 main_v148 (broadcastInDim S1x1 ![1] bcast_S1_S1x1_1 : (⟨S1, .f32⟩ : BufTy).Contents (Elt F) → (⟨S1x1, .f32⟩ : BufTy).Contents (Elt F)),
    unary main_v148 main_v149 (broadcastInDim S262144x1 ![0, 1] bcast_S1x1_S262144x1_0_1 : (⟨S1x1, .f32⟩ : BufTy).Contents (Elt F) → (⟨S262144x1, .f32⟩ : BufTy).Contents (Elt F)),
    binary main_v147 main_v149 main_v150 (addf : (⟨S262144x1, .f32⟩ : BufTy).Contents (Elt F) → (⟨S262144x1, .f32⟩ : BufTy).Contents (Elt F) → (⟨S262144x1, .f32⟩ : BufTy).Contents (Elt F)) ]

/-- Everything before the perceptron. -/
abbrev opsHead : List (HloOp τ sig (Elt F)) :=
  [ unary main_arg2 main_v0 (broadcastInDim S1x7 ![1] bcast_S7_S1x7_1 : (⟨S7, .f32⟩ : BufTy).Contents (Elt F) → (⟨S1x7, .f32⟩ : BufTy).Contents (Elt F)),
    unary main_v0 main_v1 (broadcastInDim S262144x7 ![0, 1] bcast_S1x7_S262144x7_0_1 : (⟨S1x7, .f32⟩ : BufTy).Contents (Elt F) → (⟨S262144x7, .f32⟩ : BufTy).Contents (Elt F)),
    binary main_arg0 main_v1 main_v2 (addf : (⟨S262144x7, .f32⟩ : BufTy).Contents (Elt F) → (⟨S262144x7, .f32⟩ : BufTy).Contents (Elt F) → (⟨S262144x7, .f32⟩ : BufTy).Contents (Elt F)),
    nullary main_cst (constant S_ .f32 0x3F000000#32),
    unary main_cst main_v3 (broadcastInDim S262144x7 ![] bcast_S_S262144x7 : (⟨S_, .f32⟩ : BufTy).Contents (Elt F) → (⟨S262144x7, .f32⟩ : BufTy).Contents (Elt F)),
    binary main_v3 main_v2 main_v4 (mulf : (⟨S262144x7, .f32⟩ : BufTy).Contents (Elt F) → (⟨S262144x7, .f32⟩ : BufTy).Contents (Elt F) → (⟨S262144x7, .f32⟩ : BufTy).Contents (Elt F)),
    unary main_v4 main_v5 (Host.cos : (⟨S262144x7, .f32⟩ : BufTy).Contents (Elt F) → (⟨S262144x7, .f32⟩ : BufTy).Contents (Elt F)),
    unary main_v4 main_v6 (Host.sin : (⟨S262144x7, .f32⟩ : BufTy).Contents (Elt F) → (⟨S262144x7, .f32⟩ : BufTy).Contents (Elt F)),
    nullary main_cst_0 (constant S_ .f32 0x3F800000#32),
    unary main_cst_0 main_v7 (broadcastInDim S262144x1 ![] bcast_S_S262144x1 : (⟨S_, .f32⟩ : BufTy).Contents (Elt F) → (⟨S262144x1, .f32⟩ : BufTy).Contents (Elt F)),
    unary main_v5 main_v8 ((extractStridedSlice S262144x1 ![0, 0] · slices_S262144x7_S262144x1_0_0) : (⟨S262144x7, .f32⟩ : BufTy).Contents (Elt F) → (⟨S262144x1, .f32⟩ : BufTy).Contents (Elt F)),
    reshape main_v8 main_v9 rfl shapeCasts_S262144x1_S262144,
    unary main_v6 main_v10 ((extractStridedSlice S262144x1 ![0, 0] · slices_S262144x7_S262144x1_0_0) : (⟨S262144x7, .f32⟩ : BufTy).Contents (Elt F) → (⟨S262144x1, .f32⟩ : BufTy).Contents (Elt F)),
    reshape main_v10 main_v11 rfl shapeCasts_S262144x1_S262144,
    unary main_v9 main_v12 (broadcastInDim S262144x1 ![0] bcast_S262144_S262144x1_0 : (⟨S262144, .f32⟩ : BufTy).Contents (Elt F) → (⟨S262144x1, .f32⟩ : BufTy).Contents (Elt F)),
    unary main_v11 main_v13 (broadcastInDim S262144x1 ![0] bcast_S262144_S262144x1_0 : (⟨S262144, .f32⟩ : BufTy).Contents (Elt F) → (⟨S262144x1, .f32⟩ : BufTy).Contents (Elt F)),
    binary main_v12 main_v13 main_v14 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v7 main_v15 (broadcastInDim S262144x1x1 ![0, 1] bcast_S262144x1_S262144x1x1_0_1 : (⟨S262144x1, .f32⟩ : BufTy).Contents (Elt F) → (⟨S262144x1x1, .f32⟩ : BufTy).Contents (Elt F)),
    unary main_v14 main_v16 (broadcastInDim S262144x1x2 ![0, 2] bcast_S262144x2_S262144x1x2_0_2 : (⟨S262144x2, .f32⟩ : BufTy).Contents (Elt F) → (⟨S262144x1x2, .f32⟩ : BufTy).Contents (Elt F)),
    unary main_v15 main_v17 (broadcastInDim S262144x1x2 ![0, 1, 2] bcast_S262144x1x1_S262144x1x2_0_1_2 : (⟨S262144x1x1, .f32⟩ : BufTy).Contents (Elt F) → (⟨S262144x1x2, .f32⟩ : BufTy).Contents (Elt F)),
    binary main_v17 main_v16 main_v18 (mulf : (⟨S262144x1x2, .f32⟩ : BufTy).Contents (Elt F) → (⟨S262144x1x2, .f32⟩ : BufTy).Contents (Elt F) → (⟨S262144x1x2, .f32⟩ : BufTy).Contents (Elt F)),
    reshape main_v18 main_v19 rfl shapeCasts_S262144x1x2_S262144x2,
    unary main_v5 main_v20 ((extractStridedSlice S262144x1 ![0, 1] · slices_S262144x7_S262144x1_0_1) : (⟨S262144x7, .f32⟩ : BufTy).Contents (Elt F) → (⟨S262144x1, .f32⟩ : BufTy).Contents (Elt F)),
    reshape main_v20 main_v21 rfl shapeCasts_S262144x1_S262144,
    unary main_v6 main_v22 ((extractStridedSlice S262144x1 ![0, 1] · slices_S262144x7_S262144x1_0_1) : (⟨S262144x7, .f32⟩ : BufTy).Contents (Elt F) → (⟨S262144x1, .f32⟩ : BufTy).Contents (Elt F)),
    reshape main_v22 main_v23 rfl shapeCasts_S262144x1_S262144,
    unary main_v21 main_v24 (broadcastInDim S262144x1 ![0] bcast_S262144_S262144x1_0 : (⟨S262144, .f32⟩ : BufTy).Contents (Elt F) → (⟨S262144x1, .f32⟩ : BufTy).Contents (Elt F)),
    unary main_v23 main_v25 (broadcastInDim S262144x1 ![0] bcast_S262144_S262144x1_0 : (⟨S262144, .f32⟩ : BufTy).Contents (Elt F) → (⟨S262144x1, .f32⟩ : BufTy).Contents (Elt F)),
    binary main_v24 main_v25 main_v26 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v19 main_v27 (broadcastInDim S262144x2x1 ![0, 1] bcast_S262144x2_S262144x2x1_0_1 : (⟨S262144x2, .f32⟩ : BufTy).Contents (Elt F) → (⟨S262144x2x1, .f32⟩ : BufTy).Contents (Elt F)),
    unary main_v26 main_v28 (broadcastInDim S262144x1x2 ![0, 2] bcast_S262144x2_S262144x1x2_0_2 : (⟨S262144x2, .f32⟩ : BufTy).Contents (Elt F) → (⟨S262144x1x2, .f32⟩ : BufTy).Contents (Elt F)),
    unary main_v27 main_v29 (broadcastInDim S262144x2x2 ![0, 1, 2] bcast_S262144x2x1_S262144x2x2_0_1_2 : (⟨S262144x2x1, .f32⟩ : BufTy).Contents (Elt F) → (⟨S262144x2x2, .f32⟩ : BufTy).Contents (Elt F)),
    unary main_v28 main_v30 (broadcastInDim S262144x2x2 ![0, 1, 2] bcast_S262144x1x2_S262144x2x2_0_1_2 : (⟨S262144x1x2, .f32⟩ : BufTy).Contents (Elt F) → (⟨S262144x2x2, .f32⟩ : BufTy).Contents (Elt F)),
    binary main_v29 main_v30 main_v31 (mulf : (⟨S262144x2x2, .f32⟩ : BufTy).Contents (Elt F) → (⟨S262144x2x2, .f32⟩ : BufTy).Contents (Elt F) → (⟨S262144x2x2, .f32⟩ : BufTy).Contents (Elt F)),
    reshape main_v31 main_v32 rfl shapeCasts_S262144x2x2_S262144x4,
    unary main_v5 main_v33 ((extractStridedSlice S262144x1 ![0, 2] · slices_S262144x7_S262144x1_0_2) : (⟨S262144x7, .f32⟩ : BufTy).Contents (Elt F) → (⟨S262144x1, .f32⟩ : BufTy).Contents (Elt F)),
    reshape main_v33 main_v34 rfl shapeCasts_S262144x1_S262144,
    unary main_v6 main_v35 ((extractStridedSlice S262144x1 ![0, 2] · slices_S262144x7_S262144x1_0_2) : (⟨S262144x7, .f32⟩ : BufTy).Contents (Elt F) → (⟨S262144x1, .f32⟩ : BufTy).Contents (Elt F)),
    reshape main_v35 main_v36 rfl shapeCasts_S262144x1_S262144,
    unary main_v34 main_v37 (broadcastInDim S262144x1 ![0] bcast_S262144_S262144x1_0 : (⟨S262144, .f32⟩ : BufTy).Contents (Elt F) → (⟨S262144x1, .f32⟩ : BufTy).Contents (Elt F)),
    unary main_v36 main_v38 (broadcastInDim S262144x1 ![0] bcast_S262144_S262144x1_0 : (⟨S262144, .f32⟩ : BufTy).Contents (Elt F) → (⟨S262144x1, .f32⟩ : BufTy).Contents (Elt F)),
    binary main_v37 main_v38 main_v39 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v32 main_v40 (broadcastInDim S262144x4x1 ![0, 1] bcast_S262144x4_S262144x4x1_0_1 : (⟨S262144x4, .f32⟩ : BufTy).Contents (Elt F) → (⟨S262144x4x1, .f32⟩ : BufTy).Contents (Elt F)),
    unary main_v39 main_v41 (broadcastInDim S262144x1x2 ![0, 2] bcast_S262144x2_S262144x1x2_0_2 : (⟨S262144x2, .f32⟩ : BufTy).Contents (Elt F) → (⟨S262144x1x2, .f32⟩ : BufTy).Contents (Elt F)),
    unary main_v40 main_v42 (broadcastInDim S262144x4x2 ![0, 1, 2] bcast_S262144x4x1_S262144x4x2_0_1_2 : (⟨S262144x4x1, .f32⟩ : BufTy).Contents (Elt F) → (⟨S262144x4x2, .f32⟩ : BufTy).Contents (Elt F)),
    unary main_v41 main_v43 (broadcastInDim S262144x4x2 ![0, 1, 2] bcast_S262144x1x2_S262144x4x2_0_1_2 : (⟨S262144x1x2, .f32⟩ : BufTy).Contents (Elt F) → (⟨S262144x4x2, .f32⟩ : BufTy).Contents (Elt F)),
    binary main_v42 main_v43 main_v44 (mulf : (⟨S262144x4x2, .f32⟩ : BufTy).Contents (Elt F) → (⟨S262144x4x2, .f32⟩ : BufTy).Contents (Elt F) → (⟨S262144x4x2, .f32⟩ : BufTy).Contents (Elt F)),
    reshape main_v44 main_v45 rfl shapeCasts_S262144x4x2_S262144x8,
    unary main_v5 main_v46 ((extractStridedSlice S262144x1 ![0, 3] · slices_S262144x7_S262144x1_0_3) : (⟨S262144x7, .f32⟩ : BufTy).Contents (Elt F) → (⟨S262144x1, .f32⟩ : BufTy).Contents (Elt F)),
    reshape main_v46 main_v47 rfl shapeCasts_S262144x1_S262144,
    unary main_v6 main_v48 ((extractStridedSlice S262144x1 ![0, 3] · slices_S262144x7_S262144x1_0_3) : (⟨S262144x7, .f32⟩ : BufTy).Contents (Elt F) → (⟨S262144x1, .f32⟩ : BufTy).Contents (Elt F)),
    reshape main_v48 main_v49 rfl shapeCasts_S262144x1_S262144,
    unary main_v47 main_v50 (broadcastInDim S262144x1 ![0] bcast_S262144_S262144x1_0 : (⟨S262144, .f32⟩ : BufTy).Contents (Elt F) → (⟨S262144x1, .f32⟩ : BufTy).Contents (Elt F)),
    unary main_v49 main_v51 (broadcastInDim S262144x1 ![0] bcast_S262144_S262144x1_0 : (⟨S262144, .f32⟩ : BufTy).Contents (Elt F) → (⟨S262144x1, .f32⟩ : BufTy).Contents (Elt F)),
    binary main_v50 main_v51 main_v52 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v45 main_v53 (broadcastInDim S262144x8x1 ![0, 1] bcast_S262144x8_S262144x8x1_0_1 : (⟨S262144x8, .f32⟩ : BufTy).Contents (Elt F) → (⟨S262144x8x1, .f32⟩ : BufTy).Contents (Elt F)),
    unary main_v52 main_v54 (broadcastInDim S262144x1x2 ![0, 2] bcast_S262144x2_S262144x1x2_0_2 : (⟨S262144x2, .f32⟩ : BufTy).Contents (Elt F) → (⟨S262144x1x2, .f32⟩ : BufTy).Contents (Elt F)),
    unary main_v53 main_v55 (broadcastInDim S262144x8x2 ![0, 1, 2] bcast_S262144x8x1_S262144x8x2_0_1_2 : (⟨S262144x8x1, .f32⟩ : BufTy).Contents (Elt F) → (⟨S262144x8x2, .f32⟩ : BufTy).Contents (Elt F)),
    unary main_v54 main_v56 (broadcastInDim S262144x8x2 ![0, 1, 2] bcast_S262144x1x2_S262144x8x2_0_1_2 : (⟨S262144x1x2, .f32⟩ : BufTy).Contents (Elt F) → (⟨S262144x8x2, .f32⟩ : BufTy).Contents (Elt F)),
    binary main_v55 main_v56 main_v57 (mulf : (⟨S262144x8x2, .f32⟩ : BufTy).Contents (Elt F) → (⟨S262144x8x2, .f32⟩ : BufTy).Contents (Elt F) → (⟨S262144x8x2, .f32⟩ : BufTy).Contents (Elt F)),
    reshape main_v57 main_v58 rfl shapeCasts_S262144x8x2_S262144x16,
    unary main_v5 main_v59 ((extractStridedSlice S262144x1 ![0, 4] · slices_S262144x7_S262144x1_0_4) : (⟨S262144x7, .f32⟩ : BufTy).Contents (Elt F) → (⟨S262144x1, .f32⟩ : BufTy).Contents (Elt F)),
    reshape main_v59 main_v60 rfl shapeCasts_S262144x1_S262144,
    unary main_v6 main_v61 ((extractStridedSlice S262144x1 ![0, 4] · slices_S262144x7_S262144x1_0_4) : (⟨S262144x7, .f32⟩ : BufTy).Contents (Elt F) → (⟨S262144x1, .f32⟩ : BufTy).Contents (Elt F)),
    reshape main_v61 main_v62 rfl shapeCasts_S262144x1_S262144,
    unary main_v60 main_v63 (broadcastInDim S262144x1 ![0] bcast_S262144_S262144x1_0 : (⟨S262144, .f32⟩ : BufTy).Contents (Elt F) → (⟨S262144x1, .f32⟩ : BufTy).Contents (Elt F)),
    unary main_v62 main_v64 (broadcastInDim S262144x1 ![0] bcast_S262144_S262144x1_0 : (⟨S262144, .f32⟩ : BufTy).Contents (Elt F) → (⟨S262144x1, .f32⟩ : BufTy).Contents (Elt F)),
    binary main_v63 main_v64 main_v65 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v58 main_v66 (broadcastInDim S262144x16x1 ![0, 1] bcast_S262144x16_S262144x16x1_0_1 : (⟨S262144x16, .f32⟩ : BufTy).Contents (Elt F) → (⟨S262144x16x1, .f32⟩ : BufTy).Contents (Elt F)),
    unary main_v65 main_v67 (broadcastInDim S262144x1x2 ![0, 2] bcast_S262144x2_S262144x1x2_0_2 : (⟨S262144x2, .f32⟩ : BufTy).Contents (Elt F) → (⟨S262144x1x2, .f32⟩ : BufTy).Contents (Elt F)),
    unary main_v66 main_v68 (broadcastInDim S262144x16x2 ![0, 1, 2] bcast_S262144x16x1_S262144x16x2_0_1_2 : (⟨S262144x16x1, .f32⟩ : BufTy).Contents (Elt F) → (⟨S262144x16x2, .f32⟩ : BufTy).Contents (Elt F)),
    unary main_v67 main_v69 (broadcastInDim S262144x16x2 ![0, 1, 2] bcast_S262144x1x2_S262144x16x2_0_1_2 : (⟨S262144x1x2, .f32⟩ : BufTy).Contents (Elt F) → (⟨S262144x16x2, .f32⟩ : BufTy).Contents (Elt F)),
    binary main_v68 main_v69 main_v70 (mulf : (⟨S262144x16x2, .f32⟩ : BufTy).Contents (Elt F) → (⟨S262144x16x2, .f32⟩ : BufTy).Contents (Elt F) → (⟨S262144x16x2, .f32⟩ : BufTy).Contents (Elt F)),
    reshape main_v70 main_v71 rfl shapeCasts_S262144x16x2_S262144x32,
    unary main_v5 main_v72 ((extractStridedSlice S262144x1 ![0, 5] · slices_S262144x7_S262144x1_0_5) : (⟨S262144x7, .f32⟩ : BufTy).Contents (Elt F) → (⟨S262144x1, .f32⟩ : BufTy).Contents (Elt F)),
    reshape main_v72 main_v73 rfl shapeCasts_S262144x1_S262144,
    unary main_v6 main_v74 ((extractStridedSlice S262144x1 ![0, 5] · slices_S262144x7_S262144x1_0_5) : (⟨S262144x7, .f32⟩ : BufTy).Contents (Elt F) → (⟨S262144x1, .f32⟩ : BufTy).Contents (Elt F)),
    reshape main_v74 main_v75 rfl shapeCasts_S262144x1_S262144,
    unary main_v73 main_v76 (broadcastInDim S262144x1 ![0] bcast_S262144_S262144x1_0 : (⟨S262144, .f32⟩ : BufTy).Contents (Elt F) → (⟨S262144x1, .f32⟩ : BufTy).Contents (Elt F)),
    unary main_v75 main_v77 (broadcastInDim S262144x1 ![0] bcast_S262144_S262144x1_0 : (⟨S262144, .f32⟩ : BufTy).Contents (Elt F) → (⟨S262144x1, .f32⟩ : BufTy).Contents (Elt F)),
    binary main_v76 main_v77 main_v78 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v71 main_v79 (broadcastInDim S262144x32x1 ![0, 1] bcast_S262144x32_S262144x32x1_0_1 : (⟨S262144x32, .f32⟩ : BufTy).Contents (Elt F) → (⟨S262144x32x1, .f32⟩ : BufTy).Contents (Elt F)),
    unary main_v78 main_v80 (broadcastInDim S262144x1x2 ![0, 2] bcast_S262144x2_S262144x1x2_0_2 : (⟨S262144x2, .f32⟩ : BufTy).Contents (Elt F) → (⟨S262144x1x2, .f32⟩ : BufTy).Contents (Elt F)),
    unary main_v79 main_v81 (broadcastInDim S262144x32x2 ![0, 1, 2] bcast_S262144x32x1_S262144x32x2_0_1_2 : (⟨S262144x32x1, .f32⟩ : BufTy).Contents (Elt F) → (⟨S262144x32x2, .f32⟩ : BufTy).Contents (Elt F)),
    unary main_v80 main_v82 (broadcastInDim S262144x32x2 ![0, 1, 2] bcast_S262144x1x2_S262144x32x2_0_1_2 : (⟨S262144x1x2, .f32⟩ : BufTy).Contents (Elt F) → (⟨S262144x32x2, .f32⟩ : BufTy).Contents (Elt F)),
    binary main_v81 main_v82 main_v83 (mulf : (⟨S262144x32x2, .f32⟩ : BufTy).Contents (Elt F) → (⟨S262144x32x2, .f32⟩ : BufTy).Contents (Elt F) → (⟨S262144x32x2, .f32⟩ : BufTy).Contents (Elt F)),
    reshape main_v83 main_v84 rfl shapeCasts_S262144x32x2_S262144x64,
    unary main_v5 main_v85 ((extractStridedSlice S262144x1 ![0, 6] · slices_S262144x7_S262144x1_0_6) : (⟨S262144x7, .f32⟩ : BufTy).Contents (Elt F) → (⟨S262144x1, .f32⟩ : BufTy).Contents (Elt F)),
    reshape main_v85 main_v86 rfl shapeCasts_S262144x1_S262144,
    unary main_v6 main_v87 ((extractStridedSlice S262144x1 ![0, 6] · slices_S262144x7_S262144x1_0_6) : (⟨S262144x7, .f32⟩ : BufTy).Contents (Elt F) → (⟨S262144x1, .f32⟩ : BufTy).Contents (Elt F)),
    reshape main_v87 main_v88 rfl shapeCasts_S262144x1_S262144,
    unary main_v86 main_v89 (broadcastInDim S262144x1 ![0] bcast_S262144_S262144x1_0 : (⟨S262144, .f32⟩ : BufTy).Contents (Elt F) → (⟨S262144x1, .f32⟩ : BufTy).Contents (Elt F)),
    unary main_v88 main_v90 (broadcastInDim S262144x1 ![0] bcast_S262144_S262144x1_0 : (⟨S262144, .f32⟩ : BufTy).Contents (Elt F) → (⟨S262144x1, .f32⟩ : BufTy).Contents (Elt F)),
    binary main_v89 main_v90 main_v91 ((fun a b => concatenate S262144x2 1 [⟨S262144x1, a⟩, ⟨S262144x1, b⟩] concatenates_S262144x1_S262144x1_S262144x2_d1) : (⟨S262144x1, .f32⟩ : BufTy).Contents (Elt F) → (⟨S262144x1, .f32⟩ : BufTy).Contents (Elt F) → (⟨S262144x2, .f32⟩ : BufTy).Contents (Elt F)),
    unary main_v84 main_v92 (broadcastInDim S262144x64x1 ![0, 1] bcast_S262144x64_S262144x64x1_0_1 : (⟨S262144x64, .f32⟩ : BufTy).Contents (Elt F) → (⟨S262144x64x1, .f32⟩ : BufTy).Contents (Elt F)),
    unary main_v91 main_v93 (broadcastInDim S262144x1x2 ![0, 2] bcast_S262144x2_S262144x1x2_0_2 : (⟨S262144x2, .f32⟩ : BufTy).Contents (Elt F) → (⟨S262144x1x2, .f32⟩ : BufTy).Contents (Elt F)),
    unary main_v92 main_v94 (broadcastInDim S262144x64x2 ![0, 1, 2] bcast_S262144x64x1_S262144x64x2_0_1_2 : (⟨S262144x64x1, .f32⟩ : BufTy).Contents (Elt F) → (⟨S262144x64x2, .f32⟩ : BufTy).Contents (Elt F)),
    unary main_v93 main_v95 (broadcastInDim S262144x64x2 ![0, 1, 2] bcast_S262144x1x2_S262144x64x2_0_1_2 : (⟨S262144x1x2, .f32⟩ : BufTy).Contents (Elt F) → (⟨S262144x64x2, .f32⟩ : BufTy).Contents (Elt F)),
    binary main_v94 main_v95 main_v96 (mulf : (⟨S262144x64x2, .f32⟩ : BufTy).Contents (Elt F) → (⟨S262144x64x2, .f32⟩ : BufTy).Contents (Elt F) → (⟨S262144x64x2, .f32⟩ : BufTy).Contents (Elt F)),
    reshape main_v96 main_v97 rfl shapeCasts_S262144x64x2_S262144x128,
    reshape main_v97 main_v98 rfl shapeCasts_S262144x128_S262144x2x2x2x2x2x2x2,
    unary main_v98 main_v99 ((extractStridedSlice S262144x1x2x2x2x2x2x2 ![0, 0, 0, 0, 0, 0, 0, 0] · slices_S262144x2x2x2x2x2x2x2_S262144x1x2x2x2x2x2x2_0_0_0_0_0_0_0_0) : (⟨S262144x2x2x2x2x2x2x2, .f32⟩ : BufTy).Contents (Elt F) → (⟨S262144x1x2x2x2x2x2x2, .f32⟩ : BufTy).Contents (Elt F)),
    unary main_v98 main_v100 ((extractStridedSlice S262144x1x2x2x2x2x2x2 ![0, 1, 0, 0, 0, 0, 0, 0] · slices_S262144x2x2x2x2x2x2x2_S262144x1x2x2x2x2x2x2_0_1_0_0_0_0_0_0) : (⟨S262144x2x2x2x2x2x2x2, .f32⟩ : BufTy).Contents (Elt F) → (⟨S262144x1x2x2x2x2x2x2, .f32⟩ : BufTy).Contents (Elt F)),
    TRef.unary (TRef.of (T := ⟨S262144x1x2x2x2x2x2x2, .f32⟩) main_v100) (TRef.of (T := ⟨S262144x1x2x2x2x2x2x2, .f32⟩) main_v101) (Host.reverse [2]),
    binary main_v99 main_v101 main_v102 ((fun a b => concatenate S262144x2x2x2x2x2x2x2 1 [⟨S262144x1x2x2x2x2x2x2, a⟩, ⟨S262144x1x2x2x2x2x2x2, b⟩] concatenates_S262144x1x2x2x2x2x2x2_S262144x1x2x2x2x2x2x2_S262144x2x2x2x2x2x2x2_d1) : (⟨S262144x1x2x2x2x2x2x2, .f32⟩ : BufTy).Contents (Elt F) → (⟨S262144x1x2x2x2x2x2x2, .f32⟩ : BufTy).Contents (Elt F) → (⟨S262144x2x2x2x2x2x2x2, .f32⟩ : BufTy).Contents (Elt F)),
    unary main_v102 main_v103 ((extractStridedSlice S262144x2x1x2x2x2x2x2 ![0, 0, 0, 0, 0, 0, 0, 0] · slices_S262144x2x2x2x2x2x2x2_S262144x2x1x2x2x2x2x2_0_0_0_0_0_0_0_0) : (⟨S262144x2x2x2x2x2x2x2, .f32⟩ : BufTy).Contents (Elt F) → (⟨S262144x2x1x2x2x2x2x2, .f32⟩ : BufTy).Contents (Elt F)),
    unary main_v102 main_v104 ((extractStridedSlice S262144x2x1x2x2x2x2x2 ![0, 0, 1, 0, 0, 0, 0, 0] · slices_S262144x2x2x2x2x2x2x2_S262144x2x1x2x2x2x2x2_0_0_1_0_0_0_0_0) : (⟨S262144x2x2x2x2x2x2x2, .f32⟩ : BufTy).Contents (Elt F) → (⟨S262144x2x1x2x2x2x2x2, .f32⟩ : BufTy).Contents (Elt F)),
    TRef.unary (TRef.of (T := ⟨S262144x2x1x2x2x2x2x2, .f32⟩) main_v104) (TRef.of (T := ⟨S262144x2x1x2x2x2x2x2, .f32⟩) main_v105) (Host.reverse [3]),
    binary main_v103 main_v105 main_v106 ((fun a b => concatenate S262144x2x2x2x2x2x2x2 2 [⟨S262144x2x1x2x2x2x2x2, a⟩, ⟨S262144x2x1x2x2x2x2x2, b⟩] concatenates_S262144x2x1x2x2x2x2x2_S262144x2x1x2x2x2x2x2_S262144x2x2x2x2x2x2x2_d2) : (⟨S262144x2x1x2x2x2x2x2, .f32⟩ : BufTy).Contents (Elt F) → (⟨S262144x2x1x2x2x2x2x2, .f32⟩ : BufTy).Contents (Elt F) → (⟨S262144x2x2x2x2x2x2x2, .f32⟩ : BufTy).Contents (Elt F)),
    unary main_v106 main_v107 ((extractStridedSlice S262144x2x2x1x2x2x2x2 ![0, 0, 0, 0, 0, 0, 0, 0] · slices_S262144x2x2x2x2x2x2x2_S262144x2x2x1x2x2x2x2_0_0_0_0_0_0_0_0) : (⟨S262144x2x2x2x2x2x2x2, .f32⟩ : BufTy).Contents (Elt F) → (⟨S262144x2x2x1x2x2x2x2, .f32⟩ : BufTy).Contents (Elt F)),
    unary main_v106 main_v108 ((extractStridedSlice S262144x2x2x1x2x2x2x2 ![0, 0, 0, 1, 0, 0, 0, 0] · slices_S262144x2x2x2x2x2x2x2_S262144x2x2x1x2x2x2x2_0_0_0_1_0_0_0_0) : (⟨S262144x2x2x2x2x2x2x2, .f32⟩ : BufTy).Contents (Elt F) → (⟨S262144x2x2x1x2x2x2x2, .f32⟩ : BufTy).Contents (Elt F)),
    TRef.unary (TRef.of (T := ⟨S262144x2x2x1x2x2x2x2, .f32⟩) main_v108) (TRef.of (T := ⟨S262144x2x2x1x2x2x2x2, .f32⟩) main_v109) (Host.reverse [4]),
    binary main_v107 main_v109 main_v110 ((fun a b => concatenate S262144x2x2x2x2x2x2x2 3 [⟨S262144x2x2x1x2x2x2x2, a⟩, ⟨S262144x2x2x1x2x2x2x2, b⟩] concatenates_S262144x2x2x1x2x2x2x2_S262144x2x2x1x2x2x2x2_S262144x2x2x2x2x2x2x2_d3) : (⟨S262144x2x2x1x2x2x2x2, .f32⟩ : BufTy).Contents (Elt F) → (⟨S262144x2x2x1x2x2x2x2, .f32⟩ : BufTy).Contents (Elt F) → (⟨S262144x2x2x2x2x2x2x2, .f32⟩ : BufTy).Contents (Elt F)),
    unary main_v110 main_v111 ((extractStridedSlice S262144x2x2x2x1x2x2x2 ![0, 0, 0, 0, 0, 0, 0, 0] · slices_S262144x2x2x2x2x2x2x2_S262144x2x2x2x1x2x2x2_0_0_0_0_0_0_0_0) : (⟨S262144x2x2x2x2x2x2x2, .f32⟩ : BufTy).Contents (Elt F) → (⟨S262144x2x2x2x1x2x2x2, .f32⟩ : BufTy).Contents (Elt F)),
    unary main_v110 main_v112 ((extractStridedSlice S262144x2x2x2x1x2x2x2 ![0, 0, 0, 0, 1, 0, 0, 0] · slices_S262144x2x2x2x2x2x2x2_S262144x2x2x2x1x2x2x2_0_0_0_0_1_0_0_0) : (⟨S262144x2x2x2x2x2x2x2, .f32⟩ : BufTy).Contents (Elt F) → (⟨S262144x2x2x2x1x2x2x2, .f32⟩ : BufTy).Contents (Elt F)),
    TRef.unary (TRef.of (T := ⟨S262144x2x2x2x1x2x2x2, .f32⟩) main_v112) (TRef.of (T := ⟨S262144x2x2x2x1x2x2x2, .f32⟩) main_v113) (Host.reverse [5]),
    binary main_v111 main_v113 main_v114 ((fun a b => concatenate S262144x2x2x2x2x2x2x2 4 [⟨S262144x2x2x2x1x2x2x2, a⟩, ⟨S262144x2x2x2x1x2x2x2, b⟩] concatenates_S262144x2x2x2x1x2x2x2_S262144x2x2x2x1x2x2x2_S262144x2x2x2x2x2x2x2_d4) : (⟨S262144x2x2x2x1x2x2x2, .f32⟩ : BufTy).Contents (Elt F) → (⟨S262144x2x2x2x1x2x2x2, .f32⟩ : BufTy).Contents (Elt F) → (⟨S262144x2x2x2x2x2x2x2, .f32⟩ : BufTy).Contents (Elt F)),
    unary main_v114 main_v115 ((extractStridedSlice S262144x2x2x2x2x1x2x2 ![0, 0, 0, 0, 0, 0, 0, 0] · slices_S262144x2x2x2x2x2x2x2_S262144x2x2x2x2x1x2x2_0_0_0_0_0_0_0_0) : (⟨S262144x2x2x2x2x2x2x2, .f32⟩ : BufTy).Contents (Elt F) → (⟨S262144x2x2x2x2x1x2x2, .f32⟩ : BufTy).Contents (Elt F)),
    unary main_v114 main_v116 ((extractStridedSlice S262144x2x2x2x2x1x2x2 ![0, 0, 0, 0, 0, 1, 0, 0] · slices_S262144x2x2x2x2x2x2x2_S262144x2x2x2x2x1x2x2_0_0_0_0_0_1_0_0) : (⟨S262144x2x2x2x2x2x2x2, .f32⟩ : BufTy).Contents (Elt F) → (⟨S262144x2x2x2x2x1x2x2, .f32⟩ : BufTy).Contents (Elt F)),
    TRef.unary (TRef.of (T := ⟨S262144x2x2x2x2x1x2x2, .f32⟩) main_v116) (TRef.of (T := ⟨S262144x2x2x2x2x1x2x2, .f32⟩) main_v117) (Host.reverse [6]),
    binary main_v115 main_v117 main_v118 ((fun a b => concatenate S262144x2x2x2x2x2x2x2 5 [⟨S262144x2x2x2x2x1x2x2, a⟩, ⟨S262144x2x2x2x2x1x2x2, b⟩] concatenates_S262144x2x2x2x2x1x2x2_S262144x2x2x2x2x1x2x2_S262144x2x2x2x2x2x2x2_d5) : (⟨S262144x2x2x2x2x1x2x2, .f32⟩ : BufTy).Contents (Elt F) → (⟨S262144x2x2x2x2x1x2x2, .f32⟩ : BufTy).Contents (Elt F) → (⟨S262144x2x2x2x2x2x2x2, .f32⟩ : BufTy).Contents (Elt F)),
    unary main_v118 main_v119 ((extractStridedSlice S262144x2x2x2x2x2x1x2 ![0, 0, 0, 0, 0, 0, 0, 0] · slices_S262144x2x2x2x2x2x2x2_S262144x2x2x2x2x2x1x2_0_0_0_0_0_0_0_0) : (⟨S262144x2x2x2x2x2x2x2, .f32⟩ : BufTy).Contents (Elt F) → (⟨S262144x2x2x2x2x2x1x2, .f32⟩ : BufTy).Contents (Elt F)),
    unary main_v118 main_v120 ((extractStridedSlice S262144x2x2x2x2x2x1x2 ![0, 0, 0, 0, 0, 0, 1, 0] · slices_S262144x2x2x2x2x2x2x2_S262144x2x2x2x2x2x1x2_0_0_0_0_0_0_1_0) : (⟨S262144x2x2x2x2x2x2x2, .f32⟩ : BufTy).Contents (Elt F) → (⟨S262144x2x2x2x2x2x1x2, .f32⟩ : BufTy).Contents (Elt F)),
    TRef.unary (TRef.of (T := ⟨S262144x2x2x2x2x2x1x2, .f32⟩) main_v120) (TRef.of (T := ⟨S262144x2x2x2x2x2x1x2, .f32⟩) main_v121) (Host.reverse [7]),
    binary main_v119 main_v121 main_v122 ((fun a b => concatenate S262144x2x2x2x2x2x2x2 6 [⟨S262144x2x2x2x2x2x1x2, a⟩, ⟨S262144x2x2x2x2x2x1x2, b⟩] concatenates_S262144x2x2x2x2x2x1x2_S262144x2x2x2x2x2x1x2_S262144x2x2x2x2x2x2x2_d6) : (⟨S262144x2x2x2x2x2x1x2, .f32⟩ : BufTy).Contents (Elt F) → (⟨S262144x2x2x2x2x2x1x2, .f32⟩ : BufTy).Contents (Elt F) → (⟨S262144x2x2x2x2x2x2x2, .f32⟩ : BufTy).Contents (Elt F)),
    unary main_v122 main_v123 ((extractStridedSlice S262144x2x2x2x2x2x2x1 ![0, 0, 0, 0, 0, 0, 0, 0] · slices_S262144x2x2x2x2x2x2x2_S262144x2x2x2x2x2x2x1_0_0_0_0_0_0_0_0) : (⟨S262144x2x2x2x2x2x2x2, .f32⟩ : BufTy).Contents (Elt F) → (⟨S262144x2x2x2x2x2x2x1, .f32⟩ : BufTy).Contents (Elt F)),
    unary main_v122 main_v124 ((extractStridedSlice S262144x2x2x2x2x2x2x1 ![0, 0, 0, 0, 0, 0, 0, 1] · slices_S262144x2x2x2x2x2x2x2_S262144x2x2x2x2x2x2x1_0_0_0_0_0_0_0_1) : (⟨S262144x2x2x2x2x2x2x2, .f32⟩ : BufTy).Contents (Elt F) → (⟨S262144x2x2x2x2x2x2x1, .f32⟩ : BufTy).Contents (Elt F)),
    TRef.unary (TRef.of (T := ⟨S262144x2x2x2x2x2x2x1, .f32⟩) main_v124) (TRef.of (T := ⟨S262144x2x2x2x2x2x2x1, .f32⟩) main_v125) (Host.reverse [1]),
    binary main_v123 main_v125 main_v126 ((fun a b => concatenate S262144x2x2x2x2x2x2x2 7 [⟨S262144x2x2x2x2x2x2x1, a⟩, ⟨S262144x2x2x2x2x2x2x1, b⟩] concatenates_S262144x2x2x2x2x2x2x1_S262144x2x2x2x2x2x2x1_S262144x2x2x2x2x2x2x2_d7) : (⟨S262144x2x2x2x2x2x2x1, .f32⟩ : BufTy).Contents (Elt F) → (⟨S262144x2x2x2x2x2x2x1, .f32⟩ : BufTy).Contents (Elt F) → (⟨S262144x2x2x2x2x2x2x2, .f32⟩ : BufTy).Contents (Elt F)),
    binary main_v126 main_v126 main_v127 (mulf : (⟨S262144x2x2x2x2x2x2x2, .f32⟩ : BufTy).Contents (Elt F) → (⟨S262144x2x2x2x2x2x2x2, .f32⟩ : BufTy).Contents (Elt F) → (⟨S262144x2x2x2x2x2x2x2, .f32⟩ : BufTy).Contents (Elt F)),
    reshape main_v127 main_v128 rfl shapeCasts_S262144x2x2x2x2x2x2x2_S262144x2x64,
    nullary main_cst_1 (constant S_ .f32 0x00000000#32),
    binary main_v128 main_cst_1 main_v129 ((fun x v => Host.reduceAdd x v reducesTo_S262144x2x64_S262144x2_d2 h_S_) : (⟨S262144x2x64, .f32⟩ : BufTy).Contents (Elt F) → (⟨S_, .f32⟩ : BufTy).Contents (Elt F) → (⟨S262144x2, .f32⟩ : BufTy).Contents (Elt F)),
    unary main_v129 main_v130 ((extractStridedSlice S262144x1 ![0, 0] · slices_S262144x2_S262144x1_0_0) : (⟨S262144x2, .f32⟩ : BufTy).Contents (Elt F) → (⟨S262144x1, .f32⟩ : BufTy).Contents (Elt F)),
    reshape main_v130 main_v131 rfl shapeCasts_S262144x1_S262144,
    unary main_v129 main_v132 ((extractStridedSlice S262144x1 ![0, 1] · slices_S262144x2_S262144x1_0_1) : (⟨S262144x2, .f32⟩ : BufTy).Contents (Elt F) → (⟨S262144x1, .f32⟩ : BufTy).Contents (Elt F)),
    reshape main_v132 main_v133 rfl shapeCasts_S262144x1_S262144,
    binary main_v131 main_v133 main_v134 (subf : (⟨S262144, .f32⟩ : BufTy).Contents (Elt F) → (⟨S262144, .f32⟩ : BufTy).Contents (Elt F) → (⟨S262144, .f32⟩ : BufTy).Contents (Elt F)) ]

set_option maxRecDepth 8192 in
set_option maxHeartbeats 4000000 in
theorem opsHead_eq : (opsHead : List (HloOp τ sig (Elt F))) = w0 ++ wq0 ++ wq1 ++ wq2 ++ wq3 ++ wq4 ++ wq5 ++ wq6 ++ w98 ++ wc0 ++ wc1 ++ wc2 ++ wc3 ++ wc4 ++ wc5 ++ wc6 ++ w129 ++ w134 := rfl

set_option maxRecDepth 8192 in
set_option maxHeartbeats 4000000 in
theorem ops_eq : (ops : List (HloOp τ sig (Elt F))) = opsHead ++ wTail := rfl

end Cert.RefRun

end
-- ==== Proof.RefWindows.lean ====
/-
  Each stretch of the reference's operations read by itself.

  From any contents `V` of the buffers, a stretch leaves its stage's result buffer at the stage's function
  (RefStages) of the buffers the stretch reads, and leaves untouched every buffer it does not write: the arrays of
  cosines and sines through the stretches that build the product state, and the nine arguments throughout.
-/
import proofs.«125050_j21938692948013_1_alg».proof.Proof.RefOps
import proofs.«125050_j21938692948013_1_alg».proof.Proof.RefStages

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

theorem w0_out_v5 (V : Valuation τ sig (Elt F)) :
    after (w0 : List (HloOp τ sig (Elt F))) V (Proc.devRef .tc main_v5) = Cert.RefStages.s5 (F := F) (V (Proc.devRef .tc main_arg0)) (V (Proc.devRef .tc main_arg2)) := by
  after_results_simp <;> rfl

theorem w0_out_v6 (V : Valuation τ sig (Elt F)) :
    after (w0 : List (HloOp τ sig (Elt F))) V (Proc.devRef .tc main_v6) = Cert.RefStages.s6 (F := F) (V (Proc.devRef .tc main_arg0)) (V (Proc.devRef .tc main_arg2)) := by
  after_results_simp <;> rfl

theorem wq0_out_v19 (V : Valuation τ sig (Elt F)) :
    after (wq0 : List (HloOp τ sig (Elt F))) V (Proc.devRef .tc main_v19) = Cert.RefStages.s19 (F := F) (Cert.RefStages.s14 (F := F) (V (Proc.devRef .tc main_v5)) (V (Proc.devRef .tc main_v6))) := by
  after_results_simp <;> rfl

theorem wq0_keep_v5 (V : Valuation τ sig (Elt F)) :
    after (wq0 : List (HloOp τ sig (Elt F))) V (Proc.devRef .tc main_v5) = V (Proc.devRef .tc main_v5) := by
  after_results_simp <;> rfl

theorem wq0_keep_v6 (V : Valuation τ sig (Elt F)) :
    after (wq0 : List (HloOp τ sig (Elt F))) V (Proc.devRef .tc main_v6) = V (Proc.devRef .tc main_v6) := by
  after_results_simp <;> rfl

theorem wq1_out_v32 (V : Valuation τ sig (Elt F)) :
    after (wq1 : List (HloOp τ sig (Elt F))) V (Proc.devRef .tc main_v32) = Cert.RefStages.s32 (F := F) (V (Proc.devRef .tc main_v19)) (Cert.RefStages.s26 (F := F) (V (Proc.devRef .tc main_v5)) (V (Proc.devRef .tc main_v6))) := by
  after_results_simp <;> rfl

theorem wq1_keep_v5 (V : Valuation τ sig (Elt F)) :
    after (wq1 : List (HloOp τ sig (Elt F))) V (Proc.devRef .tc main_v5) = V (Proc.devRef .tc main_v5) := by
  after_results_simp <;> rfl

theorem wq1_keep_v6 (V : Valuation τ sig (Elt F)) :
    after (wq1 : List (HloOp τ sig (Elt F))) V (Proc.devRef .tc main_v6) = V (Proc.devRef .tc main_v6) := by
  after_results_simp <;> rfl

theorem wq2_out_v45 (V : Valuation τ sig (Elt F)) :
    after (wq2 : List (HloOp τ sig (Elt F))) V (Proc.devRef .tc main_v45) = Cert.RefStages.s45 (F := F) (V (Proc.devRef .tc main_v32)) (Cert.RefStages.s39 (F := F) (V (Proc.devRef .tc main_v5)) (V (Proc.devRef .tc main_v6))) := by
  after_results_simp <;> rfl

theorem wq2_keep_v5 (V : Valuation τ sig (Elt F)) :
    after (wq2 : List (HloOp τ sig (Elt F))) V (Proc.devRef .tc main_v5) = V (Proc.devRef .tc main_v5) := by
  after_results_simp <;> rfl

theorem wq2_keep_v6 (V : Valuation τ sig (Elt F)) :
    after (wq2 : List (HloOp τ sig (Elt F))) V (Proc.devRef .tc main_v6) = V (Proc.devRef .tc main_v6) := by
  after_results_simp <;> rfl

theorem wq3_out_v58 (V : Valuation τ sig (Elt F)) :
    after (wq3 : List (HloOp τ sig (Elt F))) V (Proc.devRef .tc main_v58) = Cert.RefStages.s58 (F := F) (V (Proc.devRef .tc main_v45)) (Cert.RefStages.s52 (F := F) (V (Proc.devRef .tc main_v5)) (V (Proc.devRef .tc main_v6))) := by
  after_results_simp <;> rfl

theorem wq3_keep_v5 (V : Valuation τ sig (Elt F)) :
    after (wq3 : List (HloOp τ sig (Elt F))) V (Proc.devRef .tc main_v5) = V (Proc.devRef .tc main_v5) := by
  after_results_simp <;> rfl

theorem wq3_keep_v6 (V : Valuation τ sig (Elt F)) :
    after (wq3 : List (HloOp τ sig (Elt F))) V (Proc.devRef .tc main_v6) = V (Proc.devRef .tc main_v6) := by
  after_results_simp <;> rfl

theorem wq4_out_v71 (V : Valuation τ sig (Elt F)) :
    after (wq4 : List (HloOp τ sig (Elt F))) V (Proc.devRef .tc main_v71) = Cert.RefStages.s71 (F := F) (V (Proc.devRef .tc main_v58)) (Cert.RefStages.s65 (F := F) (V (Proc.devRef .tc main_v5)) (V (Proc.devRef .tc main_v6))) := by
  after_results_simp <;> rfl

theorem wq4_keep_v5 (V : Valuation τ sig (Elt F)) :
    after (wq4 : List (HloOp τ sig (Elt F))) V (Proc.devRef .tc main_v5) = V (Proc.devRef .tc main_v5) := by
  after_results_simp <;> rfl

theorem wq4_keep_v6 (V : Valuation τ sig (Elt F)) :
    after (wq4 : List (HloOp τ sig (Elt F))) V (Proc.devRef .tc main_v6) = V (Proc.devRef .tc main_v6) := by
  after_results_simp <;> rfl

theorem wq5_out_v84 (V : Valuation τ sig (Elt F)) :
    after (wq5 : List (HloOp τ sig (Elt F))) V (Proc.devRef .tc main_v84) = Cert.RefStages.s84 (F := F) (V (Proc.devRef .tc main_v71)) (Cert.RefStages.s78 (F := F) (V (Proc.devRef .tc main_v5)) (V (Proc.devRef .tc main_v6))) := by
  after_results_simp <;> rfl

theorem wq5_keep_v5 (V : Valuation τ sig (Elt F)) :
    after (wq5 : List (HloOp τ sig (Elt F))) V (Proc.devRef .tc main_v5) = V (Proc.devRef .tc main_v5) := by
  after_results_simp <;> rfl

theorem wq5_keep_v6 (V : Valuation τ sig (Elt F)) :
    after (wq5 : List (HloOp τ sig (Elt F))) V (Proc.devRef .tc main_v6) = V (Proc.devRef .tc main_v6) := by
  after_results_simp <;> rfl

theorem wq6_out_v97 (V : Valuation τ sig (Elt F)) :
    after (wq6 : List (HloOp τ sig (Elt F))) V (Proc.devRef .tc main_v97) = Cert.RefStages.s97 (F := F) (V (Proc.devRef .tc main_v84)) (Cert.RefStages.s91 (F := F) (V (Proc.devRef .tc main_v5)) (V (Proc.devRef .tc main_v6))) := by
  after_results_simp <;> rfl

theorem w98_out_v98 (V : Valuation τ sig (Elt F)) :
    after (w98 : List (HloOp τ sig (Elt F))) V (Proc.devRef .tc main_v98) = Cert.RefStages.s98 (F := F) (V (Proc.devRef .tc main_v97)) := by
  after_results_simp <;> rfl

theorem wc0_out_v102 (V : Valuation τ sig (Elt F)) :
    after (wc0 : List (HloOp τ sig (Elt F))) V (Proc.devRef .tc main_v102) = Cert.RefStages.s102 (F := F) (V (Proc.devRef .tc main_v98)) := by
  after_results_simp <;> rfl

theorem wc1_out_v106 (V : Valuation τ sig (Elt F)) :
    after (wc1 : List (HloOp τ sig (Elt F))) V (Proc.devRef .tc main_v106) = Cert.RefStages.s106 (F := F) (V (Proc.devRef .tc main_v102)) := by
  after_results_simp <;> rfl

theorem wc2_out_v110 (V : Valuation τ sig (Elt F)) :
    after (wc2 : List (HloOp τ sig (Elt F))) V (Proc.devRef .tc main_v110) = Cert.RefStages.s110 (F := F) (V (Proc.devRef .tc main_v106)) := by
  after_results_simp <;> rfl

theorem wc3_out_v114 (V : Valuation τ sig (Elt F)) :
    after (wc3 : List (HloOp τ sig (Elt F))) V (Proc.devRef .tc main_v114) = Cert.RefStages.s114 (F := F) (V (Proc.devRef .tc main_v110)) := by
  after_results_simp <;> rfl

theorem wc4_out_v118 (V : Valuation τ sig (Elt F)) :
    after (wc4 : List (HloOp τ sig (Elt F))) V (Proc.devRef .tc main_v118) = Cert.RefStages.s118 (F := F) (V (Proc.devRef .tc main_v114)) := by
  after_results_simp <;> rfl

theorem wc5_out_v122 (V : Valuation τ sig (Elt F)) :
    after (wc5 : List (HloOp τ sig (Elt F))) V (Proc.devRef .tc main_v122) = Cert.RefStages.s122 (F := F) (V (Proc.devRef .tc main_v118)) := by
  after_results_simp <;> rfl

theorem wc6_out_v126 (V : Valuation τ sig (Elt F)) :
    after (wc6 : List (HloOp τ sig (Elt F))) V (Proc.devRef .tc main_v126) = Cert.RefStages.s126 (F := F) (V (Proc.devRef .tc main_v122)) := by
  after_results_simp <;> rfl

theorem w129_out_v129 (V : Valuation τ sig (Elt F)) :
    after (w129 : List (HloOp τ sig (Elt F))) V (Proc.devRef .tc main_v129) = Cert.RefStages.s129 (F := F) (V (Proc.devRef .tc main_v126)) := by
  after_results_simp <;> rfl

theorem w134_out_v134 (V : Valuation τ sig (Elt F)) :
    after (w134 : List (HloOp τ sig (Elt F))) V (Proc.devRef .tc main_v134) = Cert.RefStages.s134 (F := F) (V (Proc.devRef .tc main_v129)) := by
  after_results_simp <;> rfl

theorem wTail_out_v150 (V : Valuation τ sig (Elt F)) :
    after (wTail : List (HloOp τ sig (Elt F))) V (Proc.devRef .tc main_v150) = Cert.RefStages.s150 (F := F) (V (Proc.devRef .tc main_v134)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  after_results_simp <;> rfl

theorem wTail_keep_arg0 (V : Valuation τ sig (Elt F)) :
    after (wTail : List (HloOp τ sig (Elt F))) V (Proc.devRef .tc main_arg0) = V (Proc.devRef .tc main_arg0) := by
  after_results_simp <;> rfl

theorem wTail_keep_arg1 (V : Valuation τ sig (Elt F)) :
    after (wTail : List (HloOp τ sig (Elt F))) V (Proc.devRef .tc main_arg1) = V (Proc.devRef .tc main_arg1) := by
  after_results_simp <;> rfl

theorem wTail_keep_arg2 (V : Valuation τ sig (Elt F)) :
    after (wTail : List (HloOp τ sig (Elt F))) V (Proc.devRef .tc main_arg2) = V (Proc.devRef .tc main_arg2) := by
  after_results_simp <;> rfl

theorem wTail_keep_arg3 (V : Valuation τ sig (Elt F)) :
    after (wTail : List (HloOp τ sig (Elt F))) V (Proc.devRef .tc main_arg3) = V (Proc.devRef .tc main_arg3) := by
  after_results_simp <;> rfl

theorem wTail_keep_arg4 (V : Valuation τ sig (Elt F)) :
    after (wTail : List (HloOp τ sig (Elt F))) V (Proc.devRef .tc main_arg4) = V (Proc.devRef .tc main_arg4) := by
  after_results_simp <;> rfl

theorem wTail_keep_arg5 (V : Valuation τ sig (Elt F)) :
    after (wTail : List (HloOp τ sig (Elt F))) V (Proc.devRef .tc main_arg5) = V (Proc.devRef .tc main_arg5) := by
  after_results_simp <;> rfl

theorem wTail_keep_arg6 (V : Valuation τ sig (Elt F)) :
    after (wTail : List (HloOp τ sig (Elt F))) V (Proc.devRef .tc main_arg6) = V (Proc.devRef .tc main_arg6) := by
  after_results_simp <;> rfl

theorem wTail_keep_arg7 (V : Valuation τ sig (Elt F)) :
    after (wTail : List (HloOp τ sig (Elt F))) V (Proc.devRef .tc main_arg7) = V (Proc.devRef .tc main_arg7) := by
  after_results_simp <;> rfl

theorem wTail_keep_arg8 (V : Valuation τ sig (Elt F)) :
    after (wTail : List (HloOp τ sig (Elt F))) V (Proc.devRef .tc main_arg8) = V (Proc.devRef .tc main_arg8) := by
  after_results_simp <;> rfl

set_option maxHeartbeats 8000000 in
set_option maxRecDepth 8192 in
theorem opsHead_keep_arg0 (V : Valuation τ sig (Elt F)) :
    after (opsHead : List (HloOp τ sig (Elt F))) V (Proc.devRef .tc main_arg0) = V (Proc.devRef .tc main_arg0) := by
  after_results_simp <;> rfl

set_option maxHeartbeats 8000000 in
set_option maxRecDepth 8192 in
theorem opsHead_keep_arg1 (V : Valuation τ sig (Elt F)) :
    after (opsHead : List (HloOp τ sig (Elt F))) V (Proc.devRef .tc main_arg1) = V (Proc.devRef .tc main_arg1) := by
  after_results_simp <;> rfl

set_option maxHeartbeats 8000000 in
set_option maxRecDepth 8192 in
theorem opsHead_keep_arg2 (V : Valuation τ sig (Elt F)) :
    after (opsHead : List (HloOp τ sig (Elt F))) V (Proc.devRef .tc main_arg2) = V (Proc.devRef .tc main_arg2) := by
  after_results_simp <;> rfl

set_option maxHeartbeats 8000000 in
set_option maxRecDepth 8192 in
theorem opsHead_keep_arg3 (V : Valuation τ sig (Elt F)) :
    after (opsHead : List (HloOp τ sig (Elt F))) V (Proc.devRef .tc main_arg3) = V (Proc.devRef .tc main_arg3) := by
  after_results_simp <;> rfl

set_option maxHeartbeats 8000000 in
set_option maxRecDepth 8192 in
theorem opsHead_keep_arg4 (V : Valuation τ sig (Elt F)) :
    after (opsHead : List (HloOp τ sig (Elt F))) V (Proc.devRef .tc main_arg4) = V (Proc.devRef .tc main_arg4) := by
  after_results_simp <;> rfl

set_option maxHeartbeats 8000000 in
set_option maxRecDepth 8192 in
theorem opsHead_keep_arg5 (V : Valuation τ sig (Elt F)) :
    after (opsHead : List (HloOp τ sig (Elt F))) V (Proc.devRef .tc main_arg5) = V (Proc.devRef .tc main_arg5) := by
  after_results_simp <;> rfl

set_option maxHeartbeats 8000000 in
set_option maxRecDepth 8192 in
theorem opsHead_keep_arg6 (V : Valuation τ sig (Elt F)) :
    after (opsHead : List (HloOp τ sig (Elt F))) V (Proc.devRef .tc main_arg6) = V (Proc.devRef .tc main_arg6) := by
  after_results_simp <;> rfl

set_option maxHeartbeats 8000000 in
set_option maxRecDepth 8192 in
theorem opsHead_keep_arg7 (V : Valuation τ sig (Elt F)) :
    after (opsHead : List (HloOp τ sig (Elt F))) V (Proc.devRef .tc main_arg7) = V (Proc.devRef .tc main_arg7) := by
  after_results_simp <;> rfl

set_option maxHeartbeats 8000000 in
set_option maxRecDepth 8192 in
theorem opsHead_keep_arg8 (V : Valuation τ sig (Elt F)) :
    after (opsHead : List (HloOp τ sig (Elt F))) V (Proc.devRef .tc main_arg8) = V (Proc.devRef .tc main_arg8) := by
  after_results_simp <;> rfl

end Cert.RefRun

end
-- ==== Proof.RefRun.lean ====
/-
  The reference program's run, read stage by stage.

  Every weakly fair execution of the reference's @main terminates, and its result buffer ends holding `refOut` of the
  nine argument arrays (RefStages: the stages composed, each intermediate array named once), the arguments unchanged.
  The contents of the result buffer after the whole list are read from the last stretch backwards: each stretch's
  result is its stage's function of what the stretches before it left in the buffers it reads.
-/
import proofs.«125050_j21938692948013_1_alg».proof.Proof.RefWindows

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- After everything before the perceptron, the quantum number's buffer holds `quantum` of the two arrays it depends on. -/
theorem head_eq (V : Valuation τ sig (Elt F)) :
    after (opsHead : List (HloOp τ sig (Elt F))) V (Proc.devRef .tc main_v134) = Cert.RefStages.quantum (F := F) (V (Proc.devRef .tc main_arg0)) (V (Proc.devRef .tc main_arg2)) := by
  rw [opsHead_eq]
  simp only [after_append]
  rw [w134_out_v134,
    w129_out_v129,
    wc6_out_v126,
    wc5_out_v122,
    wc4_out_v118,
    wc3_out_v114,
    wc2_out_v110,
    wc1_out_v106,
    wc0_out_v102,
    w98_out_v98,
    wq6_out_v97,
    wq5_out_v84,
    wq5_keep_v5,
    wq5_keep_v6,
    wq4_out_v71,
    wq4_keep_v5,
    wq4_keep_v6,
    wq3_out_v58,
    wq3_keep_v5,
    wq3_keep_v6,
    wq2_out_v45,
    wq2_keep_v5,
    wq2_keep_v6,
    wq1_out_v32,
    wq1_keep_v5,
    wq1_keep_v6,
    wq0_out_v19,
    wq0_keep_v5,
    wq0_keep_v6,
    w0_out_v5,
    w0_out_v6]
  rfl

/-- After the whole list, the result buffer holds `refOut` of the arguments. -/
theorem result_eq (V : Valuation τ sig (Elt F)) :
    after (ops : List (HloOp τ sig (Elt F))) V (Proc.devRef .tc main_v150) = Cert.RefStages.refOut (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [ops_eq, after_append, wTail_out_v150, head_eq, opsHead_keep_arg1, opsHead_keep_arg3, opsHead_keep_arg4, opsHead_keep_arg5, opsHead_keep_arg6, opsHead_keep_arg7, opsHead_keep_arg8]
  rfl

/-- Argument 0 is never written. -/
theorem ops_keep_arg0 (V : Valuation τ sig (Elt F)) :
    after (ops : List (HloOp τ sig (Elt F))) V (Proc.devRef .tc main_arg0) = V (Proc.devRef .tc main_arg0) := by
  rw [ops_eq, after_append, wTail_keep_arg0, opsHead_keep_arg0]

/-- Argument 1 is never written. -/
theorem ops_keep_arg1 (V : Valuation τ sig (Elt F)) :
    after (ops : List (HloOp τ sig (Elt F))) V (Proc.devRef .tc main_arg1) = V (Proc.devRef .tc main_arg1) := by
  rw [ops_eq, after_append, wTail_keep_arg1, opsHead_keep_arg1]

/-- Argument 2 is never written. -/
theorem ops_keep_arg2 (V : Valuation τ sig (Elt F)) :
    after (ops : List (HloOp τ sig (Elt F))) V (Proc.devRef .tc main_arg2) = V (Proc.devRef .tc main_arg2) := by
  rw [ops_eq, after_append, wTail_keep_arg2, opsHead_keep_arg2]

/-- Argument 3 is never written. -/
theorem ops_keep_arg3 (V : Valuation τ sig (Elt F)) :
    after (ops : List (HloOp τ sig (Elt F))) V (Proc.devRef .tc main_arg3) = V (Proc.devRef .tc main_arg3) := by
  rw [ops_eq, after_append, wTail_keep_arg3, opsHead_keep_arg3]

/-- Argument 4 is never written. -/
theorem ops_keep_arg4 (V : Valuation τ sig (Elt F)) :
    after (ops : List (HloOp τ sig (Elt F))) V (Proc.devRef .tc main_arg4) = V (Proc.devRef .tc main_arg4) := by
  rw [ops_eq, after_append, wTail_keep_arg4, opsHead_keep_arg4]

/-- Argument 5 is never written. -/
theorem ops_keep_arg5 (V : Valuation τ sig (Elt F)) :
    after (ops : List (HloOp τ sig (Elt F))) V (Proc.devRef .tc main_arg5) = V (Proc.devRef .tc main_arg5) := by
  rw [ops_eq, after_append, wTail_keep_arg5, opsHead_keep_arg5]

/-- Argument 6 is never written. -/
theorem ops_keep_arg6 (V : Valuation τ sig (Elt F)) :
    after (ops : List (HloOp τ sig (Elt F))) V (Proc.devRef .tc main_arg6) = V (Proc.devRef .tc main_arg6) := by
  rw [ops_eq, after_append, wTail_keep_arg6, opsHead_keep_arg6]

/-- Argument 7 is never written. -/
theorem ops_keep_arg7 (V : Valuation τ sig (Elt F)) :
    after (ops : List (HloOp τ sig (Elt F))) V (Proc.devRef .tc main_arg7) = V (Proc.devRef .tc main_arg7) := by
  rw [ops_eq, after_append, wTail_keep_arg7, opsHead_keep_arg7]

/-- Argument 8 is never written. -/
theorem ops_keep_arg8 (V : Valuation τ sig (Elt F)) :
    after (ops : List (HloOp τ sig (Elt F))) V (Proc.devRef .tc main_arg8) = V (Proc.devRef .tc main_arg8) := by
  rw [ops_eq, after_append, wTail_keep_arg8, opsHead_keep_arg8]

/-- On every device, for any float values, from any memory with zero counters: every weakly fair execution of @main
    terminates with the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v150) = Cert.RefStages.refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v150).trans (result_eq (launchContents m c)),
      (h c main_arg0).trans (ops_keep_arg0 (launchContents m c)),
      (h c main_arg1).trans (ops_keep_arg1 (launchContents m c)),
      (h c main_arg2).trans (ops_keep_arg2 (launchContents m c)),
      (h c main_arg3).trans (ops_keep_arg3 (launchContents m c)),
      (h c main_arg4).trans (ops_keep_arg4 (launchContents m c)),
      (h c main_arg5).trans (ops_keep_arg5 (launchContents m c)),
      (h c main_arg6).trans (ops_keep_arg6 (launchContents m c)),
      (h c main_arg7).trans (ops_keep_arg7 (launchContents m c)),
      (h c main_arg8).trans (ops_keep_arg8 (launchContents m c))⟩)
    (run_seq scopedRefs_eq scopedSems_eq defs main (fun _ => ops) main_eq (fun _ => ops_sub) m ρ)

end Cert.RefRun

end
-- ==== Proof.lean ====
/-
  The proof of `Cert.Claim`: the kernel and the reference compute, at the ideal instance, the same array.

  Both programs apply one perceptron (17 → 32 → 16 → 1, a positive part after the first two layers) to a per-sample
  quantum number placed before sixteen classical features; they differ in how that number is obtained. The reference
  simulates seven wires: the product state with amplitudes `cos (θ i / 2)`, `sin (θ i / 2)`, a ring of controlled-NOT
  gates, and the expectation of Pauli-Z on wire 0. The ring sends wire 0's label to the parity of the labels of wires
  1 … 6, so the expectation factors over those wires, each factor `cos² (θ i / 2) − sin² (θ i / 2) = cos (θ i)` and the
  factor of wire 0 `cos² + sin² = 1`: the number is the product of `cos (θ i)` over wires 1 … 6, which is what the kernel
  multiplies out directly. The identities are those of real angles; the precondition (every input entry has finite
  absolute value) is what makes the half angles `(x_q (r, i) + q_params i) / 2` real numbers.

  The claim's five parts: the three programs run and leave their arguments unchanged (the two kernels' runs are the
  generated ones; the reference's is its run with the result dropped); the idealized kernel is the kernel's own text, so
  there is nothing to preserve; and from agreeing arguments both runs end with `Cert.Spec.mlp` of
  `Cert.Spec.cosProd` of the arguments.
-/
import proofs.«125050_j21938692948013_1_alg».proof.Defs
import proofs.«125050_j21938692948013_1_alg».proof.Proof.Gen.Kernel
import proofs.«125050_j21938692948013_1_alg».proof.Proof.Gen.Kernel.Skeleton
import proofs.«125050_j21938692948013_1_alg».proof.Proof.Gen.Kernel.Launch
import proofs.«125050_j21938692948013_1_alg».proof.Proof.Gen.Kernel.Points
import proofs.«125050_j21938692948013_1_alg».proof.Proof.Gen.Kernel.Frame
import proofs.«125050_j21938692948013_1_alg».proof.Proof.Gen.KernelIdeal
import proofs.«125050_j21938692948013_1_alg».proof.Proof.Gen.KernelIdeal.Skeleton
import proofs.«125050_j21938692948013_1_alg».proof.Proof.Gen.KernelIdeal.Launch
import proofs.«125050_j21938692948013_1_alg».proof.Proof.Gen.KernelIdeal.Points
import proofs.«125050_j21938692948013_1_alg».proof.Proof.Gen.KernelIdeal.Frame
import proofs.«125050_j21938692948013_1_alg».proof.Proof.Gen.ReferenceIdeal
import proofs.«125050_j21938692948013_1_alg».proof.Proof.Gen.Pre_finite_inputs
import proofs.«125050_j21938692948013_1_alg».proof.Proof.Gen.KernelIdeal.Value
import proofs.«125050_j21938692948013_1_alg».proof.Proof.Spec
import proofs.«125050_j21938692948013_1_alg».proof.Proof.KernelRun
import proofs.«125050_j21938692948013_1_alg».proof.Proof.RefStages
import proofs.«125050_j21938692948013_1_alg».proof.Proof.RefTail
import proofs.«125050_j21938692948013_1_alg».proof.Proof.FiniteArgs
import proofs.«125050_j21938692948013_1_alg».proof.Proof.QuantumEq
import proofs.«125050_j21938692948013_1_alg».proof.Proof.RefRun
import Idealize.ShloMosaic.Adequacy
import Idealize.ShloMosaic.Init

noncomputable section

namespace Cert.Proof

open Idealize.ShloMosaic Idealize.ShloMosaic.TcCoe Idealize.ShloMosaic.ValueIdx Idealize.SL.Sem

/-- The reference's result is the perceptron on the product of the cosines of wires 1 … 6, when the angle inputs are
    real numbers. -/
theorem ref_value (x0 : FVec Ideal Cert.ReferenceIdeal.S262144x7 .f32) (x1 : FVec Ideal Cert.ReferenceIdeal.S262144x16 .f32)
    (x2 : FVec Ideal Cert.ReferenceIdeal.S7 .f32) (x3 : FVec Ideal Cert.ReferenceIdeal.S17x32 .f32)
    (x4 : FVec Ideal Cert.ReferenceIdeal.S32 .f32) (x5 : FVec Ideal Cert.ReferenceIdeal.S32x16 .f32)
    (x6 : FVec Ideal Cert.ReferenceIdeal.S16 .f32) (x7 : FVec Ideal Cert.ReferenceIdeal.S16x1 .f32)
    (x8 : FVec Ideal Cert.ReferenceIdeal.S1 .f32)
    (h0 : ∀ i, ∃ x : ℝ, x0 i = (x : EReal)) (h2 : ∀ i, ∃ x : ℝ, x2 i = (x : EReal)) :
    Cert.RefStages.refOut (F := Ideal) x0 x1 x2 x3 x4 x5 x6 x7 x8
      = Cert.Spec.mlp (Cert.Spec.cosProd x0 x2) x1 x3 x4 x5 x6 x7 x8 := by
  unfold Cert.RefStages.refOut
  rw [Cert.RefSide.tail]
  exact Cert.Spec.mlp_congr (fun r => Cert.QuantumEq.quantum_eq x0 x2 h0 h2 r) x1 x3 x4 x5 x6 x7 x8

/-- The kernel runs and leaves its arguments unchanged. -/
theorem frame_k : Cert.frame_Kernel := fun m ρ _ => Cert.Kernel.Gen.frame m ρ
/-- The kernel read at the ideal instance runs and leaves its arguments unchanged. -/
theorem frame_ki : Cert.frame_KernelIdeal := fun m ρ _ => Cert.KernelIdeal.Gen.frame m ρ
/-- The reference runs and leaves its arguments unchanged: its run, with what it says of the result dropped. -/
theorem frame_ri : Cert.frame_ReferenceIdeal := fun m ρ _ =>
  (θ_run Cert.ReferenceIdeal.defs _ _).mono (fun _ h c => (h c).2) (Cert.RefRun.run (F := Ideal) m ρ)
/-- The idealized kernel is the kernel's own text read at the ideal instance: no operation was rewritten. -/
theorem preserves : Cert.preserves_Kernel_KernelIdeal := trivial

/-- From agreeing arguments of finite entries, both programs end with the perceptron applied to the product of the
    cosines of wires 1 … 6: the kernel by its run, the reference by its run and `ref_value`. -/
theorem algebraic : Cert.algebraic_KernelIdeal_ReferenceIdeal := by
  intro m ρ m' ρ' hpre hagree
  refine ⟨_, Cert.KernelSide.run m ρ, ?_⟩
  refine (θ_run Cert.ReferenceIdeal.defs _ _).mono (fun _ h c => ⟨(h c).1.trans ?_, (h c).2⟩)
    (Cert.RefRun.run (F := Ideal) m' ρ')
  obtain ⟨e0, e1, e2, e3, e4, e5, e6, e7, e8⟩ := hagree c
  rw [e0, e1, e2, e3, e4, e5, e6, e7, e8]
  exact ref_value _ _ _ _ _ _ _ _ _ (Cert.FiniteArgs.real_xq _ _ _ _ _ _ _ _ _ (hpre c))
    (Cert.FiniteArgs.real_qp _ _ _ _ _ _ _ _ _ (hpre c))

/-- The five parts, behind the witnesses of the side conditions the programs state. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
